-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768 : Shape := ⟨2, ![256, 32768]⟩
abbrev S256 : Shape := ⟨1, ![256]⟩
abbrev S_ : Shape := ⟨0, ![]⟩

class Facts : Prop where
  bcast_S_S256x32768 : S_.BroadcastsInDim S256x32768 (![] : Fin 0 → Fin S256x32768.rank)
  reducesTo_S256x32768_S_d0_1 : S256x32768.ReducesTo [0, 1] S_
  h_S_ : 0 < S_.numel

variable [Facts]

def fn {F : FTy → Type} [FloatOps F] (main_arg0 : FVec F S256x32768 .f32) (main_arg1 : IVec S256 32) : IVec S_ 1 :=
  let main_v0 : FVec F S256x32768 .f32 := Host.absf main_arg0
  let main_cst : FVec F S_ .f32 := constant S_ .f32 0x7F800000#32
  let main_v1 : FVec F S256x32768 .f32 := broadcastInDim S256x32768 ![] bcast_S_S256x32768 main_cst
  let main_v2 : IVec S256x32768 1 := cmpf .olt main_v0 main_v1
  let main_c : IVec S_ 1 := constantI S_ 1 1#1
  let main_v3 : IVec S_ 1 := (fun x v => Host.reduce IntOp.andi x v reducesTo_S256x32768_S_d0_1 h_S_) main_v2 main_c
  main_v3
-- ==== Kernel.lean ====
abbrev S256x32768 : Shape := ⟨2, ![256, 32768]⟩
abbrev S256 : Shape := ⟨1, ![256]⟩
abbrev S256x256 : Shape := ⟨2, ![256, 256]⟩
abbrev S256x4096 : Shape := ⟨2, ![256, 4096]⟩
abbrev S256x1 : Shape := ⟨2, ![256, 1]⟩
abbrev S4096x256 : Shape := ⟨2, ![4096, 256]⟩
abbrev S1x256 : Shape := ⟨2, ![1, 256]⟩
abbrev S1x1 : Shape := ⟨2, ![1, 1]⟩
abbrev S32x256 : Shape := ⟨2, ![32, 256]⟩
abbrev S1 : Shape := ⟨1, ![1]⟩
abbrev S_ : Shape := ⟨0, ![]⟩

abbrev nBuf : Space → Nat
  | .hbm => 25
  | .vmem => 13
  | .smem => 0
  | _ => 0

abbrev bufTy : (tb : Table) → Fin (tcTables nBuf tb) → BufTy
  | .hbm, ⟨0, _⟩ => ⟨S256x32768, .f32⟩
  | .hbm, ⟨1, _⟩ => ⟨S256, .i32⟩
  | .hbm, ⟨2, _⟩ => ⟨S256x256, .f32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256, .i32⟩
  | .hbm, ⟨9, _⟩ => ⟨S256x1, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .i1⟩
  | .hbm, ⟨15, _⟩ => ⟨S256x256, .f32⟩
  | .hbm, ⟨16, _⟩ => ⟨S256x256, .i1⟩
  | .hbm, ⟨17, _⟩ => ⟨S256x256, .f32⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x256, .f32⟩
  | .local _ .vmem, ⟨3, _⟩ => ⟨S256x256, .f32⟩
  | .local _ .vmem, ⟨4, _⟩ => ⟨S256x1, .f32⟩
  | .local _ .vmem, ⟨5, _⟩ => ⟨S256x256, .f32⟩
  | .local _ .vmem, ⟨6, _⟩ => ⟨S32x256, .f32⟩
  | .local _ .vmem, ⟨7, _⟩ => ⟨S32x256, .f32⟩
  | .local _ .vmem, ⟨8, _⟩ => ⟨S256x256, .f32⟩
  | .local _ .vmem, ⟨9, _⟩ => ⟨S32x256, .f32⟩
  | .local _ .vmem, ⟨10, _⟩ => ⟨S32x256, .f32⟩
  | .local _ .vmem, ⟨11, _⟩ => ⟨S1x1, .f32⟩
  | .local _ .vmem, ⟨12, _⟩ => ⟨S1x1, .f32⟩
  | _, _ => ⟨S256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16_0 : Ref sig .tc := ⟨.hbm, 18, rfl⟩
abbrev main_v16_1 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  transposes_S256x4096_p1_0_S4096x256 : S256x4096.Transposes [1, 0] S4096x256
  reduces_S256x4096_S256 : S256x4096.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  inb_S1x1_S1x1_0_0 : ∀ a, (![0, 0] : Fin 2 → Nat) a + S1x1.size a ≤ S1x1.size a
  h_S1x1 : 0 < S1x1.numel
  inb_S32x256_S1x256_0_0 : ∀ a, (![0, 0] : Fin 2 → Nat) a + S1x256.size a ≤ S32x256.size a
  h_S1x256 : 0 < S1x256.numel
  shapeCasts_S1x256_S1x256 : S1x256.ShapeCasts S1x256
  transposes_S1x256_p1_0_S256x1 : S1x256.Transposes [1, 0] S256x1
  reduces_S256x256_S256 : S256x256.Reduces [1] S256
  reduces_S256x1_S1 : S256x1.Reduces [0] S1
  shapeCasts_S1_S1x1 : S1.ShapeCasts S1x1
  inb_S32x256_S1x256_1_0 : ∀ a, (![1, 0] : Fin 2 → Nat) a + S1x256.size a ≤ S32x256.size a
  inb_S32x256_S1x256_2_0 : ∀ a, (![2, 0] : Fin 2 → Nat) a + S1x256.size a ≤ S32x256.size a
  inb_S32x256_S1x256_3_0 : ∀ a, (![3, 0] : Fin 2 → Nat) a + S1x256.size a ≤ S32x256.size a
  inb_S32x256_S1x256_4_0 : ∀ a, (![4, 0] : Fin 2 → Nat) a + S1x256.size a ≤ S32x256.size a
  inb_S32x256_S1x256_5_0 : ∀ a, (![5, 0] : Fin 2 → Nat) a + S1x256.size a ≤ S32x256.size a
  inb_S32x256_S1x256_6_0 : ∀ a, (![6, 0] : Fin 2 → Nat) a + S1x256.size a ≤ S32x256.size a
  inb_S32x256_S1x256_7_0 : ∀ a, (![7, 0] : Fin 2 → Nat) a + S1x256.size a ≤ S32x256.size a
  inb_S32x256_S1x256_8_0 : ∀ a, (![8, 0] : Fin 2 → Nat) a + S1x256.size a ≤ S32x256.size a
  inb_S32x256_S1x256_9_0 : ∀ a, (![9, 0] : Fin 2 → Nat) a + S1x256.size a ≤ S32x256.size a
  inb_S32x256_S1x256_10_0 : ∀ a, (![10, 0] : Fin 2 → Nat) a + S1x256.size a ≤ S32x256.size a
  inb_S32x256_S1x256_11_0 : ∀ a, (![11, 0] : Fin 2 → Nat) a + S1x256.size a ≤ S32x256.size a
  inb_S32x256_S1x256_12_0 : ∀ a, (![12, 0] : Fin 2 → Nat) a + S1x256.size a ≤ S32x256.size a
  inb_S32x256_S1x256_13_0 : ∀ a, (![13, 0] : Fin 2 → Nat) a + S1x256.size a ≤ S32x256.size a
  inb_S32x256_S1x256_14_0 : ∀ a, (![14, 0] : Fin 2 → Nat) a + S1x256.size a ≤ S32x256.size a
  inb_S32x256_S1x256_15_0 : ∀ a, (![15, 0] : Fin 2 → Nat) a + S1x256.size a ≤ S32x256.size a
  inb_S32x256_S1x256_16_0 : ∀ a, (![16, 0] : Fin 2 → Nat) a + S1x256.size a ≤ S32x256.size a
  inb_S32x256_S1x256_17_0 : ∀ a, (![17, 0] : Fin 2 → Nat) a + S1x256.size a ≤ S32x256.size a
  inb_S32x256_S1x256_18_0 : ∀ a, (![18, 0] : Fin 2 → Nat) a + S1x256.size a ≤ S32x256.size a
  inb_S32x256_S1x256_19_0 : ∀ a, (![19, 0] : Fin 2 → Nat) a + S1x256.size a ≤ S32x256.size a
  inb_S32x256_S1x256_20_0 : ∀ a, (![20, 0] : Fin 2 → Nat) a + S1x256.size a ≤ S32x256.size a
  inb_S32x256_S1x256_21_0 : ∀ a, (![21, 0] : Fin 2 → Nat) a + S1x256.size a ≤ S32x256.size a
  inb_S32x256_S1x256_22_0 : ∀ a, (![22, 0] : Fin 2 → Nat) a + S1x256.size a ≤ S32x256.size a
  inb_S32x256_S1x256_23_0 : ∀ a, (![23, 0] : Fin 2 → Nat) a + S1x256.size a ≤ S32x256.size a
  inb_S32x256_S1x256_24_0 : ∀ a, (![24, 0] : Fin 2 → Nat) a + S1x256.size a ≤ S32x256.size a
  inb_S32x256_S1x256_25_0 : ∀ a, (![25, 0] : Fin 2 → Nat) a + S1x256.size a ≤ S32x256.size a
  inb_S32x256_S1x256_26_0 : ∀ a, (![26, 0] : Fin 2 → Nat) a + S1x256.size a ≤ S32x256.size a
  inb_S32x256_S1x256_27_0 : ∀ a, (![27, 0] : Fin 2 → Nat) a + S1x256.size a ≤ S32x256.size a
  inb_S32x256_S1x256_28_0 : ∀ a, (![28, 0] : Fin 2 → Nat) a + S1x256.size a ≤ S32x256.size a
  inb_S32x256_S1x256_29_0 : ∀ a, (![29, 0] : Fin 2 → Nat) a + S1x256.size a ≤ S32x256.size a
  inb_S32x256_S1x256_30_0 : ∀ a, (![30, 0] : Fin 2 → Nat) a + S1x256.size a ≤ S32x256.size a
  inb_S32x256_S1x256_31_0 : ∀ a, (![31, 0] : Fin 2 → Nat) a + S1x256.size a ≤ S32x256.size a
  shapeCasts_S1x1_S1x1 : S1x1.ShapeCasts S1x1
  shapeCasts_S1x1_S_ : S1x1.ShapeCasts S_
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x32768.size a
  hwx0_0 : ∀ i : grid0.Coords, EltTy.bits .f32 = 32 ∨ (Rect.block (s := S256x32768) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S256x256.size a
  hwx1_1 : ∀ i : grid1.Coords, EltTy.bits .f32 = 32 ∨ (Rect.block (s := S256x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x256.size a ≤ S256x256.size a
  hwx1_3 : ∀ i : grid1.Coords, EltTy.bits .f32 = 32 ∨ (Rect.block (s := S256x256) S32x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S32x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x32768 : Shape := ⟨2, ![256, 32768]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32768x256 : Shape := ⟨2, ![32768, 256]⟩
abbrev S256x256x1 : Shape := ⟨3, ![256, 256, 1]⟩
abbrev S256x1x256 : Shape := ⟨3, ![256, 1, 256]⟩
abbrev S256x256x256 : Shape := ⟨3, ![256, 256, 256]⟩
abbrev S1x256x256 : Shape := ⟨3, ![1, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256, .i32⟩
  | .hbm, ⟨2, _⟩ => ⟨S256x32768, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S32768x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .i1⟩
  | .hbm, ⟨29, _⟩ => ⟨S256x256, .f32⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256, .i32⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S256x256, .i1⟩
  | .hbm, ⟨47, _⟩ => ⟨S256x256x1, .i1⟩
  | .hbm, ⟨48, _⟩ => ⟨S256x1x256, .i1⟩
  | .hbm, ⟨49, _⟩ => ⟨S256x256x256, .i1⟩
  | .hbm, ⟨50, _⟩ => ⟨S256x256x256, .i1⟩
  | .hbm, ⟨51, _⟩ => ⟨S256x256x256, .i1⟩
  | .hbm, ⟨52, _⟩ => ⟨S256x256x256, .f32⟩
  | .hbm, ⟨53, _⟩ => ⟨S256x256x1, .f32⟩
  | .hbm, ⟨54, _⟩ => ⟨S256x1x256, .f32⟩
  | .hbm, ⟨55, _⟩ => ⟨S256x256x256, .f32⟩
  | .hbm, ⟨56, _⟩ => ⟨S256x256x256, .f32⟩
  | .hbm, ⟨57, _⟩ => ⟨S256x256x256, .f32⟩
  | .hbm, ⟨58, _⟩ => ⟨S_, .f32⟩
  | .hbm, ⟨59, _⟩ => ⟨S256x256x256, .f32⟩
  | .hbm, ⟨60, _⟩ => ⟨S256x256x256, .f32⟩
  | .hbm, ⟨61, _⟩ => ⟨S_, .f32⟩
  | .hbm, ⟨62, _⟩ => ⟨S256x256x256, .f32⟩
  | .hbm, ⟨63, _⟩ => ⟨S256x256x256, .f32⟩
  | .hbm, ⟨64, _⟩ => ⟨S256x256x1, .f32⟩
  | .hbm, ⟨65, _⟩ => ⟨S1x256x256, .f32⟩
  | .hbm, ⟨66, _⟩ => ⟨S256x256x256, .f32⟩
  | .hbm, ⟨67, _⟩ => ⟨S256x256x256, .f32⟩
  | .hbm, ⟨68, _⟩ => ⟨S256x256x256, .f32⟩
  | .hbm, ⟨69, _⟩ => ⟨S_, .f32⟩
  | .hbm, ⟨70, _⟩ => ⟨S256x256x256, .f32⟩
  | .hbm, ⟨71, _⟩ => ⟨S256x256x256, .f32⟩
  | .hbm, ⟨72, _⟩ => ⟨S_, .f32⟩
  | .hbm, ⟨73, _⟩ => ⟨S256x256x256, .f32⟩
  | .hbm, ⟨74, _⟩ => ⟨S256x256x256, .f32⟩
  | .hbm, ⟨75, _⟩ => ⟨S256x256x256, .f32⟩
  | .hbm, ⟨76, _⟩ => ⟨S256x256x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_call2_cst : Ref sig .tc := ⟨.hbm, 61, rfl⟩
abbrev main_call2_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_call3_cst : Ref sig .tc := ⟨.hbm, 72, rfl⟩
abbrev main_call3_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  reducesTo_S256x32768_S256_d1 : S256x32768.ReducesTo [1] S256
  h_S_ : 0 < S_.numel
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S256x32768_S32768x256_1_0 : S256x32768.Transposes [1, 0] S32768x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256_S256x1x256_0_2 : S256x256.BroadcastsInDim S256x1x256 (![0, 2] : Fin 2 → Fin S256x1x256.rank)
  bcast_S256x256x1_S256x256x256_0_1_2 : S256x256x1.BroadcastsInDim S256x256x256 (![0, 1, 2] : Fin 3 → Fin S256x256x256.rank)
  bcast_S256x1x256_S256x256x256_0_1_2 : S256x1x256.BroadcastsInDim S256x256x256 (![0, 1, 2] : Fin 3 → Fin S256x256x256.rank)
  bcast_S_S256x256x256 : S_.BroadcastsInDim S256x256x256 (![] : Fin 0 → Fin S256x256x256.rank)
  bcast_S256x256_S1x256x256_1_2 : S256x256.BroadcastsInDim S1x256x256 (![1, 2] : Fin 2 → Fin S1x256x256.rank)
  bcast_S1x256x256_S256x256x256_0_1_2 : S1x256x256.BroadcastsInDim S256x256x256 (![0, 1, 2] : Fin 3 → Fin S256x256x256.rank)
  reducesTo_S256x256x256_S_d0_1_2 : S256x256x256.ReducesTo [0, 1, 2] S_
  dot_S256x32768_S32768x256_S256x256_1_0_0_1_n_n_wf : DotDims.WF S256x32768 S32768x256 S256x256 [1] [0] [0] [1] [] []

variable [Facts₀]

def dot_S256x32768_S32768x256_S256x256_1_0_0_1_n_n : DotDims S256x32768 S32768x256 S256x256 where
  lhsContracting := [1]
  rhsContracting := [0]
  lhsNonContracting := [0]
  rhsNonContracting := [1]
  lhsBatch := []
  rhsBatch := []
  wf := dot_S256x32768_S32768x256_S256x256_1_0_0_1_n_n_wf

class Facts : Prop extends Facts₀ where

variable [Facts]
-- ==== Proof.Word.Gram.Base.lean ====
/-
  The first region computes the matrix of pairwise distances. Its grid has eight points, one per block of 4096
  columns of the codes. Two scratch buffers live across the points: the Gram matrix accumulated so far and the
  column of squared norms accumulated so far. The body zeroes both at the first point, adds the block's
  contribution at every point, and at the last point turns them into distances and stores the output block.
  This module fixes, once, what every later module about the region speaks of: the region-entry contents as a
  parameter, the input block at a point, the two branch conditions decided over the grid, where the output
  window is idle, the memrefs the body is called with, and the region's resting invariant with the two scratch
  buffers spelt out.
-/
import proofs.«145872_j72078141161682_1_alg».proof.Proof.Gen.Kernel.Launch
import proofs.«145872_j72078141161682_1_alg».proof.Proof.Gen.Kernel.Skeleton
import proofs.«145872_j72078141161682_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The codes' window is fetched at every point and never written, so its current staging buffer holds the
    point's block whatever the proof data, as long as the data's array is the entry contents and the body
    leaves the block in place. -/
theorem before_codes_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first block": the accumulators are zeroed. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last block": the distances are computed and stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem codes_live : ∀ t : Fin cfg0.N, cfg0.idle 0 (grid0.coords t) = false := by decide +kernel
/-- Before the last point the body stores nothing into the output block, and the block is not written back. -/
theorem out_idle : ∀ t : Fin cfg0.N, ¬isLast (grid0.coords t) → cfg0.idle 1 (grid0.coords t) = true := by decide +kernel
theorem out_noFlush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The memrefs the body is called with -/

abbrev msX (t : Fin cfg0.N) : Memref sig .tc .vmem S256x4096 .f32 := win0_0.stage (cfg0.slots t 0)
abbrev hsX (t : Fin cfg0.N) : (msX t).IsWhole := hstage0_0 ((cfg0.slots t 0).cast nbuf0_0)
abbrev msD (t : Fin cfg0.N) : Memref sig .tc .vmem S256x256 .f32 := win0_1.stage (cfg0.slots t 1)
abbrev hsD (t : Fin cfg0.N) : (msD t).IsWhole := hstage0_1 ((cfg0.slots t 1).cast nbuf0_1)
/-- The Gram accumulator and the squared-norm accumulator: whole scoped buffers of the kernel's own. -/
abbrev scG : Memref sig .tc .vmem S256x256 .f32 := Memref.whole cc0_scratch0
abbrev scQ : Memref sig .tc .vmem S256x1 .f32 := Memref.whole cc0_scratch1
abbrev VG : View sig .tc .vmem S256x256 .f32 := scG.view
abbrev VQ : View sig .tc .vmem S256x1 .f32 := scQ.view
abbrev VD : View sig .tc .vmem S256x256 .f32 := (Memref.whole cc0_stg1_0 : Memref sig .tc .vmem S256x256 .f32).view

/-- The other region's staging buffers: scoped buffers this region never touches, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The region's resting invariant: both accumulators owned at some contents, the other region's staging
    buffers, and the generator register. -/
theorem rest_eq (c : Dev nD) :
    (Pipeline.ΦA spec0 c : sProp 𝕄)
      = iprop(iprop((∃ d, owns (c : Thread nD τ) scG fullShare d) ∗ (∃ d, owns (c : Thread nD τ) scQ fullShare d) ∗ others c) ∗ (∃ r, prngReg c r)) := by
  unfold Pipeline.ΦA others; rw [scopedRest0_eq]; simp only [scG, scQ, owns_whole]; try rfl

end Cert.Kernel.Gram

end
-- ==== Proof.Word.Gram.RunFirst.lean ====
/-
  the output block handed back untouched, both accumulators at anything (they are zeroed first): the first point of the grid, where the accumulators are zeroed and then receive the first block's contribution.
-/
import proofs.«145872_j72078141161682_1_alg».proof.Proof.Word.Gram.Base

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block handed back untouched, both accumulators at anything (they are zeroed first) — runs to
    its continuation holding the codes' block as it was and each buffer it stored into with its stores written, as
    pieces (last first): the pieces are found by running the body, not transcribed. -/
noncomputable def runFirst (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : isFirst i) (hc1 : ¬isLast i)
    (x0 : Vec F S256x4096 .f32) :
    Σ' (LD : List (View.Piece (Elt F) S256x256 .f32)) (LG : List (View.Piece (Elt F) S256x256 .f32)), { LQ : List (View.Piece (Elt F) S256x1 .f32) //
      ∀ (xi : Vec F S256x256 .f32) (E : Set ℕ) (K : PUnit → sProp 𝕄),
        iprop(owns (c : Thread nD τ) arg1 fullShare x0 ∗ owns (c : Thread nD τ) arg2 fullShare xi ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨[], ?_, ?_, fun xi E K => ?run⟩
  case run =>
    simp only [cc0__gram_kernel_eq_skeleton]; unfold cc0__gram_kernel_skel
    unfold owns
    iintro ⟨⟨%f0, %hf0, H0⟩, ⟨%f1, %hf1, H1⟩, ⟨%dg, %fg, -, HG⟩, ⟨%dq, %fq, -, HQ⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HG]
    · iexists _; iexact HG
    iexists _; iexact HQ

end Cert.Kernel.Gram

end
-- ==== Proof.Word.Gram.RunMid.lean ====
/-
  the output block handed back untouched, the accumulators at what the point before left: a middle point of the grid, where each accumulator receives one more block's contribution.
-/
import proofs.«145872_j72078141161682_1_alg».proof.Proof.Word.Gram.Base

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block handed back untouched, the accumulators at what the point before left — runs to
    its continuation holding the codes' block as it was and each buffer it stored into with its stores written, as
    pieces (last first): the pieces are found by running the body, not transcribed. -/
noncomputable def runMid (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬isFirst i) (hc1 : ¬isLast i)
    (x0 : Vec F S256x4096 .f32) (g0 : Vec F S256x256 .f32) (q0 : Vec F S256x1 .f32) :
    Σ' (LD : List (View.Piece (Elt F) S256x256 .f32)) (LG : List (View.Piece (Elt F) S256x256 .f32)), { LQ : List (View.Piece (Elt F) S256x1 .f32) //
      ∀ (xi : Vec F S256x256 .f32) (E : Set ℕ) (K : PUnit → sProp 𝕄),
        iprop(owns (c : Thread nD τ) arg1 fullShare x0 ∗ owns (c : Thread nD τ) arg2 fullShare xi ∗ owns (c : Thread nD τ) arg3 fullShare g0 ∗ owns (c : Thread nD τ) arg4 fullShare q0
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨[], ?_, ?_, fun xi E K => ?run⟩
  case run =>
    simp only [cc0__gram_kernel_eq_skeleton]; unfold cc0__gram_kernel_skel
    unfold owns
    iintro ⟨⟨%f0, %hf0, H0⟩, ⟨%f1, %hf1, H1⟩, ⟨%fg, %hfg, HG⟩, ⟨%fq, %hfq, HQ⟩, Hk⟩
    obtain rfl := harg1.eq_unread hf0; obtain rfl := harg2.eq_unread hf1; obtain rfl := harg3.eq_unread hfg; obtain rfl := harg4.eq_unread hfq
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HG]
    · iexists _; iexact HG
    iexists _; iexact HQ

end Cert.Kernel.Gram

end
-- ==== Proof.Word.Gram.RunLast.lean ====
/-
  the output block at anything, the accumulators at what the point before left: the last point of the grid, where the accumulators receive the last block's contribution and the distances are computed from them and stored.
-/
import proofs.«145872_j72078141161682_1_alg».proof.Proof.Word.Gram.Base

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block at anything, the accumulators at what the point before left — runs to
    its continuation holding the codes' block as it was and each buffer it stored into with its stores written, as
    pieces (last first): the pieces are found by running the body, not transcribed. -/
noncomputable def runLast (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬isFirst i) (hc1 : isLast i)
    (x0 : Vec F S256x4096 .f32) (g0 : Vec F S256x256 .f32) (q0 : Vec F S256x1 .f32) :
    Σ' (LD : List (View.Piece (Elt F) S256x256 .f32)) (LG : List (View.Piece (Elt F) S256x256 .f32)), { LQ : List (View.Piece (Elt F) S256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare g0 ∗ owns (c : Thread nD τ) arg4 fullShare q0
            ∗ (iprop(owns (c : Thread nD τ) arg1 fullShare x0 ∗ (∃ f, arg2.view.loc (c : Thread nD τ) ↦[arg2.view.set]{fullShare} arg2.view.writes (Elt F) f LD) ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fg, %hfg, HG⟩, ⟨%fq, %hfq, HQ⟩, Hk⟩
    obtain rfl := harg1.eq_unread hf0; obtain rfl := harg3.eq_unread hfg; obtain rfl := harg4.eq_unread hfq
    sl_exec (disch := first | exact hc0 | exact hc1)
    sl_step
    iapply Hk
    isplitl [H0]
    · iexists _; isplitr; · ipureintro; exact harg1.read_unread _
      iexact H0
    isplitl [H1]
    · iexists _; iexact H1
    isplitl [HG]
    · iexists _; iexact HG
    iexists _; iexact HQ

end Cert.Kernel.Gram

end
-- ==== Proof.Word.Gram.Data.lean ====
/-
  What the first region's buffers hold from point to point, and the region's body obligation.
  After point 0 the two accumulators hold the first block's Gram matrix and squared norms; after every later
  point what they held before with one more block added; after the last point the output block also holds
  the distances computed from the completed accumulators. This module names those contents by recursion on
  the point (the values themselves are whatever the three case runs found), states the region invariant that
  carries the accumulators from one point to the next, packs both into the pipeline's proof data, and proves
  the body obligation by deciding, at each point, which of the three cases it is.
-/
import proofs.«145872_j72078141161682_1_alg».proof.Proof.Word.Gram.RunFirst
import proofs.«145872_j72078141161682_1_alg».proof.Proof.Word.Gram.RunMid
import proofs.«145872_j72078141161682_1_alg».proof.Proof.Word.Gram.RunLast

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which case a point is in -/

theorem lt8 (t : Fin cfg0.N) : t.val < 8 := lt_of_lt_of_eq t.isLt (show cfg0.N = 8 from N_0)
theorem first_of (t : Fin cfg0.N) (h : t.val = 0) : isFirst (grid0.coords t) := (isFirst_iff t).mpr (by rw [h])
theorem notFirst_of (t : Fin cfg0.N) (h : t.val ≠ 0) : ¬isFirst (grid0.coords t) :=
  fun hh => by have h1 := (isFirst_iff t).mp hh; have h2 := lt8 t; omega
theorem last_of (t : Fin cfg0.N) (h : t.val = 7) : isLast (grid0.coords t) := (isLast_iff t).mpr (by rw [h])
theorem notLast_of (t : Fin cfg0.N) (h : t.val ≠ 7) : ¬isLast (grid0.coords t) :=
  fun hh => by have h1 := (isLast_iff t).mp hh; have h2 := lt8 t; omega

/-! ## What each case leaves, read back from the pieces its run found -/

section Pieces
variable (c : Dev nD) (t : Fin cfg0.N)

def gFirst (h0 : isFirst (grid0.coords t)) (h1 : ¬isLast (grid0.coords t)) (x0 : Vec F S256x4096 .f32) : Vec F S256x256 .f32 :=
  VG.read (Elt F) (VG.writes (Elt F) VG.junk (runFirst c (grid0.coords t) (msX t) (hsX t) (msD t) (hsD t) scG (Memref.isWhole_whole _) scQ (Memref.isWhole_whole _) h0 h1 x0).2.1)
def qFirst (h0 : isFirst (grid0.coords t)) (h1 : ¬isLast (grid0.coords t)) (x0 : Vec F S256x4096 .f32) : Vec F S256x1 .f32 :=
  VQ.read (Elt F) (VQ.writes (Elt F) VQ.junk (runFirst c (grid0.coords t) (msX t) (hsX t) (msD t) (hsD t) scG (Memref.isWhole_whole _) scQ (Memref.isWhole_whole _) h0 h1 x0).2.2.1)
theorem coverG_first (h0 : isFirst (grid0.coords t)) (h1 : ¬isLast (grid0.coords t)) (x0 : Vec F S256x4096 .f32) (y : S256x256.Idx) :
    ∃ pc ∈ (runFirst c (grid0.coords t) (msX t) (hsX t) (msD t) (hsD t) scG (Memref.isWhole_whole _) scQ (Memref.isWhole_whole _) h0 h1 x0).2.1, y ∈ pc.1.set :=
  View.cover_of_tiledL (runFirst c (grid0.coords t) (msX t) (hsX t) (msD t) (hsD t) scG (Memref.isWhole_whole _) scQ (Memref.isWhole_whole _) h0 h1 x0).2.1 S256x256.size (by sl_kernel_rfl) y
theorem coverQ_first (h0 : isFirst (grid0.coords t)) (h1 : ¬isLast (grid0.coords t)) (x0 : Vec F S256x4096 .f32) (y : S256x1.Idx) :
    ∃ pc ∈ (runFirst c (grid0.coords t) (msX t) (hsX t) (msD t) (hsD t) scG (Memref.isWhole_whole _) scQ (Memref.isWhole_whole _) h0 h1 x0).2.2.1, y ∈ pc.1.set :=
  View.cover_of_tiledL (runFirst c (grid0.coords t) (msX t) (hsX t) (msD t) (hsD t) scG (Memref.isWhole_whole _) scQ (Memref.isWhole_whole _) h0 h1 x0).2.2.1 S256x1.size (by sl_kernel_rfl) y

def gMid (h0 : ¬isFirst (grid0.coords t)) (h1 : ¬isLast (grid0.coords t)) (x0 : Vec F S256x4096 .f32) (g0 : Vec F S256x256 .f32) (q0 : Vec F S256x1 .f32) : Vec F S256x256 .f32 :=
  VG.read (Elt F) (VG.writes (Elt F) VG.junk (runMid c (grid0.coords t) (msX t) (hsX t) (msD t) (hsD t) scG (Memref.isWhole_whole _) scQ (Memref.isWhole_whole _) h0 h1 x0 g0 q0).2.1)
def qMid (h0 : ¬isFirst (grid0.coords t)) (h1 : ¬isLast (grid0.coords t)) (x0 : Vec F S256x4096 .f32) (g0 : Vec F S256x256 .f32) (q0 : Vec F S256x1 .f32) : Vec F S256x1 .f32 :=
  VQ.read (Elt F) (VQ.writes (Elt F) VQ.junk (runMid c (grid0.coords t) (msX t) (hsX t) (msD t) (hsD t) scG (Memref.isWhole_whole _) scQ (Memref.isWhole_whole _) h0 h1 x0 g0 q0).2.2.1)
theorem coverG_mid (h0 : ¬isFirst (grid0.coords t)) (h1 : ¬isLast (grid0.coords t)) (x0 : Vec F S256x4096 .f32) (g0 : Vec F S256x256 .f32) (q0 : Vec F S256x1 .f32) (y : S256x256.Idx) :
    ∃ pc ∈ (runMid c (grid0.coords t) (msX t) (hsX t) (msD t) (hsD t) scG (Memref.isWhole_whole _) scQ (Memref.isWhole_whole _) h0 h1 x0 g0 q0).2.1, y ∈ pc.1.set :=
  View.cover_of_tiledL (runMid c (grid0.coords t) (msX t) (hsX t) (msD t) (hsD t) scG (Memref.isWhole_whole _) scQ (Memref.isWhole_whole _) h0 h1 x0 g0 q0).2.1 S256x256.size (by sl_kernel_rfl) y
theorem coverQ_mid (h0 : ¬isFirst (grid0.coords t)) (h1 : ¬isLast (grid0.coords t)) (x0 : Vec F S256x4096 .f32) (g0 : Vec F S256x256 .f32) (q0 : Vec F S256x1 .f32) (y : S256x1.Idx) :
    ∃ pc ∈ (runMid c (grid0.coords t) (msX t) (hsX t) (msD t) (hsD t) scG (Memref.isWhole_whole _) scQ (Memref.isWhole_whole _) h0 h1 x0 g0 q0).2.2.1, y ∈ pc.1.set :=
  View.cover_of_tiledL (runMid c (grid0.coords t) (msX t) (hsX t) (msD t) (hsD t) scG (Memref.isWhole_whole _) scQ (Memref.isWhole_whole _) h0 h1 x0 g0 q0).2.2.1 S256x1.size (by sl_kernel_rfl) y

def gLast (h0 : ¬isFirst (grid0.coords t)) (h1 : isLast (grid0.coords t)) (x0 : Vec F S256x4096 .f32) (g0 : Vec F S256x256 .f32) (q0 : Vec F S256x1 .f32) : Vec F S256x256 .f32 :=
  VG.read (Elt F) (VG.writes (Elt F) VG.junk (runLast c (grid0.coords t) (msX t) (hsX t) (msD t) (hsD t) scG (Memref.isWhole_whole _) scQ (Memref.isWhole_whole _) h0 h1 x0 g0 q0).2.1)
def qLast (h0 : ¬isFirst (grid0.coords t)) (h1 : isLast (grid0.coords t)) (x0 : Vec F S256x4096 .f32) (g0 : Vec F S256x256 .f32) (q0 : Vec F S256x1 .f32) : Vec F S256x1 .f32 :=
  VQ.read (Elt F) (VQ.writes (Elt F) VQ.junk (runLast c (grid0.coords t) (msX t) (hsX t) (msD t) (hsD t) scG (Memref.isWhole_whole _) scQ (Memref.isWhole_whole _) h0 h1 x0 g0 q0).2.2.1)
/-- The distances, as the last point's stores leave them in the output block. -/
def dLast (h0 : ¬isFirst (grid0.coords t)) (h1 : isLast (grid0.coords t)) (x0 : Vec F S256x4096 .f32) (g0 : Vec F S256x256 .f32) (q0 : Vec F S256x1 .f32) : Vec F S256x256 .f32 :=
  VD.read (Elt F) (VD.writes (Elt F) VD.junk (runLast c (grid0.coords t) (msX t) (hsX t) (msD t) (hsD t) scG (Memref.isWhole_whole _) scQ (Memref.isWhole_whole _) h0 h1 x0 g0 q0).1)
theorem coverG_last (h0 : ¬isFirst (grid0.coords t)) (h1 : isLast (grid0.coords t)) (x0 : Vec F S256x4096 .f32) (g0 : Vec F S256x256 .f32) (q0 : Vec F S256x1 .f32) (y : S256x256.Idx) :
    ∃ pc ∈ (runLast c (grid0.coords t) (msX t) (hsX t) (msD t) (hsD t) scG (Memref.isWhole_whole _) scQ (Memref.isWhole_whole _) h0 h1 x0 g0 q0).2.1, y ∈ pc.1.set :=
  View.cover_of_tiledL (runLast c (grid0.coords t) (msX t) (hsX t) (msD t) (hsD t) scG (Memref.isWhole_whole _) scQ (Memref.isWhole_whole _) h0 h1 x0 g0 q0).2.1 S256x256.size (by sl_kernel_rfl) y
theorem coverQ_last (h0 : ¬isFirst (grid0.coords t)) (h1 : isLast (grid0.coords t)) (x0 : Vec F S256x4096 .f32) (g0 : Vec F S256x256 .f32) (q0 : Vec F S256x1 .f32) (y : S256x1.Idx) :
    ∃ pc ∈ (runLast c (grid0.coords t) (msX t) (hsX t) (msD t) (hsD t) scG (Memref.isWhole_whole _) scQ (Memref.isWhole_whole _) h0 h1 x0 g0 q0).2.2.1, y ∈ pc.1.set :=
  View.cover_of_tiledL (runLast c (grid0.coords t) (msX t) (hsX t) (msD t) (hsD t) scG (Memref.isWhole_whole _) scQ (Memref.isWhole_whole _) h0 h1 x0 g0 q0).2.2.1 S256x1.size (by sl_kernel_rfl) y
theorem coverD_last (h0 : ¬isFirst (grid0.coords t)) (h1 : isLast (grid0.coords t)) (x0 : Vec F S256x4096 .f32) (g0 : Vec F S256x256 .f32) (q0 : Vec F S256x1 .f32) (y : S256x256.Idx) :
    ∃ pc ∈ (runLast c (grid0.coords t) (msX t) (hsX t) (msD t) (hsD t) scG (Memref.isWhole_whole _) scQ (Memref.isWhole_whole _) h0 h1 x0 g0 q0).1, y ∈ pc.1.set :=
  View.cover_of_tiledL (runLast c (grid0.coords t) (msX t) (hsX t) (msD t) (hsD t) scG (Memref.isWhole_whole _) scQ (Memref.isWhole_whole _) h0 h1 x0 g0 q0).1 S256x256.size (by sl_kernel_rfl) y

end Pieces

/-! ## The accumulation -/

/-- The two accumulators after the body at position `n`: the Gram matrix and the squared norms of the blocks
    0 … n, as the case runs leave them. -/
def accAt (c : Dev nD) : (n : ℕ) → n < cfg0.N → Vec F S256x256 .f32 × Vec F S256x1 .f32
  | 0, hn => (gFirst c ⟨0, hn⟩ (first_of _ rfl) (notLast_of _ (show (0 : ℕ) ≠ 7 by decide)) (iblk V c 0 ⟨0, hn⟩),
      qFirst c ⟨0, hn⟩ (first_of _ rfl) (notLast_of _ (show (0 : ℕ) ≠ 7 by decide)) (iblk V c 0 ⟨0, hn⟩))
  | n + 1, hn =>
    if h1 : n + 1 = 7 then
      (gLast c ⟨n + 1, hn⟩ (notFirst_of _ (Nat.succ_ne_zero n)) (last_of _ h1) (iblk V c 0 ⟨n + 1, hn⟩) (accAt c n (Nat.lt_of_succ_lt hn)).1 (accAt c n (Nat.lt_of_succ_lt hn)).2,
       qLast c ⟨n + 1, hn⟩ (notFirst_of _ (Nat.succ_ne_zero n)) (last_of _ h1) (iblk V c 0 ⟨n + 1, hn⟩) (accAt c n (Nat.lt_of_succ_lt hn)).1 (accAt c n (Nat.lt_of_succ_lt hn)).2)
    else
      (gMid c ⟨n + 1, hn⟩ (notFirst_of _ (Nat.succ_ne_zero n)) (notLast_of _ h1) (iblk V c 0 ⟨n + 1, hn⟩) (accAt c n (Nat.lt_of_succ_lt hn)).1 (accAt c n (Nat.lt_of_succ_lt hn)).2,
       qMid c ⟨n + 1, hn⟩ (notFirst_of _ (Nat.succ_ne_zero n)) (notLast_of _ h1) (iblk V c 0 ⟨n + 1, hn⟩) (accAt c n (Nat.lt_of_succ_lt hn)).1 (accAt c n (Nat.lt_of_succ_lt hn)).2)

theorem pred_lt (t : Fin cfg0.N) : t.val - 1 < cfg0.N := Nat.lt_of_le_of_lt (Nat.sub_le _ _) t.isLt

theorem accAt_first (c : Dev nD) (t : Fin cfg0.N) (hz : t.val = 0) :
    accAt V c t.val t.isLt = (gFirst c t (first_of t hz) (notLast_of t (by omega)) (iblk V c 0 t),
      qFirst c t (first_of t hz) (notLast_of t (by omega)) (iblk V c 0 t)) := by
  obtain ⟨n, hn⟩ := t
  cases n with
  | zero => rfl
  | succ n => exact absurd hz (Nat.succ_ne_zero n)

theorem accAt_mid (c : Dev nD) (t : Fin cfg0.N) (hz : t.val ≠ 0) (h7 : t.val ≠ 7) :
    accAt V c t.val t.isLt = (gMid c t (notFirst_of t hz) (notLast_of t h7) (iblk V c 0 t) (accAt V c (t.val - 1) (pred_lt t)).1 (accAt V c (t.val - 1) (pred_lt t)).2,
      qMid c t (notFirst_of t hz) (notLast_of t h7) (iblk V c 0 t) (accAt V c (t.val - 1) (pred_lt t)).1 (accAt V c (t.val - 1) (pred_lt t)).2) := by
  obtain ⟨n, hn⟩ := t
  cases n with
  | zero => exact absurd rfl hz
  | succ n => exact (dif_neg h7).trans rfl

theorem accAt_last (c : Dev nD) (t : Fin cfg0.N) (hz : t.val ≠ 0) (h7 : t.val = 7) :
    accAt V c t.val t.isLt = (gLast c t (notFirst_of t hz) (last_of t h7) (iblk V c 0 t) (accAt V c (t.val - 1) (pred_lt t)).1 (accAt V c (t.val - 1) (pred_lt t)).2,
      qLast c t (notFirst_of t hz) (last_of t h7) (iblk V c 0 t) (accAt V c (t.val - 1) (pred_lt t)).1 (accAt V c (t.val - 1) (pred_lt t)).2) := by
  obtain ⟨n, hn⟩ := t
  cases n with
  | zero => exact absurd rfl hz
  | succ n => exact (dif_pos h7).trans rfl

/-- What the output block's staging buffer holds after the body at point `t`: at the last point the distances;
    before it a placeholder nothing consults (the window is idle there and not written back). -/
def dOut (c : Dev nD) (t : Fin cfg0.N) : Vec F S256x256 .f32 :=
  if h7 : t.val = 7 then
    dLast c t (notFirst_of t (by omega)) (last_of t h7) (iblk V c 0 t) (accAt V c (t.val - 1) (pred_lt t)).1 (accAt V c (t.val - 1) (pred_lt t)).2
  else VD.read (Elt F) VD.junk

/-! ## The region invariant -/

/-- Before position `n`: before the first point the resting invariant (the accumulators at anything); afterwards
    the accumulators at what the point before left, the other region's staging buffers and the generator register. -/
def inv (c : Dev nD) : (n : ℕ) → n ≤ cfg0.N → sProp 𝕄
  | 0, _ => Pipeline.ΦA spec0 c
  | n + 1, hn => iprop(iprop(owns (c : Thread nD τ) scG fullShare (accAt V c n hn).1 ∗ owns (c : Thread nD τ) scQ fullShare (accAt V c n hn).2 ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) scG fullShare (accAt V c n hn).1 ∗ owns (c : Thread nD τ) scQ fullShare (accAt V c n hn).2 ∗ others c) ∗ (∃ r, prngReg c r)) := rfl
theorem inv_pos (c : Dev nD) (n : ℕ) (h : n ≤ cfg0.N) (hz : n ≠ 0) :
    inv V c n h = iprop(iprop(owns (c : Thread nD τ) scG fullShare (accAt V c (n - 1) (by omega)).1 ∗ owns (c : Thread nD τ) scQ fullShare (accAt V c (n - 1) (by omega)).2 ∗ others c) ∗ (∃ r, prngReg c r)) := by
  cases n with
  | zero => exact absurd rfl hz
  | succ n => rfl

/-! ## The proof data -/

/-- The region's proof data on core `c`: the arrays as the region finds them; after the body at point `t` the
    codes' buffer at its block and the output's at `dOut`; the invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => dOut V c t
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_codes (c : Dev nD) (t : Fin cfg0.N) : (dat V c).after 0 t = iblk V c 0 t := by dsimp only [dat]
theorem after_out (c : Dev nD) (t : Fin cfg0.N) : (dat V c).after 1 t = dOut V c t := by dsimp only [dat]
theorem before_codes (c : Dev nD) (t : Fin cfg0.N) (d) : (dat V c).before 0 t d = iblk V c 0 t :=
  before_codes_of V (dat V c) (A_eq V c 0) (after_codes V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msD t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The codes' buffer holds the point's block; the point is the first, a middle or the last
    one; the invariant hands the body the accumulators (at anything at the first point, at what the point before
    left otherwise) and takes them back at this point's contents; the output block is handed back untouched
    before the last point and holds the distances after it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_codes]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msX t) fullShare ((dat V c).after 0 t) from by
    unfold Dat.leavesExact; rw [codes_live t], after_codes]
  have hN := lt8 t
  by_cases hz : t.val = 0
  · have h0 := first_of t hz
    have h1 := notLast_of t (show t.val ≠ 7 by omega)
    rw [Dat.leavesExact_idle (dat V c) 1 t (out_idle t h1) (out_noFlush t h1)]
    rw [accAt_first V c t hz]
    unfold gFirst qFirst; (try dsimp only)
    rw [inv_castSucc V c t, inv_zero V c _ _ hz, rest_eq]
    iintro ⟨⟨⟨HG, HQ, Hoth⟩, Hg⟩, Ho, ⟨%d0, H0⟩, ⟨%d1, H1⟩⟩
    iapply ((runFirst c (grid0.coords t) _ _ _ _ _ _ _ _ h0 h1 (iblk V c 0 t)).2.2.2 _ Set.univ _)
    isplitl [H0]; · iexact H0
    isplitl [H1]; · iexact H1
    isplitl [HG]; · iexact HG
    isplitl [HQ]; · iexact HQ
    iintro ⟨H0, H1, ⟨%eg, HG⟩, ⟨%eq, HQ⟩⟩
    isplitl [HG HQ Hoth Hg]
    · isplitl [HG HQ Hoth]
      · isplitl [HG]
        · unfold owns; iexists _; isplitr
          swap; · iexact HG
          ipureintro; exact View.read_writes_of_cover _ _ _ _ _ (coverG_first c t h0 h1 _)
        isplitl [HQ]
        · unfold owns; iexists _; isplitr
          swap; · iexact HQ
          ipureintro; exact View.read_writes_of_cover _ _ _ _ _ (coverQ_first c t h0 h1 _)
        iexact Hoth
      iexact Hg
    isplitl [Ho]; · iexact Ho
    isplitl [H0]; · iexact H0
    iexists _; iexact H1
  · have h0 := notFirst_of t hz
    by_cases h7 : t.val = 7
    · have h1 := last_of t h7
      rw [show (dat V c).leavesExact 1 t = owns (c : Thread nD τ) (msD t) fullShare ((dat V c).after 1 t) from by
        unfold Dat.leavesExact; rw [out_live t h1], after_out]
      rw [accAt_last V c t hz h7, show dOut V c t = _ from dif_pos h7]
      unfold gLast qLast dLast; (try dsimp only)
      rw [inv_castSucc V c t, inv_pos V c _ _ hz]
      iintro ⟨⟨⟨HG, HQ, Hoth⟩, Hg⟩, Ho, ⟨%d0, H0⟩, ⟨%d1, H1⟩⟩
      iapply ((runLast c (grid0.coords t) _ _ _ _ _ _ _ _ h0 h1 (iblk V c 0 t) _ _).2.2.2 Set.univ _)
      isplitl [H0]; · iexact H0
      isplitl [H1]; · iexists _; iexact H1
      isplitl [HG]; · iexact HG
      isplitl [HQ]; · iexact HQ
      iintro ⟨H0, ⟨%e1, H1⟩, ⟨%eg, HG⟩, ⟨%eq, HQ⟩⟩
      isplitl [HG HQ Hoth Hg]
      · isplitl [HG HQ Hoth]
        · isplitl [HG]
          · unfold owns; iexists _; isplitr
            swap; · iexact HG
            ipureintro; exact View.read_writes_of_cover _ _ _ _ _ (coverG_last c t h0 h1 _ _ _)
          isplitl [HQ]
          · unfold owns; iexists _; isplitr
            swap; · iexact HQ
            ipureintro; exact View.read_writes_of_cover _ _ _ _ _ (coverQ_last c t h0 h1 _ _ _)
          iexact Hoth
        iexact Hg
      isplitl [Ho]; · iexact Ho
      isplitl [H0]; · iexact H0
      unfold owns; iexists _; isplitr
      swap; · iexact H1
      ipureintro; exact View.read_writes_of_cover _ _ _ _ _ (coverD_last c t h0 h1 _ _ _)
    · have h1 := notLast_of t h7
      rw [Dat.leavesExact_idle (dat V c) 1 t (out_idle t h1) (out_noFlush t h1)]
      rw [accAt_mid V c t hz h7]
      unfold gMid qMid; (try dsimp only)
      rw [inv_castSucc V c t, inv_pos V c _ _ hz]
      iintro ⟨⟨⟨HG, HQ, Hoth⟩, Hg⟩, Ho, ⟨%d0, H0⟩, ⟨%d1, H1⟩⟩
      iapply ((runMid c (grid0.coords t) _ _ _ _ _ _ _ _ h0 h1 (iblk V c 0 t) _ _).2.2.2 _ Set.univ _)
      isplitl [H0]; · iexact H0
      isplitl [H1]; · iexact H1
      isplitl [HG]; · iexact HG
      isplitl [HQ]; · iexact HQ
      iintro ⟨H0, H1, ⟨%eg, HG⟩, ⟨%eq, HQ⟩⟩
      isplitl [HG HQ Hoth Hg]
      · isplitl [HG HQ Hoth]
        · isplitl [HG]
          · unfold owns; iexists _; isplitr
            swap; · iexact HG
            ipureintro; exact View.read_writes_of_cover _ _ _ _ _ (coverG_mid c t h0 h1 _ _ _)
          isplitl [HQ]
          · unfold owns; iexists _; isplitr
            swap; · iexact HQ
            ipureintro; exact View.read_writes_of_cover _ _ _ _ _ (coverQ_mid c t h0 h1 _ _ _)
          iexact Hoth
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the resting invariant back: what the accumulators hold is forgotten. -/
theorem hout (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 8 := N_0; omega), rest_eq]
  iintro ⟨⟨HG, HQ, Hoth⟩, Hg⟩
  isplitl [HG HQ Hoth]
  · isplitl [HG]; · iexists _; iexact HG
    isplitl [HQ]; · iexists _; iexact HQ
    iexact Hoth
  iexact Hg

end Cert.Kernel.Gram

end
-- ==== Proof.Word.Triplet.Base.lean ====
/-
  The second region reduces the triplet-margin expression to two numbers, the loss sum and the triple count.
  Its grid has eight points, one per block of 32 impostor rows. It reads the whole distance matrix and the whole
  anchor-positive mask (fetched once), and the point's 32 rows of the distance matrix and of the impostor mask;
  the distance matrix is handed to it twice, through two windows on one array. The two outputs are single
  numbers that stay in their staging buffers across the points: the body zeroes them at the first point and
  adds the point's contribution at every point. This module fixes what every later module about the region
  speaks of: the region-entry contents as a parameter, a window's block at a point, the branch condition decided
  over the grid, and the memrefs the body is called with.
-/
import proofs.«145872_j72078141161682_1_alg».proof.Proof.Gen.Kernel.Launch
import proofs.«145872_j72078141161682_1_alg».proof.Proof.Gen.Kernel.Skeleton
import proofs.«145872_j72078141161682_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Triplet

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- "This is the first block of impostor rows": the two sums are zeroed. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-! ## The memrefs the body is called with -/

abbrev msDf (t : Fin cfg1.N) : Memref sig .tc .vmem S256x256 .f32 := win1_0.stage (cfg1.slots t 0)
abbrev hsDf (t : Fin cfg1.N) : (msDf t).IsWhole := hstage1_0 ((cfg1.slots t 0).cast nbuf1_0)
abbrev msDs (t : Fin cfg1.N) : Memref sig .tc .vmem S32x256 .f32 := win1_1.stage (cfg1.slots t 1)
abbrev hsDs (t : Fin cfg1.N) : (msDs t).IsWhole := hstage1_1 ((cfg1.slots t 1).cast nbuf1_1)
abbrev msP (t : Fin cfg1.N) : Memref sig .tc .vmem S256x256 .f32 := win1_2.stage (cfg1.slots t 2)
abbrev hsP (t : Fin cfg1.N) : (msP t).IsWhole := hstage1_2 ((cfg1.slots t 2).cast nbuf1_2)
abbrev msN (t : Fin cfg1.N) : Memref sig .tc .vmem S32x256 .f32 := win1_3.stage (cfg1.slots t 3)
abbrev hsN (t : Fin cfg1.N) : (msN t).IsWhole := hstage1_3 ((cfg1.slots t 3).cast nbuf1_3)
abbrev msL (t : Fin cfg1.N) : Memref sig .tc .vmem S1x1 .f32 := win1_4.stage (cfg1.slots t 4)
abbrev hsL (t : Fin cfg1.N) : (msL t).IsWhole := hstage1_4 ((cfg1.slots t 4).cast nbuf1_4)
abbrev msC (t : Fin cfg1.N) : Memref sig .tc .vmem S1x1 .f32 := win1_5.stage (cfg1.slots t 5)
abbrev hsC (t : Fin cfg1.N) : (msC t).IsWhole := hstage1_5 ((cfg1.slots t 5).cast nbuf1_5)
abbrev VL : View sig .tc .vmem S1x1 .f32 := (Memref.whole cc1_stg4_0 : Memref sig .tc .vmem S1x1 .f32).view
abbrev VC : View sig .tc .vmem S1x1 .f32 := (Memref.whole cc1_stg5_0 : Memref sig .tc .vmem S1x1 .f32).view

end Cert.Kernel.Triplet

end
-- ==== Proof.Word.Triplet.RunFirst.lean ====
/-
  The first point of the second region's grid: the two sums, found at anything, are zeroed and then receive the first 32 impostor rows' contribution.
-/
import proofs.«145872_j72078141161682_1_alg».proof.Proof.Word.Triplet.Base

set_option maxRecDepth 16384

noncomputable section

namespace Cert.Kernel.Triplet

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body, called at a point of this case on whole memrefs — the four input blocks at `d0`, `ds`, `p0`, `ns` — runs
    to its continuation holding the inputs as they were and each output with its stores written, as pieces (last
    first): the pieces are found by running the body through all of its parts, not transcribed. -/
noncomputable def runFirst (c : Dev nD) (i : grid1.Coords) (arg1 : Memref sig .tc .vmem S256x256 .f32) (harg1 : arg1.IsWhole) (arg2 : Memref sig .tc .vmem S32x256 .f32) (harg2 : arg2.IsWhole) (arg3 : Memref sig .tc .vmem S256x256 .f32) (harg3 : arg3.IsWhole) (arg4 : Memref sig .tc .vmem S32x256 .f32) (harg4 : arg4.IsWhole) (arg5 : Memref sig .tc .vmem S1x1 .f32) (harg5 : arg5.IsWhole) (arg6 : Memref sig .tc .vmem S1x1 .f32) (harg6 : arg6.IsWhole) (hc0 : isFirst i)
    (d0 : Vec F S256x256 .f32) (ds : Vec F S32x256 .f32) (p0 : Vec F S256x256 .f32) (ns : Vec F S32x256 .f32) :
    Σ' (LL : List (View.Piece (Elt F) S1x1 .f32)), { LC : List (View.Piece (Elt F) S1x1 .f32) //
      ∀ (E : Set ℕ) (K : PUnit → sProp 𝕄),
        iprop(owns (c : Thread nD τ) arg1 fullShare d0 ∗ owns (c : Thread nD τ) arg2 fullShare ds ∗ owns (c : Thread nD τ) arg3 fullShare p0 ∗ owns (c : Thread nD τ) arg4 fullShare ns ∗ (∃ d, owns (c : Thread nD τ) arg5 fullShare d) ∗ (∃ d, owns (c : Thread nD τ) arg6 fullShare d)
            ∗ (iprop(owns (c : Thread nD τ) arg1 fullShare d0 ∗ owns (c : Thread nD τ) arg2 fullShare ds ∗ owns (c : Thread nD τ) arg3 fullShare p0 ∗ owns (c : Thread nD τ) arg4 fullShare ns ∗ (∃ f, arg5.view.loc (c : Thread nD τ) ↦[arg5.view.set]{fullShare} arg5.view.writes (Elt F) f LL) ∗ (∃ f, arg6.view.loc (c : Thread nD τ) ↦[arg6.view.set]{fullShare} arg6.view.writes (Elt F) f LC)) -∗ K ⟨⟩))
          ⊢ wp frame (wpE (defs₀ (F := F)) Variants.none c none) E (cc1__triplet_kernel i arg1 harg1 arg2 harg2 arg3 harg3 arg4 harg4 arg5 harg5 arg6 harg6) K } := by
  refine ⟨?_, ?_, fun E K => ?run⟩
  case run =>
    simp only [cc1__triplet_kernel_eq_skeleton]; unfold cc1__triplet_kernel_skel
    unfold owns
    iintro ⟨⟨%f1, %hf1, H1⟩, ⟨%f2, %hf2, H2⟩, ⟨%f3, %hf3, H3⟩, ⟨%f4, %hf4, H4⟩, ⟨%dl, %fl, -, HL⟩, ⟨%dc, %fc, -, HC⟩, Hk⟩
    obtain rfl := harg1.eq_unread hf1; obtain rfl := harg2.eq_unread hf2; obtain rfl := harg3.eq_unread hf3; obtain rfl := harg4.eq_unread hf4
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HL]
    · iexists _; iexact HL
    iexists _; iexact HC

end Cert.Kernel.Triplet

end
-- ==== Proof.Word.Triplet.RunLater.lean ====
/-
  A later point of the second region's grid: the two sums, found at what the point before left, receive 32 more impostor rows' contribution.
-/
import proofs.«145872_j72078141161682_1_alg».proof.Proof.Word.Triplet.Base

set_option maxRecDepth 16384

noncomputable section

namespace Cert.Kernel.Triplet

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body, called at a point of this case on whole memrefs — the four input blocks at `d0`, `ds`, `p0`, `ns` — runs
    to its continuation holding the inputs as they were and each output with its stores written, as pieces (last
    first): the pieces are found by running the body through all of its parts, not transcribed. -/
noncomputable def runLater (c : Dev nD) (i : grid1.Coords) (arg1 : Memref sig .tc .vmem S256x256 .f32) (harg1 : arg1.IsWhole) (arg2 : Memref sig .tc .vmem S32x256 .f32) (harg2 : arg2.IsWhole) (arg3 : Memref sig .tc .vmem S256x256 .f32) (harg3 : arg3.IsWhole) (arg4 : Memref sig .tc .vmem S32x256 .f32) (harg4 : arg4.IsWhole) (arg5 : Memref sig .tc .vmem S1x1 .f32) (harg5 : arg5.IsWhole) (arg6 : Memref sig .tc .vmem S1x1 .f32) (harg6 : arg6.IsWhole) (hc0 : ¬isFirst i)
    (d0 : Vec F S256x256 .f32) (ds : Vec F S32x256 .f32) (p0 : Vec F S256x256 .f32) (ns : Vec F S32x256 .f32) (l0 : Vec F S1x1 .f32) (c0 : Vec F S1x1 .f32) :
    Σ' (LL : List (View.Piece (Elt F) S1x1 .f32)), { LC : List (View.Piece (Elt F) S1x1 .f32) //
      ∀ (E : Set ℕ) (K : PUnit → sProp 𝕄),
        iprop(owns (c : Thread nD τ) arg1 fullShare d0 ∗ owns (c : Thread nD τ) arg2 fullShare ds ∗ owns (c : Thread nD τ) arg3 fullShare p0 ∗ owns (c : Thread nD τ) arg4 fullShare ns ∗ owns (c : Thread nD τ) arg5 fullShare l0 ∗ owns (c : Thread nD τ) arg6 fullShare c0
            ∗ (iprop(owns (c : Thread nD τ) arg1 fullShare d0 ∗ owns (c : Thread nD τ) arg2 fullShare ds ∗ owns (c : Thread nD τ) arg3 fullShare p0 ∗ owns (c : Thread nD τ) arg4 fullShare ns ∗ (∃ f, arg5.view.loc (c : Thread nD τ) ↦[arg5.view.set]{fullShare} arg5.view.writes (Elt F) f LL) ∗ (∃ f, arg6.view.loc (c : Thread nD τ) ↦[arg6.view.set]{fullShare} arg6.view.writes (Elt F) f LC)) -∗ K ⟨⟩))
          ⊢ wp frame (wpE (defs₀ (F := F)) Variants.none c none) E (cc1__triplet_kernel i arg1 harg1 arg2 harg2 arg3 harg3 arg4 harg4 arg5 harg5 arg6 harg6) K } := by
  refine ⟨?_, ?_, fun E K => ?run⟩
  case run =>
    simp only [cc1__triplet_kernel_eq_skeleton]; unfold cc1__triplet_kernel_skel
    unfold owns
    iintro ⟨⟨%f1, %hf1, H1⟩, ⟨%f2, %hf2, H2⟩, ⟨%f3, %hf3, H3⟩, ⟨%f4, %hf4, H4⟩, ⟨%fl, %hfl, HL⟩, ⟨%fc, %hfc, HC⟩, Hk⟩
    obtain rfl := harg1.eq_unread hf1; obtain rfl := harg2.eq_unread hf2; obtain rfl := harg3.eq_unread hf3; obtain rfl := harg4.eq_unread hf4; obtain rfl := harg5.eq_unread hfl; obtain rfl := harg6.eq_unread hfc
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HL]
    · iexists _; iexact HL
    iexists _; iexact HC

end Cert.Kernel.Triplet

end
-- ==== Proof.Word.Triplet.Data.lean ====
/-
  What the second region's two outputs hold from point to point, and the region's body obligation.
  After point 0 the loss sum and the triple count hold the first 32 impostor rows' contribution; after every
  later point what they held before plus 32 more rows' contribution. The outputs' blocks do not move over the
  grid, so their staging buffers are written back only after the last point and, in between, each point finds
  in them what the point before left. This module names those contents by recursion on the point (the values
  are whatever the two case runs found), packs them into the pipeline's proof data, and proves the body
  obligation by deciding at each point whether it is the first.
-/
import proofs.«145872_j72078141161682_1_alg».proof.Proof.Word.Triplet.RunFirst
import proofs.«145872_j72078141161682_1_alg».proof.Proof.Word.Triplet.RunLater

set_option maxRecDepth 16384

noncomputable section

namespace Cert.Kernel.Triplet

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Which case a point is in -/

theorem lt8 (t : Fin cfg1.N) : t.val < 8 := lt_of_lt_of_eq t.isLt (show cfg1.N = 8 from N_1)
theorem first_of (t : Fin cfg1.N) (h : t.val = 0) : isFirst (grid1.coords t) := (isFirst_iff t).mpr (by rw [h])
theorem notFirst_of (t : Fin cfg1.N) (h : t.val ≠ 0) : ¬isFirst (grid1.coords t) :=
  fun hh => by have h1 := (isFirst_iff t).mp hh; have h2 := lt8 t; omega

/-! ## What each case leaves, read back from the pieces its run found -/

section Pieces
variable (c : Dev nD) (t : Fin cfg1.N)

def lFirst (h0 : isFirst (grid1.coords t)) (d0 : Vec F S256x256 .f32) (ds : Vec F S32x256 .f32) (p0 : Vec F S256x256 .f32) (ns : Vec F S32x256 .f32) : Vec F S1x1 .f32 :=
  VL.read (Elt F) (VL.writes (Elt F) VL.junk (runFirst c (grid1.coords t) (msDf t) (hsDf t) (msDs t) (hsDs t) (msP t) (hsP t) (msN t) (hsN t) (msL t) (hsL t) (msC t) (hsC t) h0 d0 ds p0 ns).1)
def cFirst (h0 : isFirst (grid1.coords t)) (d0 : Vec F S256x256 .f32) (ds : Vec F S32x256 .f32) (p0 : Vec F S256x256 .f32) (ns : Vec F S32x256 .f32) : Vec F S1x1 .f32 :=
  VC.read (Elt F) (VC.writes (Elt F) VC.junk (runFirst c (grid1.coords t) (msDf t) (hsDf t) (msDs t) (hsDs t) (msP t) (hsP t) (msN t) (hsN t) (msL t) (hsL t) (msC t) (hsC t) h0 d0 ds p0 ns).2.1)
theorem coverL_first (h0 : isFirst (grid1.coords t)) (d0 : Vec F S256x256 .f32) (ds : Vec F S32x256 .f32) (p0 : Vec F S256x256 .f32) (ns : Vec F S32x256 .f32) (y : S1x1.Idx) :
    ∃ pc ∈ (runFirst c (grid1.coords t) (msDf t) (hsDf t) (msDs t) (hsDs t) (msP t) (hsP t) (msN t) (hsN t) (msL t) (hsL t) (msC t) (hsC t) h0 d0 ds p0 ns).1, y ∈ pc.1.set :=
  View.cover_of_tiledL (runFirst c (grid1.coords t) (msDf t) (hsDf t) (msDs t) (hsDs t) (msP t) (hsP t) (msN t) (hsN t) (msL t) (hsL t) (msC t) (hsC t) h0 d0 ds p0 ns).1 S1x1.size (by sl_kernel_rfl) y
theorem coverC_first (h0 : isFirst (grid1.coords t)) (d0 : Vec F S256x256 .f32) (ds : Vec F S32x256 .f32) (p0 : Vec F S256x256 .f32) (ns : Vec F S32x256 .f32) (y : S1x1.Idx) :
    ∃ pc ∈ (runFirst c (grid1.coords t) (msDf t) (hsDf t) (msDs t) (hsDs t) (msP t) (hsP t) (msN t) (hsN t) (msL t) (hsL t) (msC t) (hsC t) h0 d0 ds p0 ns).2.1, y ∈ pc.1.set :=
  View.cover_of_tiledL (runFirst c (grid1.coords t) (msDf t) (hsDf t) (msDs t) (hsDs t) (msP t) (hsP t) (msN t) (hsN t) (msL t) (hsL t) (msC t) (hsC t) h0 d0 ds p0 ns).2.1 S1x1.size (by sl_kernel_rfl) y

def lLater (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) : Vec F S1x1 .f32 :=
  VL.read (Elt F) (VL.writes (Elt F) VL.junk (runLater c (grid1.coords t) (msDf t) (hsDf t) (msDs t) (hsDs t) (msP t) (hsP t) (msN t) (hsN t) (msL t) (hsL t) (msC t) (hsC t) h0 d0 ds p0 ns l0 c0).1)
def cLater (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) : Vec F S1x1 .f32 :=
  VC.read (Elt F) (VC.writes (Elt F) VC.junk (runLater c (grid1.coords t) (msDf t) (hsDf t) (msDs t) (hsDs t) (msP t) (hsP t) (msN t) (hsN t) (msL t) (hsL t) (msC t) (hsC t) h0 d0 ds p0 ns l0 c0).2.1)
theorem coverL_later (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) (y : S1x1.Idx) :
    ∃ pc ∈ (runLater c (grid1.coords t) (msDf t) (hsDf t) (msDs t) (hsDs t) (msP t) (hsP t) (msN t) (hsN t) (msL t) (hsL t) (msC t) (hsC t) h0 d0 ds p0 ns l0 c0).1, y ∈ pc.1.set :=
  View.cover_of_tiledL (runLater c (grid1.coords t) (msDf t) (hsDf t) (msDs t) (hsDs t) (msP t) (hsP t) (msN t) (hsN t) (msL t) (hsL t) (msC t) (hsC t) h0 d0 ds p0 ns l0 c0).1 S1x1.size (by sl_kernel_rfl) y
theorem coverC_later (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) (y : S1x1.Idx) :
    ∃ pc ∈ (runLater c (grid1.coords t) (msDf t) (hsDf t) (msDs t) (hsDs t) (msP t) (hsP t) (msN t) (hsN t) (msL t) (hsL t) (msC t) (hsC t) h0 d0 ds p0 ns l0 c0).2.1, y ∈ pc.1.set :=
  View.cover_of_tiledL (runLater c (grid1.coords t) (msDf t) (hsDf t) (msDs t) (hsDs t) (msP t) (hsP t) (msN t) (hsN t) (msL t) (hsL t) (msC t) (hsC t) h0 d0 ds p0 ns l0 c0).2.1 S1x1.size (by sl_kernel_rfl) y

end Pieces

/-! ## The accumulation -/

/-- The loss sum and the triple count after the body at position `n`: the contributions of the impostor rows of
    blocks 0 … n, as the case runs leave them. -/
def sumAt (c : Dev nD) : (n : ℕ) → n < cfg1.N → Vec F S1x1 .f32 × Vec F S1x1 .f32
  | 0, hn => (lFirst c ⟨0, hn⟩ (first_of _ rfl) (iblk V c 0 ⟨0, hn⟩) (iblk V c 1 ⟨0, hn⟩) (iblk V c 2 ⟨0, hn⟩) (iblk V c 3 ⟨0, hn⟩),
      cFirst c ⟨0, hn⟩ (first_of _ rfl) (iblk V c 0 ⟨0, hn⟩) (iblk V c 1 ⟨0, hn⟩) (iblk V c 2 ⟨0, hn⟩) (iblk V c 3 ⟨0, hn⟩))
  | n + 1, hn =>
      (lLater c ⟨n + 1, hn⟩ (notFirst_of _ (Nat.succ_ne_zero n)) (iblk V c 0 ⟨n + 1, hn⟩) (iblk V c 1 ⟨n + 1, hn⟩) (iblk V c 2 ⟨n + 1, hn⟩) (iblk V c 3 ⟨n + 1, hn⟩) (sumAt c n (Nat.lt_of_succ_lt hn)).1 (sumAt c n (Nat.lt_of_succ_lt hn)).2,
       cLater c ⟨n + 1, hn⟩ (notFirst_of _ (Nat.succ_ne_zero n)) (iblk V c 0 ⟨n + 1, hn⟩) (iblk V c 1 ⟨n + 1, hn⟩) (iblk V c 2 ⟨n + 1, hn⟩) (iblk V c 3 ⟨n + 1, hn⟩) (sumAt c n (Nat.lt_of_succ_lt hn)).1 (sumAt c n (Nat.lt_of_succ_lt hn)).2)

theorem pred_lt (t : Fin cfg1.N) : t.val - 1 < cfg1.N := Nat.lt_of_le_of_lt (Nat.sub_le _ _) t.isLt

theorem sumAt_first (c : Dev nD) (t : Fin cfg1.N) (hz : t.val = 0) :
    sumAt V c t.val t.isLt = (lFirst c t (first_of t hz) (iblk V c 0 t) (iblk V c 1 t) (iblk V c 2 t) (iblk V c 3 t), cFirst c t (first_of t hz) (iblk V c 0 t) (iblk V c 1 t) (iblk V c 2 t) (iblk V c 3 t)) := by
  obtain ⟨n, hn⟩ := t
  cases n with
  | zero => rfl
  | succ n => exact absurd hz (Nat.succ_ne_zero n)

theorem sumAt_later (c : Dev nD) (t : Fin cfg1.N) (hz : t.val ≠ 0) :
    sumAt V c t.val t.isLt = (lLater c t (notFirst_of t hz) (iblk V c 0 t) (iblk V c 1 t) (iblk V c 2 t) (iblk V c 3 t) (sumAt V c (t.val - 1) (pred_lt t)).1 (sumAt V c (t.val - 1) (pred_lt t)).2,
      cLater c t (notFirst_of t hz) (iblk V c 0 t) (iblk V c 1 t) (iblk V c 2 t) (iblk V c 3 t) (sumAt V c (t.val - 1) (pred_lt t)).1 (sumAt V c (t.val - 1) (pred_lt t)).2) := by
  obtain ⟨n, hn⟩ := t
  cases n with
  | zero => exact absurd rfl hz
  | succ n => rfl

/-! ## The proof data -/

/-- The region's proof data on core `c`: the arrays as the region finds them; after the body at point `t` each
    input's buffer at its block and the two outputs' at `sumAt`; the resting invariant throughout (the region has
    no scratch); nothing owed; the distance matrix, read through two windows, held half and half. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (sumAt V c t.val t.isLt).1
    | ⟨5, _⟩ => (sumAt V c t.val t.isLt).2
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = (sumAt V c t.val t.isLt).1 := by dsimp only [dat]
theorem after5 (c : Dev nD) (t : Fin cfg1.N) : (dat V c).after 5 t = (sumAt V c t.val t.isLt).2 := by dsimp only [dat]
theorem before0 (c : Dev nD) (t : Fin cfg1.N) (d) : (dat V c).before 0 t d = iblk V c 0 t := before_in0_of V (dat V c) (A_eq V c 0) (after0 V c) t d
theorem before1 (c : Dev nD) (t : Fin cfg1.N) (d) : (dat V c).before 1 t d = iblk V c 1 t := before_in1_of V (dat V c) (A_eq V c 1) (after1 V c) t d
theorem before2 (c : Dev nD) (t : Fin cfg1.N) (d) : (dat V c).before 2 t d = iblk V c 2 t := before_in2_of V (dat V c) (A_eq V c 2) (after2 V c) t d
theorem before3 (c : Dev nD) (t : Fin cfg1.N) (d) : (dat V c).before 3 t d = iblk V c 3 t := before_in3_of V (dat V c) (A_eq V c 3) (after3 V c) t d

/-- The outputs' blocks are written back after the last point only. -/
theorem noFlush4 : ∀ t : Fin cfg1.N, t.val ≠ 7 → (cfg1.win 4).flush t = false := by decide +kernel
theorem noFlush5 : ∀ t : Fin cfg1.N, t.val ≠ 7 → (cfg1.win 5).flush t = false := by decide +kernel

/-- At a later point the loss sum's buffer holds what the point before left. -/
theorem before4_later (c : Dev nD) (t : Fin cfg1.N) (hz : t.val ≠ 0) (d) :
    (dat V c).before 4 t d = (sumAt V c (t.val - 1) (pred_lt t)).1 :=
  ((dat V c).before_out_kept 4 rfl t hz (noFlush4 ⟨t.val - 1, pred_lt t⟩ (by have := lt8 t; show t.val - 1 ≠ 7; omega)) (fun _ => rfl) (fun _ _ => rfl) d).trans
    (after4 V c ⟨t.val - 1, pred_lt t⟩)
theorem before5_later (c : Dev nD) (t : Fin cfg1.N) (hz : t.val ≠ 0) (d) :
    (dat V c).before 5 t d = (sumAt V c (t.val - 1) (pred_lt t)).2 :=
  ((dat V c).before_out_kept 5 rfl t hz (noFlush5 ⟨t.val - 1, pred_lt t⟩ (by have := lt8 t; show t.val - 1 ≠ 7; omega)) (fun _ => rfl) (fun _ _ => rfl) d).trans
    (after5 V c ⟨t.val - 1, pred_lt t⟩)

/-! ## The body obligation -/

def bodyPre (c : Dev nD) (t : Fin cfg1.N) : sProp 𝕄 :=
  iprop((dat V c).Φ t.castSucc ∗ (dat V c).owesAt () t.castSucc
    ∗ (∃ d, owns (c : Thread nD τ) (msDf t) fullShare ((dat V c).before 0 t d))
    ∗ (∃ d, owns (c : Thread nD τ) (msDs t) fullShare ((dat V c).before 1 t d))
    ∗ (∃ d, owns (c : Thread nD τ) (msP t) fullShare ((dat V c).before 2 t d))
    ∗ (∃ d, owns (c : Thread nD τ) (msN t) fullShare ((dat V c).before 3 t d))
    ∗ (∃ d, owns (c : Thread nD τ) (msL t) fullShare ((dat V c).before 4 t d))
    ∗ (∃ d, owns (c : Thread nD τ) (msC t) fullShare ((dat V c).before 5 t d)))

def bodyPost (c : Dev nD) (t : Fin cfg1.N) : sProp 𝕄 :=
  iprop((dat V c).Φ t.succ ∗ (dat V c).owesAt () t.succ
    ∗ owns (c : Thread nD τ) (msDf t) fullShare ((dat V c).after 0 t)
    ∗ owns (c : Thread nD τ) (msDs t) fullShare ((dat V c).after 1 t)
    ∗ owns (c : Thread nD τ) (msP t) fullShare ((dat V c).after 2 t)
    ∗ owns (c : Thread nD τ) (msN t) fullShare ((dat V c).after 3 t)
    ∗ owns (c : Thread nD τ) (msL t) fullShare ((dat V c).after 4 t)
    ∗ owns (c : Thread nD τ) (msC t) fullShare ((dat V c).after 5 t))

set_option maxHeartbeats 4800000 in
/-- The body at any point. The four inputs' buffers hold their blocks; the point is the first or a later one; the
    outputs' buffers hold anything at the first point and what the point before left at a later one, and the
    body leaves them at this point's sums; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4, after5]
  by_cases hz : t.val = 0
  · have h0 := first_of t hz
    rw [sumAt_first V c t hz]
    unfold lFirst cFirst; (try dsimp only)
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ h0 (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL_first c t h0 _ _ _ _)
    unfold owns; iexists _; isplitr
    swap; · iexact H5
    ipureintro; exact View.read_writes_of_cover _ _ _ _ _ (coverC_first c t h0 _ _ _ _)
  · have h0 := notFirst_of t hz
    simp only [before4_later V c t hz, before5_later V c t hz]
    rw [sumAt_later V c t hz]
    unfold lLater cLater; (try dsimp only)
    iintro ⟨HΦ, Ho, ⟨%d0, H0⟩, ⟨%d1, H1⟩, ⟨%d2, H2⟩, ⟨%d3, H3⟩, ⟨%d4, H4⟩, ⟨%d5, H5⟩⟩
    iapply ((runLater c (grid1.coords t) _ _ _ _ _ _ _ _ _ _ _ _ h0 (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL_later c t h0 _ _ _ _ _ _)
    unfold owns; iexists _; isplitr
    swap; · iexact H5
    ipureintro; exact View.read_writes_of_cover _ _ _ _ _ (coverC_later c t h0 _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Triplet

end
-- ==== Proof.Word.Run.lean ====
/-
  The run of the whole program. @main is four items: the distance region, fifteen host operations that build
  the two masks, the triplet region, five host operations that divide the loss sum by twice the count. This
  module names what every unscoped buffer holds at each boundary between items, starting from the launch memory
  (a region replaces its output arrays by what its write-backs leave; a stretch of host operations is folded
  over what it finds), gives each region its record over those contents, and concludes that every weakly fair
  execution terminates with every unscoped buffer at the last boundary's contents. The frame claim and the
  value claim are both read off that one statement.
  The triplet region reads the distance matrix through two windows on one array: at its entry the array's full
  share is split into two halves, one per window, and at its exit the halves are joined again.
-/
import proofs.«145872_j72078141161682_1_alg».proof.Proof.Word.Gram.Data
import proofs.«145872_j72078141161682_1_alg».proof.Proof.Word.Triplet.Data
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 (c : Dev nD) : Valuation τ sig (Elt F) := fun b => m (c, b)
abbrev E0 : (c : Dev nD) → (b : Ref sig .tc) → Buf (Elt F) ((c : Thread nD τ).loc b) := fun c b => W0 m c b
/-- After the distance region: the distance matrix's array at what the write-back leaves, the rest as launched. -/
def W1 (c : Dev nD) : Valuation τ sig (Elt F) :=
  Pipeline.withArrays spec0 c (W0 m c) fun w => (Gram.dat (E0 m) c).arrAt w cfg0.N
theorem W1_arr (c : Dev nD) (w : Fin cfg0.W) :
    W1 m c (Proc.devRef .tc (Pipeline.arrRef spec0 w)) = (Gram.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Gram.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)
/-- After the masks' host operations: the triplet region's entry. -/
abbrev W2 (c : Dev nD) : Valuation τ sig (Elt F) := StableHlo.after hostOps1 (W1 m c)
abbrev E2 : (c : Dev nD) → (b : Ref sig .tc) → Buf (Elt F) ((c : Thread nD τ).loc b) := fun c b => W2 m c b
/-- After the triplet region: the two sums' arrays at what the write-backs leave, the rest as entered. -/
def W3 (c : Dev nD) : Valuation τ sig (Elt F) :=
  Function.update (Function.update (W2 m c) (Proc.devRef .tc main_v16_0) ((Triplet.dat (E2 m) c).arrAt 4 cfg1.N))
    (Proc.devRef .tc main_v16_1) ((Triplet.dat (E2 m) c).arrAt 5 cfg1.N)
abbrev E3 : (c : Dev nD) → (b : Ref sig .tc) → Buf (Elt F) ((c : Thread nD τ).loc b) := fun c b => W3 m c b
theorem W3_of_ne (c : Dev nD) (b : Ref sig .tc) (h4 : b ≠ main_v16_0) (h5 : b ≠ main_v16_1) : E3 m c b = E2 m c b := by
  show W3 m c (Proc.devRef .tc b) = W2 m c (Proc.devRef .tc b)
  unfold W3
  rw [Function.update_of_ne (StableHlo.devRef_ne_of_ne h5), Function.update_of_ne (StableHlo.devRef_ne_of_ne h4)]
theorem W3_loss (c : Dev nD) : E3 m c main_v16_0 = (Triplet.dat (E2 m) c).arrAt 4 cfg1.N := by
  show W3 m c (Proc.devRef .tc main_v16_0) = _
  unfold W3
  rw [Function.update_of_ne (StableHlo.devRef_ne_of_ne (by decide)), Function.update_self]
theorem W3_count (c : Dev nD) : E3 m c main_v16_1 = (Triplet.dat (E2 m) c).arrAt 5 cfg1.N := by
  show W3 m c (Proc.devRef .tc main_v16_1) = _
  unfold W3
  rw [Function.update_self]
/-- After the closing host operations: the end. -/
abbrev W4 (c : Dev nD) : Valuation τ sig (Elt F) := StableHlo.after hostOps2 (W3 m c)

/-! ## The proof data family and what rides beside the buffers -/

abbrev adm : (p : Fin 2) → (pcfgs (F := F) p).Adm := fun p => (cfgs p).toPCfg_adm
/-- Each region's proof data at its region's entry contents: a literal match on the region's number. -/
def pdats : (p : Fin 2) → (c : Dev nD) → Dat τ (Elt F) Unit ℕ (UR sig nD τ) ℕ (Pipeline.pin (pcfgs (F := F)) adm p) c
  | ⟨0, _⟩ => fun c => Gram.dat (E0 m) c
  | ⟨1, _⟩ => fun c => Triplet.dat (E2 m) c
abbrev 𝒱₀ : Variants := Variants.none
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance region as a segment -/

set_option backward.isDefEq.respectTransparency.types false in
/-- Entered from every unscoped buffer at the launch contents, left at `W1`. Its two arrays are split out of the
    unscoped buffers at entry and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gram.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gram.hin (E0 m) c)
    unfold Pipeline.ΦA
    iintro ⟨Hp, -, Hr⟩
    isplitl [Hr]; · iexact Hr
    iexact Hp
  hout c := by
    rw [Pipeline.ownSems0_none]
    refine BIBase.Entails.trans (Gram.hout (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet region as a segment -/

/-- The triplet region's arrays, window by window: the distance matrix's array twice, at the two halves of the full
    share; the two masks' arrays and the two sums' arrays whole. -/
theorem arrays1_eq (c : Dev nD) (Fv : (w : Fin cfg1.W) → Buf (Elt F) ((cfg1.win w).arr.view.loc (c : Thread nD τ))) :
    ((Triplet.dat (E2 m) c).arrays Fv : sProp 𝕄)
      = iprop((((c : Thread nD τ).loc main_v0) ↦{fullShare.left} Fv 0) ∗ (((c : Thread nD τ).loc main_v0) ↦{fullShare.right} Fv 1)
          ∗ (((c : Thread nD τ).loc main_v13) ↦{fullShare} Fv 2) ∗ (((c : Thread nD τ).loc main_v15) ↦{fullShare} Fv 3)
          ∗ (((c : Thread nD τ).loc main_v16_0) ↦{fullShare} Fv 4) ∗ (((c : Thread nD τ).loc main_v16_1) ↦{fullShare} Fv 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- The distinct buffers behind the triplet region's arrays, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v0) ↦{fullShare} Vv main_v0) ∗ (((c : Thread nD τ).loc main_v13) ↦{fullShare} Vv main_v13)
          ∗ (((c : Thread nD τ).loc main_v15) ↦{fullShare} Vv main_v15) ∗ (((c : Thread nD τ).loc main_v16_0) ↦{fullShare} Vv main_v16_0)
          ∗ (((c : Thread nD τ).loc main_v16_1) ↦{fullShare} Vv main_v16_1)) := by
  unfold Pipeline.arrBufs
  exact bigSep_eq_bigSepL_of_eq [main_v0, main_v13, main_v15, main_v16_0, main_v16_1] (by decide) (by decide) _

/-- Outside the region's arrays the exit contents are the entry contents. -/
theorem rest1_congr (c : Dev nD) :
    (Pipeline.unscopedRest (Ix := Unit) (Name := ℕ) (U := UR sig nD τ) (Lvl := ℕ) spec1 c (E2 m c) : sProp 𝕄)
      = Pipeline.unscopedRest spec1 c (E3 m c) := by
  unfold Pipeline.unscopedRest
  exact bigSep_congr fun b hb => by
    have hb' := (Finset.mem_sdiff.mp hb).2
    have h4 : b ≠ main_v16_0 := fun h => hb' (Finset.mem_image.mpr ⟨4, Finset.mem_univ _, h.symm⟩)
    have h5 : b ≠ main_v16_1 := fun h => hb' (Finset.mem_image.mpr ⟨5, Finset.mem_univ _, h.symm⟩)
    rw [W3_of_ne m c b h4 h5]

set_option backward.isDefEq.respectTransparency.types false in
/-- ENTRY. Every unscoped buffer at the entry contents is the region's arrays at their entry contents — the
    distance matrix's full share split into the two windows' halves — and the rest. -/
theorem entry1 (c : Dev nD) :
    (unscopedBufs c (E2 m c) : sProp 𝕄)
      ⊢ iprop((pdats m 1 c).arrays ((pdats m 1 c).arrAt · 0) ∗ Pipeline.unscopedRest spec1 c (E2 m c)) := by
  show _ ⊢ iprop((Triplet.dat (E2 m) c).arrays (fun w => (Triplet.dat (E2 m) c).arrAt w 0) ∗ Pipeline.unscopedRest spec1 c (E2 m c))
  have hs := Pipeline.unscopedBufs_split₀ (Val := Elt F) (Ix := Unit) (Name := ℕ) (U := UR sig nD τ) (Lvl := ℕ) cfgs 1 winFacts₀1.arr_unscoped c (E2 m c)
  change unscopedBufs c (E2 m c) = iprop(Pipeline.arrBufs spec1 c (E2 m c) ∗ Pipeline.unscopedRest spec1 c (E2 m c)) at hs
  rw [hs, arrBufs1_eq, arrays1_eq]
  iintro ⟨⟨HD, HP, HN, HL, HC⟩, Hrest⟩
  ihave HD2 := (pointsTo_share (PosShare.mem_left_op_right fullShare)).1 $$ HD
  icases HD2 with ⟨HDl, HDr⟩
  isplitr [Hrest]
  · isplitl [HDl]; · iexact HDl
    isplitl [HDr]; · iexact HDr
    isplitl [HP]; · iexact HP
    isplitl [HN]; · iexact HN
    isplitl [HL]; · iexact HL
    iexact HC
  iexact Hrest

/-- The input arrays are never written: what the pipeline leaves in them is what it found. -/
theorem in_kept1 (c : Dev nD) (w : Fin cfg1.W) (hw : (cfg1.win w).isOut = false) :
    (Triplet.dat (E2 m) c).arrAt w cfg1.N = E2 m c (Pipeline.arrRef spec1 w) :=
  ((Triplet.dat (E2 m) c).arrAt_in w hw _).trans (Triplet.A_eq (E2 m) c w)

set_option backward.isDefEq.respectTransparency.types false in
/-- EXIT. The region's arrays at what the pipeline leaves and the rest make every unscoped buffer at the exit
    contents: the two halves of the distance matrix, both still at the entry contents, are joined again. -/
theorem exit1 (c : Dev nD) :
    iprop((pdats m 1 c).arrays ((pdats m 1 c).arrAt · cfg1.N) ∗ Pipeline.unscopedRest spec1 c (E2 m c))
      ⊢ (unscopedBufs c (E3 m c) : sProp 𝕄) := by
  show iprop((Triplet.dat (E2 m) c).arrays (fun w => (Triplet.dat (E2 m) c).arrAt w cfg1.N) ∗ Pipeline.unscopedRest spec1 c (E2 m c)) ⊢ _
  have hs := Pipeline.unscopedBufs_split₀ (Val := Elt F) (Ix := Unit) (Name := ℕ) (U := UR sig nD τ) (Lvl := ℕ) cfgs 1 winFacts₀1.arr_unscoped c (E3 m c)
  change unscopedBufs c (E3 m c) = iprop(Pipeline.arrBufs spec1 c (E3 m c) ∗ Pipeline.unscopedRest spec1 c (E3 m c)) at hs
  rw [hs, arrBufs1_eq, arrays1_eq, ← rest1_congr,
    in_kept1 m c 0 rfl, in_kept1 m c 1 rfl, in_kept1 m c 2 rfl, in_kept1 m c 3 rfl, ← W3_loss, ← W3_count,
    W3_of_ne m c main_v0 (by decide) (by decide), W3_of_ne m c main_v13 (by decide) (by decide), W3_of_ne m c main_v15 (by decide) (by decide)]
  iintro ⟨⟨HDl, HDr, HP, HN, HL, HC⟩, Hrest⟩
  ihave HD := (pointsTo_share (PosShare.mem_left_op_right fullShare)).2 $$ [HDl HDr]
  · isplitl [HDl]; · iexact HDl
    iexact HDr
  isplitr [Hrest]
  · isplitl [HD]; · iexact HD
    isplitl [HP]; · iexact HP
    isplitl [HN]; · iexact HN
    isplitl [HL]; · iexact HL
    iexact HC
  iexact Hrest

set_option backward.isDefEq.respectTransparency.types false in
/-- Entered from every unscoped buffer at `W2`, left at `W3`; otherwise as the distance region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Triplet.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec1 c
    unfold Pipeline.ΦA
    iintro ⟨Hp, -, Hr⟩
    isplitl [Hr]; · iexact Hr
    iexact Hp
  hout c := by
    rw [Pipeline.ownSems0_none]
    show Pipeline.ΦA spec1 c ⊢ _
    unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. At the compiled mesh, from any memory with zero counters, every weakly fair execution of @main
    terminates, nothing faulting, and every final state holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c)
        ⊢ iprop(iprop(StableHlo.held (c : Thread nD τ) (Pipeline.ucRefs τ sig) (W4 m c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Run

end
-- ==== Proof.Word.Frames.lean ====
/-
  The frame claim, read off the run. No item of @main writes an argument: the two stretches of host
  operations write only their own results, the distance region reads the codes through an input window (which
  the pipeline never writes back) and the triplet region does not touch them; the modalities are read by host
  operations only. So each argument's buffer, followed back through the boundaries, holds its launch contents.
-/
import proofs.«145872_j72078141161682_1_alg».proof.Proof.Word.Run
import proofs.«145872_j72078141161682_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel

variable {F : FTy → Type} [FloatOps F]

local notation "𝕄" => MT nD τ sig Unit (Elt F) ℕ (UR sig nD τ) ℕ

variable (m : (ℓ : Loc nD τ sig) → Buf (Elt F) ℓ)

theorem W4_of (c : Dev nD) (r : Ref sig .tc) (h : r ∉ hostOps2_W) : W4 m c r = W3 m c r :=
  StableHlo.after_of_writes_sub hostOps2 _ hostOps2_writes h
theorem W2_of (c : Dev nD) (r : Ref sig .tc) (h : r ∉ hostOps1_W) : W2 m c r = W1 m c r :=
  StableHlo.after_of_writes_sub hostOps1 _ hostOps1_writes h

/-- The codes end as launched. -/
theorem W4_codes (c : Dev nD) : W4 m c (Proc.devRef .tc main_arg0) = m ((c : Thread nD τ).loc main_arg0) :=
  (W4_of m c main_arg0 (by decide)).trans <| (W3_of_ne m c main_arg0 (by decide) (by decide)).trans <|
    (W2_of m c main_arg0 (by decide)).trans <| (W1_arr m c 0).trans <|
    ((Gram.dat (E0 m) c).arrAt_in 0 rfl _).trans (Gram.A_eq (E0 m) c 0)

/-- The modalities end as launched. -/
theorem W4_mods (c : Dev nD) : W4 m c (Proc.devRef .tc main_arg1) = m ((c : Thread nD τ).loc main_arg1) :=
  (W4_of m c main_arg1 (by decide)).trans <| (W3_of_ne m c main_arg1 (by decide) (by decide)).trans <|
    (W2_of m c main_arg1 (by decide)).trans <| W1_of_ne m c main_arg1 (by decide)

/-- THE FRAME: every weakly fair execution of @main terminates without a fault and leaves both arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_codes m c), (h c _ (mem_uc main_arg1 (by decide))).trans (W4_mods m c)⟩) (run_all m ρ)

end Cert.Kernel.Run

end
-- ==== Proof.Gram.Base.lean ====
/-
  The first region computes the matrix of pairwise distances. Its grid has eight points, one per block of 4096
  columns of the codes. Two scratch buffers live across the points: the Gram matrix accumulated so far and the
  column of squared norms accumulated so far. The body zeroes both at the first point, adds the block's
  contribution at every point, and at the last point turns them into distances and stores the output block.
  This module fixes, once, what every later module about the region speaks of: the region-entry contents as a
  parameter, the input block at a point, the two branch conditions decided over the grid, where the output
  window is idle, the memrefs the body is called with, and the region's resting invariant with the two scratch
  buffers spelt out.
-/
import proofs.«145872_j72078141161682_1_alg».proof.Proof.Gen.KernelIdeal.Launch
import proofs.«145872_j72078141161682_1_alg».proof.Proof.Gen.KernelIdeal.Skeleton
import proofs.«145872_j72078141161682_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The codes' window is fetched at every point and never written, so its current staging buffer holds the
    point's block whatever the proof data, as long as the data's array is the entry contents and the body
    leaves the block in place. -/
theorem before_codes_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first block": the accumulators are zeroed. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last block": the distances are computed and stored. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem codes_live : ∀ t : Fin cfg0.N, cfg0.idle 0 (grid0.coords t) = false := by decide +kernel
/-- Before the last point the body stores nothing into the output block, and the block is not written back. -/
theorem out_idle : ∀ t : Fin cfg0.N, ¬isLast (grid0.coords t) → cfg0.idle 1 (grid0.coords t) = true := by decide +kernel
theorem out_noFlush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The memrefs the body is called with -/

abbrev msX (t : Fin cfg0.N) : Memref sig .tc .vmem S256x4096 .f32 := win0_0.stage (cfg0.slots t 0)
abbrev hsX (t : Fin cfg0.N) : (msX t).IsWhole := hstage0_0 ((cfg0.slots t 0).cast nbuf0_0)
abbrev msD (t : Fin cfg0.N) : Memref sig .tc .vmem S256x256 .f32 := win0_1.stage (cfg0.slots t 1)
abbrev hsD (t : Fin cfg0.N) : (msD t).IsWhole := hstage0_1 ((cfg0.slots t 1).cast nbuf0_1)
/-- The Gram accumulator and the squared-norm accumulator: whole scoped buffers of the kernel's own. -/
abbrev scG : Memref sig .tc .vmem S256x256 .f32 := Memref.whole cc0_scratch0
abbrev scQ : Memref sig .tc .vmem S256x1 .f32 := Memref.whole cc0_scratch1
abbrev VG : View sig .tc .vmem S256x256 .f32 := scG.view
abbrev VQ : View sig .tc .vmem S256x1 .f32 := scQ.view
abbrev VD : View sig .tc .vmem S256x256 .f32 := (Memref.whole cc0_stg1_0 : Memref sig .tc .vmem S256x256 .f32).view

/-- The other region's staging buffers: scoped buffers this region never touches, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The region's resting invariant: both accumulators owned at some contents, the other region's staging
    buffers, and the generator register. -/
theorem rest_eq (c : Dev nD) :
    (Pipeline.ΦA spec0 c : sProp 𝕄)
      = iprop(iprop((∃ d, owns (c : Thread nD τ) scG fullShare d) ∗ (∃ d, owns (c : Thread nD τ) scQ fullShare d) ∗ others c) ∗ (∃ r, prngReg c r)) := by
  unfold Pipeline.ΦA others; rw [scopedRest0_eq]; simp only [scG, scQ, owns_whole]; try rfl

end Cert.KernelIdeal.Gram

end
-- ==== Proof.Gram.RunFirst.lean ====
/-
  the output block handed back untouched, both accumulators at anything (they are zeroed first): the first point of the grid, where the accumulators are zeroed and then receive the first block's contribution.
-/
import proofs.«145872_j72078141161682_1_alg».proof.Proof.Gram.Base

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block handed back untouched, both accumulators at anything (they are zeroed first) — runs to
    its continuation holding the codes' block as it was and each buffer it stored into with its stores written, as
    pieces (last first): the pieces are found by running the body, not transcribed. -/
noncomputable def runFirst (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : isFirst i) (hc1 : ¬isLast i)
    (x0 : Vec F S256x4096 .f32) :
    Σ' (LD : List (View.Piece (Elt F) S256x256 .f32)) (LG : List (View.Piece (Elt F) S256x256 .f32)), { LQ : List (View.Piece (Elt F) S256x1 .f32) //
      ∀ (xi : Vec F S256x256 .f32) (E : Set ℕ) (K : PUnit → sProp 𝕄),
        iprop(owns (c : Thread nD τ) arg1 fullShare x0 ∗ owns (c : Thread nD τ) arg2 fullShare xi ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨[], ?_, ?_, fun xi E K => ?run⟩
  case run =>
    simp only [cc0__gram_kernel_eq_skeleton]; unfold cc0__gram_kernel_skel
    unfold owns
    iintro ⟨⟨%f0, %hf0, H0⟩, ⟨%f1, %hf1, H1⟩, ⟨%dg, %fg, -, HG⟩, ⟨%dq, %fq, -, HQ⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HG]
    · iexists _; iexact HG
    iexists _; iexact HQ

end Cert.KernelIdeal.Gram

end
-- ==== Proof.Gram.RunMid.lean ====
/-
  the output block handed back untouched, the accumulators at what the point before left: a middle point of the grid, where each accumulator receives one more block's contribution.
-/
import proofs.«145872_j72078141161682_1_alg».proof.Proof.Gram.Base

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block handed back untouched, the accumulators at what the point before left — runs to
    its continuation holding the codes' block as it was and each buffer it stored into with its stores written, as
    pieces (last first): the pieces are found by running the body, not transcribed. -/
noncomputable def runMid (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬isFirst i) (hc1 : ¬isLast i)
    (x0 : Vec F S256x4096 .f32) (g0 : Vec F S256x256 .f32) (q0 : Vec F S256x1 .f32) :
    Σ' (LD : List (View.Piece (Elt F) S256x256 .f32)) (LG : List (View.Piece (Elt F) S256x256 .f32)), { LQ : List (View.Piece (Elt F) S256x1 .f32) //
      ∀ (xi : Vec F S256x256 .f32) (E : Set ℕ) (K : PUnit → sProp 𝕄),
        iprop(owns (c : Thread nD τ) arg1 fullShare x0 ∗ owns (c : Thread nD τ) arg2 fullShare xi ∗ owns (c : Thread nD τ) arg3 fullShare g0 ∗ owns (c : Thread nD τ) arg4 fullShare q0
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨[], ?_, ?_, fun xi E K => ?run⟩
  case run =>
    simp only [cc0__gram_kernel_eq_skeleton]; unfold cc0__gram_kernel_skel
    unfold owns
    iintro ⟨⟨%f0, %hf0, H0⟩, ⟨%f1, %hf1, H1⟩, ⟨%fg, %hfg, HG⟩, ⟨%fq, %hfq, HQ⟩, Hk⟩
    obtain rfl := harg1.eq_unread hf0; obtain rfl := harg2.eq_unread hf1; obtain rfl := harg3.eq_unread hfg; obtain rfl := harg4.eq_unread hfq
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HG]
    · iexists _; iexact HG
    iexists _; iexact HQ

end Cert.KernelIdeal.Gram

end
-- ==== Proof.Gram.RunLast.lean ====
/-
  the output block at anything, the accumulators at what the point before left: the last point of the grid, where the accumulators receive the last block's contribution and the distances are computed from them and stored.
-/
import proofs.«145872_j72078141161682_1_alg».proof.Proof.Gram.Base

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, called at a point of this case on whole memrefs — the codes' block at `x0`, the output block at anything, the accumulators at what the point before left — runs to
    its continuation holding the codes' block as it was and each buffer it stored into with its stores written, as
    pieces (last first): the pieces are found by running the body, not transcribed. -/
noncomputable def runLast (c : Dev nD) (i : grid0.Coords) (arg1 : Memref sig .tc .vmem S256x4096 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x1 .f32) (harg4 : arg4.IsWhole) (hc0 : ¬isFirst i) (hc1 : isLast i)
    (x0 : Vec F S256x4096 .f32) (g0 : Vec F S256x256 .f32) (q0 : Vec F S256x1 .f32) :
    Σ' (LD : List (View.Piece (Elt F) S256x256 .f32)) (LG : List (View.Piece (Elt F) S256x256 .f32)), { LQ : List (View.Piece (Elt F) S256x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare g0 ∗ owns (c : Thread nD τ) arg4 fullShare q0
            ∗ (iprop(owns (c : Thread nD τ) arg1 fullShare x0 ∗ (∃ f, arg2.view.loc (c : Thread nD τ) ↦[arg2.view.set]{fullShare} arg2.view.writes (Elt F) f LD) ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)) -∗ K ⟨⟩))
          ⊢ wp frame (wpE (defs₀ (F := F)) Variants.none c none) E (cc0__gram_kernel i arg1 harg1 arg2 harg2 arg3 harg3 arg4 harg4) K } := by
  refine ⟨?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fg, %hfg, HG⟩, ⟨%fq, %hfq, HQ⟩, Hk⟩
    obtain rfl := harg1.eq_unread hf0; obtain rfl := harg3.eq_unread hfg; obtain rfl := harg4.eq_unread hfq
    sl_exec (disch := first | exact hc0 | exact hc1)
    sl_step
    iapply Hk
    isplitl [H0]
    · iexists _; isplitr; · ipureintro; exact harg1.read_unread _
      iexact H0
    isplitl [H1]
    · iexists _; iexact H1
    isplitl [HG]
    · iexists _; iexact HG
    iexists _; iexact HQ

end Cert.KernelIdeal.Gram

end
-- ==== Proof.Gram.Data.lean ====
/-
  What the first region's buffers hold from point to point, and the region's body obligation.
  After point 0 the two accumulators hold the first block's Gram matrix and squared norms; after every later
  point what they held before with one more block added; after the last point the output block also holds
  the distances computed from the completed accumulators. This module names those contents by recursion on
  the point (the values themselves are whatever the three case runs found), states the region invariant that
  carries the accumulators from one point to the next, packs both into the pipeline's proof data, and proves
  the body obligation by deciding, at each point, which of the three cases it is.
-/
import proofs.«145872_j72078141161682_1_alg».proof.Proof.Gram.RunFirst
import proofs.«145872_j72078141161682_1_alg».proof.Proof.Gram.RunMid
import proofs.«145872_j72078141161682_1_alg».proof.Proof.Gram.RunLast

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which case a point is in -/

theorem lt8 (t : Fin cfg0.N) : t.val < 8 := lt_of_lt_of_eq t.isLt (show cfg0.N = 8 from N_0)
theorem first_of (t : Fin cfg0.N) (h : t.val = 0) : isFirst (grid0.coords t) := (isFirst_iff t).mpr (by rw [h])
theorem notFirst_of (t : Fin cfg0.N) (h : t.val ≠ 0) : ¬isFirst (grid0.coords t) :=
  fun hh => by have h1 := (isFirst_iff t).mp hh; have h2 := lt8 t; omega
theorem last_of (t : Fin cfg0.N) (h : t.val = 7) : isLast (grid0.coords t) := (isLast_iff t).mpr (by rw [h])
theorem notLast_of (t : Fin cfg0.N) (h : t.val ≠ 7) : ¬isLast (grid0.coords t) :=
  fun hh => by have h1 := (isLast_iff t).mp hh; have h2 := lt8 t; omega

/-! ## What each case leaves, read back from the pieces its run found -/

section Pieces
variable (c : Dev nD) (t : Fin cfg0.N)

def gFirst (h0 : isFirst (grid0.coords t)) (h1 : ¬isLast (grid0.coords t)) (x0 : Vec F S256x4096 .f32) : Vec F S256x256 .f32 :=
  VG.read (Elt F) (VG.writes (Elt F) VG.junk (runFirst c (grid0.coords t) (msX t) (hsX t) (msD t) (hsD t) scG (Memref.isWhole_whole _) scQ (Memref.isWhole_whole _) h0 h1 x0).2.1)
def qFirst (h0 : isFirst (grid0.coords t)) (h1 : ¬isLast (grid0.coords t)) (x0 : Vec F S256x4096 .f32) : Vec F S256x1 .f32 :=
  VQ.read (Elt F) (VQ.writes (Elt F) VQ.junk (runFirst c (grid0.coords t) (msX t) (hsX t) (msD t) (hsD t) scG (Memref.isWhole_whole _) scQ (Memref.isWhole_whole _) h0 h1 x0).2.2.1)
theorem coverG_first (h0 : isFirst (grid0.coords t)) (h1 : ¬isLast (grid0.coords t)) (x0 : Vec F S256x4096 .f32) (y : S256x256.Idx) :
    ∃ pc ∈ (runFirst c (grid0.coords t) (msX t) (hsX t) (msD t) (hsD t) scG (Memref.isWhole_whole _) scQ (Memref.isWhole_whole _) h0 h1 x0).2.1, y ∈ pc.1.set :=
  View.cover_of_tiledL (runFirst c (grid0.coords t) (msX t) (hsX t) (msD t) (hsD t) scG (Memref.isWhole_whole _) scQ (Memref.isWhole_whole _) h0 h1 x0).2.1 S256x256.size (by sl_kernel_rfl) y
theorem coverQ_first (h0 : isFirst (grid0.coords t)) (h1 : ¬isLast (grid0.coords t)) (x0 : Vec F S256x4096 .f32) (y : S256x1.Idx) :
    ∃ pc ∈ (runFirst c (grid0.coords t) (msX t) (hsX t) (msD t) (hsD t) scG (Memref.isWhole_whole _) scQ (Memref.isWhole_whole _) h0 h1 x0).2.2.1, y ∈ pc.1.set :=
  View.cover_of_tiledL (runFirst c (grid0.coords t) (msX t) (hsX t) (msD t) (hsD t) scG (Memref.isWhole_whole _) scQ (Memref.isWhole_whole _) h0 h1 x0).2.2.1 S256x1.size (by sl_kernel_rfl) y

def gMid (h0 : ¬isFirst (grid0.coords t)) (h1 : ¬isLast (grid0.coords t)) (x0 : Vec F S256x4096 .f32) (g0 : Vec F S256x256 .f32) (q0 : Vec F S256x1 .f32) : Vec F S256x256 .f32 :=
  VG.read (Elt F) (VG.writes (Elt F) VG.junk (runMid c (grid0.coords t) (msX t) (hsX t) (msD t) (hsD t) scG (Memref.isWhole_whole _) scQ (Memref.isWhole_whole _) h0 h1 x0 g0 q0).2.1)
def qMid (h0 : ¬isFirst (grid0.coords t)) (h1 : ¬isLast (grid0.coords t)) (x0 : Vec F S256x4096 .f32) (g0 : Vec F S256x256 .f32) (q0 : Vec F S256x1 .f32) : Vec F S256x1 .f32 :=
  VQ.read (Elt F) (VQ.writes (Elt F) VQ.junk (runMid c (grid0.coords t) (msX t) (hsX t) (msD t) (hsD t) scG (Memref.isWhole_whole _) scQ (Memref.isWhole_whole _) h0 h1 x0 g0 q0).2.2.1)
theorem coverG_mid (h0 : ¬isFirst (grid0.coords t)) (h1 : ¬isLast (grid0.coords t)) (x0 : Vec F S256x4096 .f32) (g0 : Vec F S256x256 .f32) (q0 : Vec F S256x1 .f32) (y : S256x256.Idx) :
    ∃ pc ∈ (runMid c (grid0.coords t) (msX t) (hsX t) (msD t) (hsD t) scG (Memref.isWhole_whole _) scQ (Memref.isWhole_whole _) h0 h1 x0 g0 q0).2.1, y ∈ pc.1.set :=
  View.cover_of_tiledL (runMid c (grid0.coords t) (msX t) (hsX t) (msD t) (hsD t) scG (Memref.isWhole_whole _) scQ (Memref.isWhole_whole _) h0 h1 x0 g0 q0).2.1 S256x256.size (by sl_kernel_rfl) y
theorem coverQ_mid (h0 : ¬isFirst (grid0.coords t)) (h1 : ¬isLast (grid0.coords t)) (x0 : Vec F S256x4096 .f32) (g0 : Vec F S256x256 .f32) (q0 : Vec F S256x1 .f32) (y : S256x1.Idx) :
    ∃ pc ∈ (runMid c (grid0.coords t) (msX t) (hsX t) (msD t) (hsD t) scG (Memref.isWhole_whole _) scQ (Memref.isWhole_whole _) h0 h1 x0 g0 q0).2.2.1, y ∈ pc.1.set :=
  View.cover_of_tiledL (runMid c (grid0.coords t) (msX t) (hsX t) (msD t) (hsD t) scG (Memref.isWhole_whole _) scQ (Memref.isWhole_whole _) h0 h1 x0 g0 q0).2.2.1 S256x1.size (by sl_kernel_rfl) y

def gLast (h0 : ¬isFirst (grid0.coords t)) (h1 : isLast (grid0.coords t)) (x0 : Vec F S256x4096 .f32) (g0 : Vec F S256x256 .f32) (q0 : Vec F S256x1 .f32) : Vec F S256x256 .f32 :=
  VG.read (Elt F) (VG.writes (Elt F) VG.junk (runLast c (grid0.coords t) (msX t) (hsX t) (msD t) (hsD t) scG (Memref.isWhole_whole _) scQ (Memref.isWhole_whole _) h0 h1 x0 g0 q0).2.1)
def qLast (h0 : ¬isFirst (grid0.coords t)) (h1 : isLast (grid0.coords t)) (x0 : Vec F S256x4096 .f32) (g0 : Vec F S256x256 .f32) (q0 : Vec F S256x1 .f32) : Vec F S256x1 .f32 :=
  VQ.read (Elt F) (VQ.writes (Elt F) VQ.junk (runLast c (grid0.coords t) (msX t) (hsX t) (msD t) (hsD t) scG (Memref.isWhole_whole _) scQ (Memref.isWhole_whole _) h0 h1 x0 g0 q0).2.2.1)
/-- The distances, as the last point's stores leave them in the output block. -/
def dLast (h0 : ¬isFirst (grid0.coords t)) (h1 : isLast (grid0.coords t)) (x0 : Vec F S256x4096 .f32) (g0 : Vec F S256x256 .f32) (q0 : Vec F S256x1 .f32) : Vec F S256x256 .f32 :=
  VD.read (Elt F) (VD.writes (Elt F) VD.junk (runLast c (grid0.coords t) (msX t) (hsX t) (msD t) (hsD t) scG (Memref.isWhole_whole _) scQ (Memref.isWhole_whole _) h0 h1 x0 g0 q0).1)
theorem coverG_last (h0 : ¬isFirst (grid0.coords t)) (h1 : isLast (grid0.coords t)) (x0 : Vec F S256x4096 .f32) (g0 : Vec F S256x256 .f32) (q0 : Vec F S256x1 .f32) (y : S256x256.Idx) :
    ∃ pc ∈ (runLast c (grid0.coords t) (msX t) (hsX t) (msD t) (hsD t) scG (Memref.isWhole_whole _) scQ (Memref.isWhole_whole _) h0 h1 x0 g0 q0).2.1, y ∈ pc.1.set :=
  View.cover_of_tiledL (runLast c (grid0.coords t) (msX t) (hsX t) (msD t) (hsD t) scG (Memref.isWhole_whole _) scQ (Memref.isWhole_whole _) h0 h1 x0 g0 q0).2.1 S256x256.size (by sl_kernel_rfl) y
theorem coverQ_last (h0 : ¬isFirst (grid0.coords t)) (h1 : isLast (grid0.coords t)) (x0 : Vec F S256x4096 .f32) (g0 : Vec F S256x256 .f32) (q0 : Vec F S256x1 .f32) (y : S256x1.Idx) :
    ∃ pc ∈ (runLast c (grid0.coords t) (msX t) (hsX t) (msD t) (hsD t) scG (Memref.isWhole_whole _) scQ (Memref.isWhole_whole _) h0 h1 x0 g0 q0).2.2.1, y ∈ pc.1.set :=
  View.cover_of_tiledL (runLast c (grid0.coords t) (msX t) (hsX t) (msD t) (hsD t) scG (Memref.isWhole_whole _) scQ (Memref.isWhole_whole _) h0 h1 x0 g0 q0).2.2.1 S256x1.size (by sl_kernel_rfl) y
theorem coverD_last (h0 : ¬isFirst (grid0.coords t)) (h1 : isLast (grid0.coords t)) (x0 : Vec F S256x4096 .f32) (g0 : Vec F S256x256 .f32) (q0 : Vec F S256x1 .f32) (y : S256x256.Idx) :
    ∃ pc ∈ (runLast c (grid0.coords t) (msX t) (hsX t) (msD t) (hsD t) scG (Memref.isWhole_whole _) scQ (Memref.isWhole_whole _) h0 h1 x0 g0 q0).1, y ∈ pc.1.set :=
  View.cover_of_tiledL (runLast c (grid0.coords t) (msX t) (hsX t) (msD t) (hsD t) scG (Memref.isWhole_whole _) scQ (Memref.isWhole_whole _) h0 h1 x0 g0 q0).1 S256x256.size (by sl_kernel_rfl) y

end Pieces

/-! ## The accumulation -/

/-- The two accumulators after the body at position `n`: the Gram matrix and the squared norms of the blocks
    0 … n, as the case runs leave them. -/
def accAt (c : Dev nD) : (n : ℕ) → n < cfg0.N → Vec F S256x256 .f32 × Vec F S256x1 .f32
  | 0, hn => (gFirst c ⟨0, hn⟩ (first_of _ rfl) (notLast_of _ (show (0 : ℕ) ≠ 7 by decide)) (iblk V c 0 ⟨0, hn⟩),
      qFirst c ⟨0, hn⟩ (first_of _ rfl) (notLast_of _ (show (0 : ℕ) ≠ 7 by decide)) (iblk V c 0 ⟨0, hn⟩))
  | n + 1, hn =>
    if h1 : n + 1 = 7 then
      (gLast c ⟨n + 1, hn⟩ (notFirst_of _ (Nat.succ_ne_zero n)) (last_of _ h1) (iblk V c 0 ⟨n + 1, hn⟩) (accAt c n (Nat.lt_of_succ_lt hn)).1 (accAt c n (Nat.lt_of_succ_lt hn)).2,
       qLast c ⟨n + 1, hn⟩ (notFirst_of _ (Nat.succ_ne_zero n)) (last_of _ h1) (iblk V c 0 ⟨n + 1, hn⟩) (accAt c n (Nat.lt_of_succ_lt hn)).1 (accAt c n (Nat.lt_of_succ_lt hn)).2)
    else
      (gMid c ⟨n + 1, hn⟩ (notFirst_of _ (Nat.succ_ne_zero n)) (notLast_of _ h1) (iblk V c 0 ⟨n + 1, hn⟩) (accAt c n (Nat.lt_of_succ_lt hn)).1 (accAt c n (Nat.lt_of_succ_lt hn)).2,
       qMid c ⟨n + 1, hn⟩ (notFirst_of _ (Nat.succ_ne_zero n)) (notLast_of _ h1) (iblk V c 0 ⟨n + 1, hn⟩) (accAt c n (Nat.lt_of_succ_lt hn)).1 (accAt c n (Nat.lt_of_succ_lt hn)).2)

theorem pred_lt (t : Fin cfg0.N) : t.val - 1 < cfg0.N := Nat.lt_of_le_of_lt (Nat.sub_le _ _) t.isLt

theorem accAt_first (c : Dev nD) (t : Fin cfg0.N) (hz : t.val = 0) :
    accAt V c t.val t.isLt = (gFirst c t (first_of t hz) (notLast_of t (by omega)) (iblk V c 0 t),
      qFirst c t (first_of t hz) (notLast_of t (by omega)) (iblk V c 0 t)) := by
  obtain ⟨n, hn⟩ := t
  cases n with
  | zero => rfl
  | succ n => exact absurd hz (Nat.succ_ne_zero n)

theorem accAt_mid (c : Dev nD) (t : Fin cfg0.N) (hz : t.val ≠ 0) (h7 : t.val ≠ 7) :
    accAt V c t.val t.isLt = (gMid c t (notFirst_of t hz) (notLast_of t h7) (iblk V c 0 t) (accAt V c (t.val - 1) (pred_lt t)).1 (accAt V c (t.val - 1) (pred_lt t)).2,
      qMid c t (notFirst_of t hz) (notLast_of t h7) (iblk V c 0 t) (accAt V c (t.val - 1) (pred_lt t)).1 (accAt V c (t.val - 1) (pred_lt t)).2) := by
  obtain ⟨n, hn⟩ := t
  cases n with
  | zero => exact absurd rfl hz
  | succ n => exact (dif_neg h7).trans rfl

theorem accAt_last (c : Dev nD) (t : Fin cfg0.N) (hz : t.val ≠ 0) (h7 : t.val = 7) :
    accAt V c t.val t.isLt = (gLast c t (notFirst_of t hz) (last_of t h7) (iblk V c 0 t) (accAt V c (t.val - 1) (pred_lt t)).1 (accAt V c (t.val - 1) (pred_lt t)).2,
      qLast c t (notFirst_of t hz) (last_of t h7) (iblk V c 0 t) (accAt V c (t.val - 1) (pred_lt t)).1 (accAt V c (t.val - 1) (pred_lt t)).2) := by
  obtain ⟨n, hn⟩ := t
  cases n with
  | zero => exact absurd rfl hz
  | succ n => exact (dif_pos h7).trans rfl

/-- What the output block's staging buffer holds after the body at point `t`: at the last point the distances;
    before it a placeholder nothing consults (the window is idle there and not written back). -/
def dOut (c : Dev nD) (t : Fin cfg0.N) : Vec F S256x256 .f32 :=
  if h7 : t.val = 7 then
    dLast c t (notFirst_of t (by omega)) (last_of t h7) (iblk V c 0 t) (accAt V c (t.val - 1) (pred_lt t)).1 (accAt V c (t.val - 1) (pred_lt t)).2
  else VD.read (Elt F) VD.junk

/-! ## The region invariant -/

/-- Before position `n`: before the first point the resting invariant (the accumulators at anything); afterwards
    the accumulators at what the point before left, the other region's staging buffers and the generator register. -/
def inv (c : Dev nD) : (n : ℕ) → n ≤ cfg0.N → sProp 𝕄
  | 0, _ => Pipeline.ΦA spec0 c
  | n + 1, hn => iprop(iprop(owns (c : Thread nD τ) scG fullShare (accAt V c n hn).1 ∗ owns (c : Thread nD τ) scQ fullShare (accAt V c n hn).2 ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) scG fullShare (accAt V c n hn).1 ∗ owns (c : Thread nD τ) scQ fullShare (accAt V c n hn).2 ∗ others c) ∗ (∃ r, prngReg c r)) := rfl
theorem inv_pos (c : Dev nD) (n : ℕ) (h : n ≤ cfg0.N) (hz : n ≠ 0) :
    inv V c n h = iprop(iprop(owns (c : Thread nD τ) scG fullShare (accAt V c (n - 1) (by omega)).1 ∗ owns (c : Thread nD τ) scQ fullShare (accAt V c (n - 1) (by omega)).2 ∗ others c) ∗ (∃ r, prngReg c r)) := by
  cases n with
  | zero => exact absurd rfl hz
  | succ n => rfl

/-! ## The proof data -/

/-- The region's proof data on core `c`: the arrays as the region finds them; after the body at point `t` the
    codes' buffer at its block and the output's at `dOut`; the invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => dOut V c t
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_codes (c : Dev nD) (t : Fin cfg0.N) : (dat V c).after 0 t = iblk V c 0 t := by dsimp only [dat]
theorem after_out (c : Dev nD) (t : Fin cfg0.N) : (dat V c).after 1 t = dOut V c t := by dsimp only [dat]
theorem before_codes (c : Dev nD) (t : Fin cfg0.N) (d) : (dat V c).before 0 t d = iblk V c 0 t :=
  before_codes_of V (dat V c) (A_eq V c 0) (after_codes V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (msX t) fullShare ((dat V c).before 0 t d))
    ∗ (∃ d, owns (c : Thread nD τ) (msD t) fullShare ((dat V c).before 1 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The codes' buffer holds the point's block; the point is the first, a middle or the last
    one; the invariant hands the body the accumulators (at anything at the first point, at what the point before
    left otherwise) and takes them back at this point's contents; the output block is handed back untouched
    before the last point and holds the distances after it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_codes]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msX t) fullShare ((dat V c).after 0 t) from by
    unfold Dat.leavesExact; rw [codes_live t], after_codes]
  have hN := lt8 t
  by_cases hz : t.val = 0
  · have h0 := first_of t hz
    have h1 := notLast_of t (show t.val ≠ 7 by omega)
    rw [Dat.leavesExact_idle (dat V c) 1 t (out_idle t h1) (out_noFlush t h1)]
    rw [accAt_first V c t hz]
    unfold gFirst qFirst; (try dsimp only)
    rw [inv_castSucc V c t, inv_zero V c _ _ hz, rest_eq]
    iintro ⟨⟨⟨HG, HQ, Hoth⟩, Hg⟩, Ho, ⟨%d0, H0⟩, ⟨%d1, H1⟩⟩
    iapply ((runFirst c (grid0.coords t) _ _ _ _ _ _ _ _ h0 h1 (iblk V c 0 t)).2.2.2 _ Set.univ _)
    isplitl [H0]; · iexact H0
    isplitl [H1]; · iexact H1
    isplitl [HG]; · iexact HG
    isplitl [HQ]; · iexact HQ
    iintro ⟨H0, H1, ⟨%eg, HG⟩, ⟨%eq, HQ⟩⟩
    isplitl [HG HQ Hoth Hg]
    · isplitl [HG HQ Hoth]
      · isplitl [HG]
        · unfold owns; iexists _; isplitr
          swap; · iexact HG
          ipureintro; exact View.read_writes_of_cover _ _ _ _ _ (coverG_first c t h0 h1 _)
        isplitl [HQ]
        · unfold owns; iexists _; isplitr
          swap; · iexact HQ
          ipureintro; exact View.read_writes_of_cover _ _ _ _ _ (coverQ_first c t h0 h1 _)
        iexact Hoth
      iexact Hg
    isplitl [Ho]; · iexact Ho
    isplitl [H0]; · iexact H0
    iexists _; iexact H1
  · have h0 := notFirst_of t hz
    by_cases h7 : t.val = 7
    · have h1 := last_of t h7
      rw [show (dat V c).leavesExact 1 t = owns (c : Thread nD τ) (msD t) fullShare ((dat V c).after 1 t) from by
        unfold Dat.leavesExact; rw [out_live t h1], after_out]
      rw [accAt_last V c t hz h7, show dOut V c t = _ from dif_pos h7]
      unfold gLast qLast dLast; (try dsimp only)
      rw [inv_castSucc V c t, inv_pos V c _ _ hz]
      iintro ⟨⟨⟨HG, HQ, Hoth⟩, Hg⟩, Ho, ⟨%d0, H0⟩, ⟨%d1, H1⟩⟩
      iapply ((runLast c (grid0.coords t) _ _ _ _ _ _ _ _ h0 h1 (iblk V c 0 t) _ _).2.2.2 Set.univ _)
      isplitl [H0]; · iexact H0
      isplitl [H1]; · iexists _; iexact H1
      isplitl [HG]; · iexact HG
      isplitl [HQ]; · iexact HQ
      iintro ⟨H0, ⟨%e1, H1⟩, ⟨%eg, HG⟩, ⟨%eq, HQ⟩⟩
      isplitl [HG HQ Hoth Hg]
      · isplitl [HG HQ Hoth]
        · isplitl [HG]
          · unfold owns; iexists _; isplitr
            swap; · iexact HG
            ipureintro; exact View.read_writes_of_cover _ _ _ _ _ (coverG_last c t h0 h1 _ _ _)
          isplitl [HQ]
          · unfold owns; iexists _; isplitr
            swap; · iexact HQ
            ipureintro; exact View.read_writes_of_cover _ _ _ _ _ (coverQ_last c t h0 h1 _ _ _)
          iexact Hoth
        iexact Hg
      isplitl [Ho]; · iexact Ho
      isplitl [H0]; · iexact H0
      unfold owns; iexists _; isplitr
      swap; · iexact H1
      ipureintro; exact View.read_writes_of_cover _ _ _ _ _ (coverD_last c t h0 h1 _ _ _)
    · have h1 := notLast_of t h7
      rw [Dat.leavesExact_idle (dat V c) 1 t (out_idle t h1) (out_noFlush t h1)]
      rw [accAt_mid V c t hz h7]
      unfold gMid qMid; (try dsimp only)
      rw [inv_castSucc V c t, inv_pos V c _ _ hz]
      iintro ⟨⟨⟨HG, HQ, Hoth⟩, Hg⟩, Ho, ⟨%d0, H0⟩, ⟨%d1, H1⟩⟩
      iapply ((runMid c (grid0.coords t) _ _ _ _ _ _ _ _ h0 h1 (iblk V c 0 t) _ _).2.2.2 _ Set.univ _)
      isplitl [H0]; · iexact H0
      isplitl [H1]; · iexact H1
      isplitl [HG]; · iexact HG
      isplitl [HQ]; · iexact HQ
      iintro ⟨H0, H1, ⟨%eg, HG⟩, ⟨%eq, HQ⟩⟩
      isplitl [HG HQ Hoth Hg]
      · isplitl [HG HQ Hoth]
        · isplitl [HG]
          · unfold owns; iexists _; isplitr
            swap; · iexact HG
            ipureintro; exact View.read_writes_of_cover _ _ _ _ _ (coverG_mid c t h0 h1 _ _ _)
          isplitl [HQ]
          · unfold owns; iexists _; isplitr
            swap; · iexact HQ
            ipureintro; exact View.read_writes_of_cover _ _ _ _ _ (coverQ_mid c t h0 h1 _ _ _)
          iexact Hoth
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the resting invariant back: what the accumulators hold is forgotten. -/
theorem hout (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 8 := N_0; omega), rest_eq]
  iintro ⟨⟨HG, HQ, Hoth⟩, Hg⟩
  isplitl [HG HQ Hoth]
  · isplitl [HG]; · iexists _; iexact HG
    isplitl [HQ]; · iexists _; iexact HQ
    iexact Hoth
  iexact Hg

end Cert.KernelIdeal.Gram

end
-- ==== Proof.Triplet.Base.lean ====
/-
  The second region reduces the triplet-margin expression to two numbers, the loss sum and the triple count.
  Its grid has eight points, one per block of 32 impostor rows. It reads the whole distance matrix and the whole
  anchor-positive mask (fetched once), and the point's 32 rows of the distance matrix and of the impostor mask;
  the distance matrix is handed to it twice, through two windows on one array. The two outputs are single
  numbers that stay in their staging buffers across the points: the body zeroes them at the first point and
  adds the point's contribution at every point. This module fixes what every later module about the region
  speaks of: the region-entry contents as a parameter, a window's block at a point, the branch condition decided
  over the grid, and the memrefs the body is called with.
-/
import proofs.«145872_j72078141161682_1_alg».proof.Proof.Gen.KernelIdeal.Launch
import proofs.«145872_j72078141161682_1_alg».proof.Proof.Gen.KernelIdeal.Skeleton
import proofs.«145872_j72078141161682_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, fixed by the run
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- "This is the first block of impostor rows": the two sums are zeroed. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)

/-! ## The memrefs the body is called with -/

abbrev msDf (t : Fin cfg1.N) : Memref sig .tc .vmem S256x256 .f32 := win1_0.stage (cfg1.slots t 0)
abbrev hsDf (t : Fin cfg1.N) : (msDf t).IsWhole := hstage1_0 ((cfg1.slots t 0).cast nbuf1_0)
abbrev msDs (t : Fin cfg1.N) : Memref sig .tc .vmem S32x256 .f32 := win1_1.stage (cfg1.slots t 1)
abbrev hsDs (t : Fin cfg1.N) : (msDs t).IsWhole := hstage1_1 ((cfg1.slots t 1).cast nbuf1_1)
abbrev msP (t : Fin cfg1.N) : Memref sig .tc .vmem S256x256 .f32 := win1_2.stage (cfg1.slots t 2)
abbrev hsP (t : Fin cfg1.N) : (msP t).IsWhole := hstage1_2 ((cfg1.slots t 2).cast nbuf1_2)
abbrev msN (t : Fin cfg1.N) : Memref sig .tc .vmem S32x256 .f32 := win1_3.stage (cfg1.slots t 3)
abbrev hsN (t : Fin cfg1.N) : (msN t).IsWhole := hstage1_3 ((cfg1.slots t 3).cast nbuf1_3)
abbrev msL (t : Fin cfg1.N) : Memref sig .tc .vmem S1x1 .f32 := win1_4.stage (cfg1.slots t 4)
abbrev hsL (t : Fin cfg1.N) : (msL t).IsWhole := hstage1_4 ((cfg1.slots t 4).cast nbuf1_4)
abbrev msC (t : Fin cfg1.N) : Memref sig .tc .vmem S1x1 .f32 := win1_5.stage (cfg1.slots t 5)
abbrev hsC (t : Fin cfg1.N) : (msC t).IsWhole := hstage1_5 ((cfg1.slots t 5).cast nbuf1_5)
abbrev VL : View sig .tc .vmem S1x1 .f32 := (Memref.whole cc1_stg4_0 : Memref sig .tc .vmem S1x1 .f32).view
abbrev VC : View sig .tc .vmem S1x1 .f32 := (Memref.whole cc1_stg5_0 : Memref sig .tc .vmem S1x1 .f32).view

end Cert.KernelIdeal.Triplet

end
-- ==== Proof.Triplet.RunFirst.lean ====
/-
  The first point of the second region's grid: the two sums, found at anything, are zeroed and then receive the first 32 impostor rows' contribution.
-/
import proofs.«145872_j72078141161682_1_alg».proof.Proof.Triplet.Base

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body, called at a point of this case on whole memrefs — the four input blocks at `d0`, `ds`, `p0`, `ns` — runs
    to its continuation holding the inputs as they were and each output with its stores written, as pieces (last
    first): the pieces are found by running the body through all of its parts, not transcribed. -/
noncomputable def runFirst (c : Dev nD) (i : grid1.Coords) (arg1 : Memref sig .tc .vmem S256x256 .f32) (harg1 : arg1.IsWhole) (arg2 : Memref sig .tc .vmem S32x256 .f32) (harg2 : arg2.IsWhole) (arg3 : Memref sig .tc .vmem S256x256 .f32) (harg3 : arg3.IsWhole) (arg4 : Memref sig .tc .vmem S32x256 .f32) (harg4 : arg4.IsWhole) (arg5 : Memref sig .tc .vmem S1x1 .f32) (harg5 : arg5.IsWhole) (arg6 : Memref sig .tc .vmem S1x1 .f32) (harg6 : arg6.IsWhole) (hc0 : isFirst i)
    (d0 : Vec F S256x256 .f32) (ds : Vec F S32x256 .f32) (p0 : Vec F S256x256 .f32) (ns : Vec F S32x256 .f32) :
    Σ' (LL : List (View.Piece (Elt F) S1x1 .f32)), { LC : List (View.Piece (Elt F) S1x1 .f32) //
      ∀ (E : Set ℕ) (K : PUnit → sProp 𝕄),
        iprop(owns (c : Thread nD τ) arg1 fullShare d0 ∗ owns (c : Thread nD τ) arg2 fullShare ds ∗ owns (c : Thread nD τ) arg3 fullShare p0 ∗ owns (c : Thread nD τ) arg4 fullShare ns ∗ (∃ d, owns (c : Thread nD τ) arg5 fullShare d) ∗ (∃ d, owns (c : Thread nD τ) arg6 fullShare d)
            ∗ (iprop(owns (c : Thread nD τ) arg1 fullShare d0 ∗ owns (c : Thread nD τ) arg2 fullShare ds ∗ owns (c : Thread nD τ) arg3 fullShare p0 ∗ owns (c : Thread nD τ) arg4 fullShare ns ∗ (∃ f, arg5.view.loc (c : Thread nD τ) ↦[arg5.view.set]{fullShare} arg5.view.writes (Elt F) f LL) ∗ (∃ f, arg6.view.loc (c : Thread nD τ) ↦[arg6.view.set]{fullShare} arg6.view.writes (Elt F) f LC)) -∗ K ⟨⟩))
          ⊢ wp frame (wpE (defs₀ (F := F)) Variants.none c none) E (cc1__triplet_kernel i arg1 harg1 arg2 harg2 arg3 harg3 arg4 harg4 arg5 harg5 arg6 harg6) K } := by
  refine ⟨?_, ?_, fun E K => ?run⟩
  case run =>
    simp only [cc1__triplet_kernel_eq_skeleton]; unfold cc1__triplet_kernel_skel
    unfold owns
    iintro ⟨⟨%f1, %hf1, H1⟩, ⟨%f2, %hf2, H2⟩, ⟨%f3, %hf3, H3⟩, ⟨%f4, %hf4, H4⟩, ⟨%dl, %fl, -, HL⟩, ⟨%dc, %fc, -, HC⟩, Hk⟩
    obtain rfl := harg1.eq_unread hf1; obtain rfl := harg2.eq_unread hf2; obtain rfl := harg3.eq_unread hf3; obtain rfl := harg4.eq_unread hf4
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HL]
    · iexists _; iexact HL
    iexists _; iexact HC

end Cert.KernelIdeal.Triplet

end
-- ==== Proof.Triplet.RunLater.lean ====
/-
  A later point of the second region's grid: the two sums, found at what the point before left, receive 32 more impostor rows' contribution.
-/
import proofs.«145872_j72078141161682_1_alg».proof.Proof.Triplet.Base

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body, called at a point of this case on whole memrefs — the four input blocks at `d0`, `ds`, `p0`, `ns` — runs
    to its continuation holding the inputs as they were and each output with its stores written, as pieces (last
    first): the pieces are found by running the body through all of its parts, not transcribed. -/
noncomputable def runLater (c : Dev nD) (i : grid1.Coords) (arg1 : Memref sig .tc .vmem S256x256 .f32) (harg1 : arg1.IsWhole) (arg2 : Memref sig .tc .vmem S32x256 .f32) (harg2 : arg2.IsWhole) (arg3 : Memref sig .tc .vmem S256x256 .f32) (harg3 : arg3.IsWhole) (arg4 : Memref sig .tc .vmem S32x256 .f32) (harg4 : arg4.IsWhole) (arg5 : Memref sig .tc .vmem S1x1 .f32) (harg5 : arg5.IsWhole) (arg6 : Memref sig .tc .vmem S1x1 .f32) (harg6 : arg6.IsWhole) (hc0 : ¬isFirst i)
    (d0 : Vec F S256x256 .f32) (ds : Vec F S32x256 .f32) (p0 : Vec F S256x256 .f32) (ns : Vec F S32x256 .f32) (l0 : Vec F S1x1 .f32) (c0 : Vec F S1x1 .f32) :
    Σ' (LL : List (View.Piece (Elt F) S1x1 .f32)), { LC : List (View.Piece (Elt F) S1x1 .f32) //
      ∀ (E : Set ℕ) (K : PUnit → sProp 𝕄),
        iprop(owns (c : Thread nD τ) arg1 fullShare d0 ∗ owns (c : Thread nD τ) arg2 fullShare ds ∗ owns (c : Thread nD τ) arg3 fullShare p0 ∗ owns (c : Thread nD τ) arg4 fullShare ns ∗ owns (c : Thread nD τ) arg5 fullShare l0 ∗ owns (c : Thread nD τ) arg6 fullShare c0
            ∗ (iprop(owns (c : Thread nD τ) arg1 fullShare d0 ∗ owns (c : Thread nD τ) arg2 fullShare ds ∗ owns (c : Thread nD τ) arg3 fullShare p0 ∗ owns (c : Thread nD τ) arg4 fullShare ns ∗ (∃ f, arg5.view.loc (c : Thread nD τ) ↦[arg5.view.set]{fullShare} arg5.view.writes (Elt F) f LL) ∗ (∃ f, arg6.view.loc (c : Thread nD τ) ↦[arg6.view.set]{fullShare} arg6.view.writes (Elt F) f LC)) -∗ K ⟨⟩))
          ⊢ wp frame (wpE (defs₀ (F := F)) Variants.none c none) E (cc1__triplet_kernel i arg1 harg1 arg2 harg2 arg3 harg3 arg4 harg4 arg5 harg5 arg6 harg6) K } := by
  refine ⟨?_, ?_, fun E K => ?run⟩
  case run =>
    simp only [cc1__triplet_kernel_eq_skeleton]; unfold cc1__triplet_kernel_skel
    unfold owns
    iintro ⟨⟨%f1, %hf1, H1⟩, ⟨%f2, %hf2, H2⟩, ⟨%f3, %hf3, H3⟩, ⟨%f4, %hf4, H4⟩, ⟨%fl, %hfl, HL⟩, ⟨%fc, %hfc, HC⟩, Hk⟩
    obtain rfl := harg1.eq_unread hf1; obtain rfl := harg2.eq_unread hf2; obtain rfl := harg3.eq_unread hf3; obtain rfl := harg4.eq_unread hf4; obtain rfl := harg5.eq_unread hfl; obtain rfl := harg6.eq_unread hfc
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [HL]
    · iexists _; iexact HL
    iexists _; iexact HC

end Cert.KernelIdeal.Triplet

end
-- ==== Proof.Triplet.Data.lean ====
/-
  What the second region's two outputs hold from point to point, and the region's body obligation.
  After point 0 the loss sum and the triple count hold the first 32 impostor rows' contribution; after every
  later point what they held before plus 32 more rows' contribution. The outputs' blocks do not move over the
  grid, so their staging buffers are written back only after the last point and, in between, each point finds
  in them what the point before left. This module names those contents by recursion on the point (the values
  are whatever the two case runs found), packs them into the pipeline's proof data, and proves the body
  obligation by deciding at each point whether it is the first.
-/
import proofs.«145872_j72078141161682_1_alg».proof.Proof.Triplet.RunFirst
import proofs.«145872_j72078141161682_1_alg».proof.Proof.Triplet.RunLater

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Which case a point is in -/

theorem lt8 (t : Fin cfg1.N) : t.val < 8 := lt_of_lt_of_eq t.isLt (show cfg1.N = 8 from N_1)
theorem first_of (t : Fin cfg1.N) (h : t.val = 0) : isFirst (grid1.coords t) := (isFirst_iff t).mpr (by rw [h])
theorem notFirst_of (t : Fin cfg1.N) (h : t.val ≠ 0) : ¬isFirst (grid1.coords t) :=
  fun hh => by have h1 := (isFirst_iff t).mp hh; have h2 := lt8 t; omega

/-! ## What each case leaves, read back from the pieces its run found -/

section Pieces
variable (c : Dev nD) (t : Fin cfg1.N)

def lFirst (h0 : isFirst (grid1.coords t)) (d0 : Vec F S256x256 .f32) (ds : Vec F S32x256 .f32) (p0 : Vec F S256x256 .f32) (ns : Vec F S32x256 .f32) : Vec F S1x1 .f32 :=
  VL.read (Elt F) (VL.writes (Elt F) VL.junk (runFirst c (grid1.coords t) (msDf t) (hsDf t) (msDs t) (hsDs t) (msP t) (hsP t) (msN t) (hsN t) (msL t) (hsL t) (msC t) (hsC t) h0 d0 ds p0 ns).1)
def cFirst (h0 : isFirst (grid1.coords t)) (d0 : Vec F S256x256 .f32) (ds : Vec F S32x256 .f32) (p0 : Vec F S256x256 .f32) (ns : Vec F S32x256 .f32) : Vec F S1x1 .f32 :=
  VC.read (Elt F) (VC.writes (Elt F) VC.junk (runFirst c (grid1.coords t) (msDf t) (hsDf t) (msDs t) (hsDs t) (msP t) (hsP t) (msN t) (hsN t) (msL t) (hsL t) (msC t) (hsC t) h0 d0 ds p0 ns).2.1)
theorem coverL_first (h0 : isFirst (grid1.coords t)) (d0 : Vec F S256x256 .f32) (ds : Vec F S32x256 .f32) (p0 : Vec F S256x256 .f32) (ns : Vec F S32x256 .f32) (y : S1x1.Idx) :
    ∃ pc ∈ (runFirst c (grid1.coords t) (msDf t) (hsDf t) (msDs t) (hsDs t) (msP t) (hsP t) (msN t) (hsN t) (msL t) (hsL t) (msC t) (hsC t) h0 d0 ds p0 ns).1, y ∈ pc.1.set :=
  View.cover_of_tiledL (runFirst c (grid1.coords t) (msDf t) (hsDf t) (msDs t) (hsDs t) (msP t) (hsP t) (msN t) (hsN t) (msL t) (hsL t) (msC t) (hsC t) h0 d0 ds p0 ns).1 S1x1.size (by sl_kernel_rfl) y
theorem coverC_first (h0 : isFirst (grid1.coords t)) (d0 : Vec F S256x256 .f32) (ds : Vec F S32x256 .f32) (p0 : Vec F S256x256 .f32) (ns : Vec F S32x256 .f32) (y : S1x1.Idx) :
    ∃ pc ∈ (runFirst c (grid1.coords t) (msDf t) (hsDf t) (msDs t) (hsDs t) (msP t) (hsP t) (msN t) (hsN t) (msL t) (hsL t) (msC t) (hsC t) h0 d0 ds p0 ns).2.1, y ∈ pc.1.set :=
  View.cover_of_tiledL (runFirst c (grid1.coords t) (msDf t) (hsDf t) (msDs t) (hsDs t) (msP t) (hsP t) (msN t) (hsN t) (msL t) (hsL t) (msC t) (hsC t) h0 d0 ds p0 ns).2.1 S1x1.size (by sl_kernel_rfl) y

def lLater (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) : Vec F S1x1 .f32 :=
  VL.read (Elt F) (VL.writes (Elt F) VL.junk (runLater c (grid1.coords t) (msDf t) (hsDf t) (msDs t) (hsDs t) (msP t) (hsP t) (msN t) (hsN t) (msL t) (hsL t) (msC t) (hsC t) h0 d0 ds p0 ns l0 c0).1)
def cLater (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) : Vec F S1x1 .f32 :=
  VC.read (Elt F) (VC.writes (Elt F) VC.junk (runLater c (grid1.coords t) (msDf t) (hsDf t) (msDs t) (hsDs t) (msP t) (hsP t) (msN t) (hsN t) (msL t) (hsL t) (msC t) (hsC t) h0 d0 ds p0 ns l0 c0).2.1)
theorem coverL_later (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) (y : S1x1.Idx) :
    ∃ pc ∈ (runLater c (grid1.coords t) (msDf t) (hsDf t) (msDs t) (hsDs t) (msP t) (hsP t) (msN t) (hsN t) (msL t) (hsL t) (msC t) (hsC t) h0 d0 ds p0 ns l0 c0).1, y ∈ pc.1.set :=
  View.cover_of_tiledL (runLater c (grid1.coords t) (msDf t) (hsDf t) (msDs t) (hsDs t) (msP t) (hsP t) (msN t) (hsN t) (msL t) (hsL t) (msC t) (hsC t) h0 d0 ds p0 ns l0 c0).1 S1x1.size (by sl_kernel_rfl) y
theorem coverC_later (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) (y : S1x1.Idx) :
    ∃ pc ∈ (runLater c (grid1.coords t) (msDf t) (hsDf t) (msDs t) (hsDs t) (msP t) (hsP t) (msN t) (hsN t) (msL t) (hsL t) (msC t) (hsC t) h0 d0 ds p0 ns l0 c0).2.1, y ∈ pc.1.set :=
  View.cover_of_tiledL (runLater c (grid1.coords t) (msDf t) (hsDf t) (msDs t) (hsDs t) (msP t) (hsP t) (msN t) (hsN t) (msL t) (hsL t) (msC t) (hsC t) h0 d0 ds p0 ns l0 c0).2.1 S1x1.size (by sl_kernel_rfl) y

end Pieces

/-! ## The accumulation -/

/-- The loss sum and the triple count after the body at position `n`: the contributions of the impostor rows of
    blocks 0 … n, as the case runs leave them. -/
def sumAt (c : Dev nD) : (n : ℕ) → n < cfg1.N → Vec F S1x1 .f32 × Vec F S1x1 .f32
  | 0, hn => (lFirst c ⟨0, hn⟩ (first_of _ rfl) (iblk V c 0 ⟨0, hn⟩) (iblk V c 1 ⟨0, hn⟩) (iblk V c 2 ⟨0, hn⟩) (iblk V c 3 ⟨0, hn⟩),
      cFirst c ⟨0, hn⟩ (first_of _ rfl) (iblk V c 0 ⟨0, hn⟩) (iblk V c 1 ⟨0, hn⟩) (iblk V c 2 ⟨0, hn⟩) (iblk V c 3 ⟨0, hn⟩))
  | n + 1, hn =>
      (lLater c ⟨n + 1, hn⟩ (notFirst_of _ (Nat.succ_ne_zero n)) (iblk V c 0 ⟨n + 1, hn⟩) (iblk V c 1 ⟨n + 1, hn⟩) (iblk V c 2 ⟨n + 1, hn⟩) (iblk V c 3 ⟨n + 1, hn⟩) (sumAt c n (Nat.lt_of_succ_lt hn)).1 (sumAt c n (Nat.lt_of_succ_lt hn)).2,
       cLater c ⟨n + 1, hn⟩ (notFirst_of _ (Nat.succ_ne_zero n)) (iblk V c 0 ⟨n + 1, hn⟩) (iblk V c 1 ⟨n + 1, hn⟩) (iblk V c 2 ⟨n + 1, hn⟩) (iblk V c 3 ⟨n + 1, hn⟩) (sumAt c n (Nat.lt_of_succ_lt hn)).1 (sumAt c n (Nat.lt_of_succ_lt hn)).2)

theorem pred_lt (t : Fin cfg1.N) : t.val - 1 < cfg1.N := Nat.lt_of_le_of_lt (Nat.sub_le _ _) t.isLt

theorem sumAt_first (c : Dev nD) (t : Fin cfg1.N) (hz : t.val = 0) :
    sumAt V c t.val t.isLt = (lFirst c t (first_of t hz) (iblk V c 0 t) (iblk V c 1 t) (iblk V c 2 t) (iblk V c 3 t), cFirst c t (first_of t hz) (iblk V c 0 t) (iblk V c 1 t) (iblk V c 2 t) (iblk V c 3 t)) := by
  obtain ⟨n, hn⟩ := t
  cases n with
  | zero => rfl
  | succ n => exact absurd hz (Nat.succ_ne_zero n)

theorem sumAt_later (c : Dev nD) (t : Fin cfg1.N) (hz : t.val ≠ 0) :
    sumAt V c t.val t.isLt = (lLater c t (notFirst_of t hz) (iblk V c 0 t) (iblk V c 1 t) (iblk V c 2 t) (iblk V c 3 t) (sumAt V c (t.val - 1) (pred_lt t)).1 (sumAt V c (t.val - 1) (pred_lt t)).2,
      cLater c t (notFirst_of t hz) (iblk V c 0 t) (iblk V c 1 t) (iblk V c 2 t) (iblk V c 3 t) (sumAt V c (t.val - 1) (pred_lt t)).1 (sumAt V c (t.val - 1) (pred_lt t)).2) := by
  obtain ⟨n, hn⟩ := t
  cases n with
  | zero => exact absurd rfl hz
  | succ n => rfl

/-! ## The proof data -/

/-- The region's proof data on core `c`: the arrays as the region finds them; after the body at point `t` each
    input's buffer at its block and the two outputs' at `sumAt`; the resting invariant throughout (the region has
    no scratch); nothing owed; the distance matrix, read through two windows, held half and half. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (sumAt V c t.val t.isLt).1
    | ⟨5, _⟩ => (sumAt V c t.val t.isLt).2
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = (sumAt V c t.val t.isLt).1 := by dsimp only [dat]
theorem after5 (c : Dev nD) (t : Fin cfg1.N) : (dat V c).after 5 t = (sumAt V c t.val t.isLt).2 := by dsimp only [dat]
theorem before0 (c : Dev nD) (t : Fin cfg1.N) (d) : (dat V c).before 0 t d = iblk V c 0 t := before_in0_of V (dat V c) (A_eq V c 0) (after0 V c) t d
theorem before1 (c : Dev nD) (t : Fin cfg1.N) (d) : (dat V c).before 1 t d = iblk V c 1 t := before_in1_of V (dat V c) (A_eq V c 1) (after1 V c) t d
theorem before2 (c : Dev nD) (t : Fin cfg1.N) (d) : (dat V c).before 2 t d = iblk V c 2 t := before_in2_of V (dat V c) (A_eq V c 2) (after2 V c) t d
theorem before3 (c : Dev nD) (t : Fin cfg1.N) (d) : (dat V c).before 3 t d = iblk V c 3 t := before_in3_of V (dat V c) (A_eq V c 3) (after3 V c) t d

/-- The outputs' blocks are written back after the last point only. -/
theorem noFlush4 : ∀ t : Fin cfg1.N, t.val ≠ 7 → (cfg1.win 4).flush t = false := by decide +kernel
theorem noFlush5 : ∀ t : Fin cfg1.N, t.val ≠ 7 → (cfg1.win 5).flush t = false := by decide +kernel

/-- At a later point the loss sum's buffer holds what the point before left. -/
theorem before4_later (c : Dev nD) (t : Fin cfg1.N) (hz : t.val ≠ 0) (d) :
    (dat V c).before 4 t d = (sumAt V c (t.val - 1) (pred_lt t)).1 :=
  ((dat V c).before_out_kept 4 rfl t hz (noFlush4 ⟨t.val - 1, pred_lt t⟩ (by have := lt8 t; show t.val - 1 ≠ 7; omega)) (fun _ => rfl) (fun _ _ => rfl) d).trans
    (after4 V c ⟨t.val - 1, pred_lt t⟩)
theorem before5_later (c : Dev nD) (t : Fin cfg1.N) (hz : t.val ≠ 0) (d) :
    (dat V c).before 5 t d = (sumAt V c (t.val - 1) (pred_lt t)).2 :=
  ((dat V c).before_out_kept 5 rfl t hz (noFlush5 ⟨t.val - 1, pred_lt t⟩ (by have := lt8 t; show t.val - 1 ≠ 7; omega)) (fun _ => rfl) (fun _ _ => rfl) d).trans
    (after5 V c ⟨t.val - 1, pred_lt t⟩)

/-! ## The body obligation -/

def bodyPre (c : Dev nD) (t : Fin cfg1.N) : sProp 𝕄 :=
  iprop((dat V c).Φ t.castSucc ∗ (dat V c).owesAt () t.castSucc
    ∗ (∃ d, owns (c : Thread nD τ) (msDf t) fullShare ((dat V c).before 0 t d))
    ∗ (∃ d, owns (c : Thread nD τ) (msDs t) fullShare ((dat V c).before 1 t d))
    ∗ (∃ d, owns (c : Thread nD τ) (msP t) fullShare ((dat V c).before 2 t d))
    ∗ (∃ d, owns (c : Thread nD τ) (msN t) fullShare ((dat V c).before 3 t d))
    ∗ (∃ d, owns (c : Thread nD τ) (msL t) fullShare ((dat V c).before 4 t d))
    ∗ (∃ d, owns (c : Thread nD τ) (msC t) fullShare ((dat V c).before 5 t d)))

def bodyPost (c : Dev nD) (t : Fin cfg1.N) : sProp 𝕄 :=
  iprop((dat V c).Φ t.succ ∗ (dat V c).owesAt () t.succ
    ∗ owns (c : Thread nD τ) (msDf t) fullShare ((dat V c).after 0 t)
    ∗ owns (c : Thread nD τ) (msDs t) fullShare ((dat V c).after 1 t)
    ∗ owns (c : Thread nD τ) (msP t) fullShare ((dat V c).after 2 t)
    ∗ owns (c : Thread nD τ) (msN t) fullShare ((dat V c).after 3 t)
    ∗ owns (c : Thread nD τ) (msL t) fullShare ((dat V c).after 4 t)
    ∗ owns (c : Thread nD τ) (msC t) fullShare ((dat V c).after 5 t))

set_option maxHeartbeats 4800000 in
/-- The body at any point. The four inputs' buffers hold their blocks; the point is the first or a later one; the
    outputs' buffers hold anything at the first point and what the point before left at a later one, and the
    body leaves them at this point's sums; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4, after5]
  by_cases hz : t.val = 0
  · have h0 := first_of t hz
    rw [sumAt_first V c t hz]
    unfold lFirst cFirst; (try dsimp only)
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ h0 (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL_first c t h0 _ _ _ _)
    unfold owns; iexists _; isplitr
    swap; · iexact H5
    ipureintro; exact View.read_writes_of_cover _ _ _ _ _ (coverC_first c t h0 _ _ _ _)
  · have h0 := notFirst_of t hz
    simp only [before4_later V c t hz, before5_later V c t hz]
    rw [sumAt_later V c t hz]
    unfold lLater cLater; (try dsimp only)
    iintro ⟨HΦ, Ho, ⟨%d0, H0⟩, ⟨%d1, H1⟩, ⟨%d2, H2⟩, ⟨%d3, H3⟩, ⟨%d4, H4⟩, ⟨%d5, H5⟩⟩
    iapply ((runLater c (grid1.coords t) _ _ _ _ _ _ _ _ _ _ _ _ h0 (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverL_later c t h0 _ _ _ _ _ _)
    unfold owns; iexists _; isplitr
    swap; · iexact H5
    ipureintro; exact View.read_writes_of_cover _ _ _ _ _ (coverC_later c t h0 _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Triplet

end
-- ==== Proof.Run.lean ====
/-
  The run of the whole program. @main is four items: the distance region, fifteen host operations that build
  the two masks, the triplet region, five host operations that divide the loss sum by twice the count. This
  module names what every unscoped buffer holds at each boundary between items, starting from the launch memory
  (a region replaces its output arrays by what its write-backs leave; a stretch of host operations is folded
  over what it finds), gives each region its record over those contents, and concludes that every weakly fair
  execution terminates with every unscoped buffer at the last boundary's contents. The frame claim and the
  value claim are both read off that one statement.
  The triplet region reads the distance matrix through two windows on one array: at its entry the array's full
  share is split into two halves, one per window, and at its exit the halves are joined again.
-/
import proofs.«145872_j72078141161682_1_alg».proof.Proof.Gram.Data
import proofs.«145872_j72078141161682_1_alg».proof.Proof.Triplet.Data
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 (c : Dev nD) : Valuation τ sig (Elt F) := fun b => m (c, b)
abbrev E0 : (c : Dev nD) → (b : Ref sig .tc) → Buf (Elt F) ((c : Thread nD τ).loc b) := fun c b => W0 m c b
/-- After the distance region: the distance matrix's array at what the write-back leaves, the rest as launched. -/
def W1 (c : Dev nD) : Valuation τ sig (Elt F) :=
  Pipeline.withArrays spec0 c (W0 m c) fun w => (Gram.dat (E0 m) c).arrAt w cfg0.N
theorem W1_arr (c : Dev nD) (w : Fin cfg0.W) :
    W1 m c (Proc.devRef .tc (Pipeline.arrRef spec0 w)) = (Gram.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Gram.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)
/-- After the masks' host operations: the triplet region's entry. -/
abbrev W2 (c : Dev nD) : Valuation τ sig (Elt F) := StableHlo.after hostOps1 (W1 m c)
abbrev E2 : (c : Dev nD) → (b : Ref sig .tc) → Buf (Elt F) ((c : Thread nD τ).loc b) := fun c b => W2 m c b
/-- After the triplet region: the two sums' arrays at what the write-backs leave, the rest as entered. -/
def W3 (c : Dev nD) : Valuation τ sig (Elt F) :=
  Function.update (Function.update (W2 m c) (Proc.devRef .tc main_v16_0) ((Triplet.dat (E2 m) c).arrAt 4 cfg1.N))
    (Proc.devRef .tc main_v16_1) ((Triplet.dat (E2 m) c).arrAt 5 cfg1.N)
abbrev E3 : (c : Dev nD) → (b : Ref sig .tc) → Buf (Elt F) ((c : Thread nD τ).loc b) := fun c b => W3 m c b
theorem W3_of_ne (c : Dev nD) (b : Ref sig .tc) (h4 : b ≠ main_v16_0) (h5 : b ≠ main_v16_1) : E3 m c b = E2 m c b := by
  show W3 m c (Proc.devRef .tc b) = W2 m c (Proc.devRef .tc b)
  unfold W3
  rw [Function.update_of_ne (StableHlo.devRef_ne_of_ne h5), Function.update_of_ne (StableHlo.devRef_ne_of_ne h4)]
theorem W3_loss (c : Dev nD) : E3 m c main_v16_0 = (Triplet.dat (E2 m) c).arrAt 4 cfg1.N := by
  show W3 m c (Proc.devRef .tc main_v16_0) = _
  unfold W3
  rw [Function.update_of_ne (StableHlo.devRef_ne_of_ne (by decide)), Function.update_self]
theorem W3_count (c : Dev nD) : E3 m c main_v16_1 = (Triplet.dat (E2 m) c).arrAt 5 cfg1.N := by
  show W3 m c (Proc.devRef .tc main_v16_1) = _
  unfold W3
  rw [Function.update_self]
/-- After the closing host operations: the end. -/
abbrev W4 (c : Dev nD) : Valuation τ sig (Elt F) := StableHlo.after hostOps2 (W3 m c)

/-! ## The proof data family and what rides beside the buffers -/

abbrev adm : (p : Fin 2) → (pcfgs (F := F) p).Adm := fun p => (cfgs p).toPCfg_adm
/-- Each region's proof data at its region's entry contents: a literal match on the region's number. -/
def pdats : (p : Fin 2) → (c : Dev nD) → Dat τ (Elt F) Unit ℕ (UR sig nD τ) ℕ (Pipeline.pin (pcfgs (F := F)) adm p) c
  | ⟨0, _⟩ => fun c => Gram.dat (E0 m) c
  | ⟨1, _⟩ => fun c => Triplet.dat (E2 m) c
abbrev 𝒱₀ : Variants := Variants.none
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance region as a segment -/

set_option backward.isDefEq.respectTransparency.types false in
/-- Entered from every unscoped buffer at the launch contents, left at `W1`. Its two arrays are split out of the
    unscoped buffers at entry and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gram.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gram.hin (E0 m) c)
    unfold Pipeline.ΦA
    iintro ⟨Hp, -, Hr⟩
    isplitl [Hr]; · iexact Hr
    iexact Hp
  hout c := by
    rw [Pipeline.ownSems0_none]
    refine BIBase.Entails.trans (Gram.hout (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet region as a segment -/

/-- The triplet region's arrays, window by window: the distance matrix's array twice, at the two halves of the full
    share; the two masks' arrays and the two sums' arrays whole. -/
theorem arrays1_eq (c : Dev nD) (Fv : (w : Fin cfg1.W) → Buf (Elt F) ((cfg1.win w).arr.view.loc (c : Thread nD τ))) :
    ((Triplet.dat (E2 m) c).arrays Fv : sProp 𝕄)
      = iprop((((c : Thread nD τ).loc main_v0) ↦{fullShare.left} Fv 0) ∗ (((c : Thread nD τ).loc main_v0) ↦{fullShare.right} Fv 1)
          ∗ (((c : Thread nD τ).loc main_v13) ↦{fullShare} Fv 2) ∗ (((c : Thread nD τ).loc main_v15) ↦{fullShare} Fv 3)
          ∗ (((c : Thread nD τ).loc main_v16_0) ↦{fullShare} Fv 4) ∗ (((c : Thread nD τ).loc main_v16_1) ↦{fullShare} Fv 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- The distinct buffers behind the triplet region's arrays, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v0) ↦{fullShare} Vv main_v0) ∗ (((c : Thread nD τ).loc main_v13) ↦{fullShare} Vv main_v13)
          ∗ (((c : Thread nD τ).loc main_v15) ↦{fullShare} Vv main_v15) ∗ (((c : Thread nD τ).loc main_v16_0) ↦{fullShare} Vv main_v16_0)
          ∗ (((c : Thread nD τ).loc main_v16_1) ↦{fullShare} Vv main_v16_1)) := by
  unfold Pipeline.arrBufs
  exact bigSep_eq_bigSepL_of_eq [main_v0, main_v13, main_v15, main_v16_0, main_v16_1] (by decide) (by decide) _

/-- Outside the region's arrays the exit contents are the entry contents. -/
theorem rest1_congr (c : Dev nD) :
    (Pipeline.unscopedRest (Ix := Unit) (Name := ℕ) (U := UR sig nD τ) (Lvl := ℕ) spec1 c (E2 m c) : sProp 𝕄)
      = Pipeline.unscopedRest spec1 c (E3 m c) := by
  unfold Pipeline.unscopedRest
  exact bigSep_congr fun b hb => by
    have hb' := (Finset.mem_sdiff.mp hb).2
    have h4 : b ≠ main_v16_0 := fun h => hb' (Finset.mem_image.mpr ⟨4, Finset.mem_univ _, h.symm⟩)
    have h5 : b ≠ main_v16_1 := fun h => hb' (Finset.mem_image.mpr ⟨5, Finset.mem_univ _, h.symm⟩)
    rw [W3_of_ne m c b h4 h5]

set_option backward.isDefEq.respectTransparency.types false in
/-- ENTRY. Every unscoped buffer at the entry contents is the region's arrays at their entry contents — the
    distance matrix's full share split into the two windows' halves — and the rest. -/
theorem entry1 (c : Dev nD) :
    (unscopedBufs c (E2 m c) : sProp 𝕄)
      ⊢ iprop((pdats m 1 c).arrays ((pdats m 1 c).arrAt · 0) ∗ Pipeline.unscopedRest spec1 c (E2 m c)) := by
  show _ ⊢ iprop((Triplet.dat (E2 m) c).arrays (fun w => (Triplet.dat (E2 m) c).arrAt w 0) ∗ Pipeline.unscopedRest spec1 c (E2 m c))
  have hs := Pipeline.unscopedBufs_split₀ (Val := Elt F) (Ix := Unit) (Name := ℕ) (U := UR sig nD τ) (Lvl := ℕ) cfgs 1 winFacts₀1.arr_unscoped c (E2 m c)
  change unscopedBufs c (E2 m c) = iprop(Pipeline.arrBufs spec1 c (E2 m c) ∗ Pipeline.unscopedRest spec1 c (E2 m c)) at hs
  rw [hs, arrBufs1_eq, arrays1_eq]
  iintro ⟨⟨HD, HP, HN, HL, HC⟩, Hrest⟩
  ihave HD2 := (pointsTo_share (PosShare.mem_left_op_right fullShare)).1 $$ HD
  icases HD2 with ⟨HDl, HDr⟩
  isplitr [Hrest]
  · isplitl [HDl]; · iexact HDl
    isplitl [HDr]; · iexact HDr
    isplitl [HP]; · iexact HP
    isplitl [HN]; · iexact HN
    isplitl [HL]; · iexact HL
    iexact HC
  iexact Hrest

/-- The input arrays are never written: what the pipeline leaves in them is what it found. -/
theorem in_kept1 (c : Dev nD) (w : Fin cfg1.W) (hw : (cfg1.win w).isOut = false) :
    (Triplet.dat (E2 m) c).arrAt w cfg1.N = E2 m c (Pipeline.arrRef spec1 w) :=
  ((Triplet.dat (E2 m) c).arrAt_in w hw _).trans (Triplet.A_eq (E2 m) c w)

set_option backward.isDefEq.respectTransparency.types false in
/-- EXIT. The region's arrays at what the pipeline leaves and the rest make every unscoped buffer at the exit
    contents: the two halves of the distance matrix, both still at the entry contents, are joined again. -/
theorem exit1 (c : Dev nD) :
    iprop((pdats m 1 c).arrays ((pdats m 1 c).arrAt · cfg1.N) ∗ Pipeline.unscopedRest spec1 c (E2 m c))
      ⊢ (unscopedBufs c (E3 m c) : sProp 𝕄) := by
  show iprop((Triplet.dat (E2 m) c).arrays (fun w => (Triplet.dat (E2 m) c).arrAt w cfg1.N) ∗ Pipeline.unscopedRest spec1 c (E2 m c)) ⊢ _
  have hs := Pipeline.unscopedBufs_split₀ (Val := Elt F) (Ix := Unit) (Name := ℕ) (U := UR sig nD τ) (Lvl := ℕ) cfgs 1 winFacts₀1.arr_unscoped c (E3 m c)
  change unscopedBufs c (E3 m c) = iprop(Pipeline.arrBufs spec1 c (E3 m c) ∗ Pipeline.unscopedRest spec1 c (E3 m c)) at hs
  rw [hs, arrBufs1_eq, arrays1_eq, ← rest1_congr,
    in_kept1 m c 0 rfl, in_kept1 m c 1 rfl, in_kept1 m c 2 rfl, in_kept1 m c 3 rfl, ← W3_loss, ← W3_count,
    W3_of_ne m c main_v0 (by decide) (by decide), W3_of_ne m c main_v13 (by decide) (by decide), W3_of_ne m c main_v15 (by decide) (by decide)]
  iintro ⟨⟨HDl, HDr, HP, HN, HL, HC⟩, Hrest⟩
  ihave HD := (pointsTo_share (PosShare.mem_left_op_right fullShare)).2 $$ [HDl HDr]
  · isplitl [HDl]; · iexact HDl
    iexact HDr
  isplitr [Hrest]
  · isplitl [HD]; · iexact HD
    isplitl [HP]; · iexact HP
    isplitl [HN]; · iexact HN
    isplitl [HL]; · iexact HL
    iexact HC
  iexact Hrest

set_option backward.isDefEq.respectTransparency.types false in
/-- Entered from every unscoped buffer at `W2`, left at `W3`; otherwise as the distance region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Triplet.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec1 c
    unfold Pipeline.ΦA
    iintro ⟨Hp, -, Hr⟩
    isplitl [Hr]; · iexact Hr
    iexact Hp
  hout c := by
    rw [Pipeline.ownSems0_none]
    show Pipeline.ΦA spec1 c ⊢ _
    unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- @main's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. At the compiled mesh, from any memory with zero counters, every weakly fair execution of @main
    terminates, nothing faulting, and every final state holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c)
        ⊢ iprop(iprop(StableHlo.held (c : Thread nD τ) (Pipeline.ucRefs τ sig) (W4 m c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Run

end
-- ==== Proof.Frames.lean ====
/-
  The frame claim, read off the run. No item of @main writes an argument: the two stretches of host
  operations write only their own results, the distance region reads the codes through an input window (which
  the pipeline never writes back) and the triplet region does not touch them; the modalities are read by host
  operations only. So each argument's buffer, followed back through the boundaries, holds its launch contents.
-/
import proofs.«145872_j72078141161682_1_alg».proof.Proof.Run
import proofs.«145872_j72078141161682_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ)

theorem W4_of (c : Dev nD) (r : Ref sig .tc) (h : r ∉ hostOps2_W) : W4 m c r = W3 m c r :=
  StableHlo.after_of_writes_sub hostOps2 _ hostOps2_writes h
theorem W2_of (c : Dev nD) (r : Ref sig .tc) (h : r ∉ hostOps1_W) : W2 m c r = W1 m c r :=
  StableHlo.after_of_writes_sub hostOps1 _ hostOps1_writes h

/-- The codes end as launched. -/
theorem W4_codes (c : Dev nD) : W4 m c (Proc.devRef .tc main_arg0) = m ((c : Thread nD τ).loc main_arg0) :=
  (W4_of m c main_arg0 (by decide)).trans <| (W3_of_ne m c main_arg0 (by decide) (by decide)).trans <|
    (W2_of m c main_arg0 (by decide)).trans <| (W1_arr m c 0).trans <|
    ((Gram.dat (E0 m) c).arrAt_in 0 rfl _).trans (Gram.A_eq (E0 m) c 0)

/-- The modalities end as launched. -/
theorem W4_mods (c : Dev nD) : W4 m c (Proc.devRef .tc main_arg1) = m ((c : Thread nD τ).loc main_arg1) :=
  (W4_of m c main_arg1 (by decide)).trans <| (W3_of_ne m c main_arg1 (by decide) (by decide)).trans <|
    (W2_of m c main_arg1 (by decide)).trans <| W1_of_ne m c main_arg1 (by decide)

/-- THE FRAME: every weakly fair execution of @main terminates without a fault and leaves both arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_codes m c), (h c _ (mem_uc main_arg1 (by decide))).trans (W4_mods m c)⟩) (run_all m ρ)

end Cert.KernelIdeal.Run

end
-- ==== Proof.Gram.Value.lean ====
/-
  What the first region's buffers hold, as arithmetic. Each of the three cases of the body stores whole blocks,
  so what a case leaves in a buffer is the value it stored there, a pure function of what it loaded: the Gram
  accumulator ends at the accumulator it found plus the block's product with its own transpose (zero plus that
  at the first point); the squared-norm accumulator at what it found plus the block's row sums of squares; and,
  at the last point, the output block at the distances computed from the two completed accumulators.
-/
import proofs.«145872_j72078141161682_1_alg».proof.Proof.Gram.Data
import Idealize.ShloMosaic.Lib.Pipeline.Value

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

section Pieces
variable (c : Dev nD) (t : Fin cfg0.N)

theorem gFirst_eq (h0 : isFirst (grid0.coords t)) (h1 : ¬isLast (grid0.coords t)) (x0 : Vec F S256x4096 .f32) :
    gFirst c t h0 h1 x0 = k0_pay3 x0 (k0_pay1 (F := F)) := by
  unfold gFirst
  rw [View.read_writes_eq_canon _ _ _ (coverG_first c t h0 h1 x0)]
  unfold runFirst
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem qFirst_eq (h0 : isFirst (grid0.coords t)) (h1 : ¬isLast (grid0.coords t)) (x0 : Vec F S256x4096 .f32) :
    qFirst c t h0 h1 x0 = k0_pay4 x0 (k0_pay2 (F := F)) := by
  unfold qFirst
  rw [View.read_writes_eq_canon _ _ _ (coverQ_first c t h0 h1 x0)]
  unfold runFirst
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem gMid_eq (h0 : ¬isFirst (grid0.coords t)) (h1 : ¬isLast (grid0.coords t)) (x0 : Vec F S256x4096 .f32) (g0 : Vec F S256x256 .f32) (q0 : Vec F S256x1 .f32) :
    gMid c t h0 h1 x0 g0 q0 = k0_pay3 x0 g0 := by
  unfold gMid
  rw [View.read_writes_eq_canon _ _ _ (coverG_mid c t h0 h1 x0 g0 q0)]
  unfold runMid
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem qMid_eq (h0 : ¬isFirst (grid0.coords t)) (h1 : ¬isLast (grid0.coords t)) (x0 : Vec F S256x4096 .f32) (g0 : Vec F S256x256 .f32) (q0 : Vec F S256x1 .f32) :
    qMid c t h0 h1 x0 g0 q0 = k0_pay4 x0 q0 := by
  unfold qMid
  rw [View.read_writes_eq_canon _ _ _ (coverQ_mid c t h0 h1 x0 g0 q0)]
  unfold runMid
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem gLast_eq (h0 : ¬isFirst (grid0.coords t)) (h1 : isLast (grid0.coords t)) (x0 : Vec F S256x4096 .f32) (g0 : Vec F S256x256 .f32) (q0 : Vec F S256x1 .f32) :
    gLast c t h0 h1 x0 g0 q0 = k0_pay3 x0 g0 := by
  unfold gLast
  rw [View.read_writes_eq_canon _ _ _ (coverG_last c t h0 h1 x0 g0 q0)]
  unfold runLast
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem qLast_eq (h0 : ¬isFirst (grid0.coords t)) (h1 : isLast (grid0.coords t)) (x0 : Vec F S256x4096 .f32) (g0 : Vec F S256x256 .f32) (q0 : Vec F S256x1 .f32) :
    qLast c t h0 h1 x0 g0 q0 = k0_pay4 x0 q0 := by
  unfold qLast
  rw [View.read_writes_eq_canon _ _ _ (coverQ_last c t h0 h1 x0 g0 q0)]
  unfold runLast
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

theorem dLast_eq (h0 : ¬isFirst (grid0.coords t)) (h1 : isLast (grid0.coords t)) (x0 : Vec F S256x4096 .f32) (g0 : Vec F S256x256 .f32) (q0 : Vec F S256x1 .f32) :
    dLast c t h0 h1 x0 g0 q0 = k0_pay5 (k0_pay4 x0 q0) (k0_pay3 x0 g0) := by
  unfold dLast
  rw [View.read_writes_eq_canon _ _ _ (coverD_last c t h0 h1 x0 g0 q0)]
  unfold runLast
  dsimp only
  sl_unfold_words
  simp only [View.readAt_eq_ld, (hsX t).read_unread, (hsD t).read_unread, (Memref.isWhole_whole cc0_scratch0).read_unread, (Memref.isWhole_whole cc0_scratch1).read_unread,
    View.ld_unit_zero (S := S256x4096) hz2, View.ld_unit_zero (S := S256x256) hz2, View.ld_unit_zero (S := S256x1) hz2,
    View.readCov_unit_zero (S := S256x256) _ hz2, View.readCov_unit_zero (S := S256x1) _ hz2,
    View.canon_unit_zero (S := S256x256) hz2, View.canon_unit_zero (S := S256x1) hz2,
    View.canon_cons_unit_zero (S := S256x256) hz2, View.canon_cons_unit_zero (S := S256x1) hz2]

end Pieces

end Cert.KernelIdeal.Gram

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.Spec.lean ====
/-
  The mathematics both programs compute, stated over plain families of extended reals, with no program in
  sight. Three things are here. The scalar function that turns two squared norms and an inner product into a
  distance. One impostor row's contribution to the loss sum and to the triple count, as double sums over anchor
  and positive. And the laws that join the two programs' arrangements: a sum over a range cut into equal blocks
  is the sum over the whole range; the 0/1 value of a conjunction of two bits is the product of their 0/1
  values; equality of two words does not depend on their order; and, for a symmetric distance matrix and a
  symmetric impostor relation, the sum over impostors k of row k's contribution is the sum over all triples
  (i, j, k) of the two margin terms times the triple's mask. None of these laws needs finiteness: they use only
  commutativity and associativity of + and · on the extended reals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The distance between two rows from their squared norms `p`, `q` and their inner product `g`: the square root
    of `max (p + q − 2·g) 0`, guarded so that the root is only ever taken of a positive number and a zero
    squared distance gives zero. Both programs apply exactly this chain. -/
def dist (p q g : EReal) : EReal :=
  Scalar.select
    (FloatOps.cmpf (F := Ideal) (φ := .f32) .ogt (max (p + q - FloatOps.ofBits (F := Ideal) .f32 0x40000000#32 * g) (FloatOps.ofBits (F := Ideal) .f32 0x00000000#32)) (FloatOps.ofBits (F := Ideal) .f32 0x00000000#32))
    (FloatOps.sqrt (F := Ideal) (φ := .f32)
      (Scalar.select
        (FloatOps.cmpf (F := Ideal) (φ := .f32) .ogt (max (p + q - FloatOps.ofBits (F := Ideal) .f32 0x40000000#32 * g) (FloatOps.ofBits (F := Ideal) .f32 0x00000000#32)) (FloatOps.ofBits (F := Ideal) .f32 0x00000000#32))
        (max (p + q - FloatOps.ofBits (F := Ideal) .f32 0x40000000#32 * g) (FloatOps.ofBits (F := Ideal) .f32 0x00000000#32))
        (FloatOps.ofBits (F := Ideal) .f32 0x3F800000#32)))
    (FloatOps.ofBits (F := Ideal) .f32 0x00000000#32)

/-- The distance does not depend on the order of the two rows. -/
theorem dist_comm (p q g : EReal) : dist p q g = dist q p g := by
  unfold dist; rw [add_comm p q]

/-- The margin, and the zero the margin terms are clamped at: the two literals both programs share. -/
abbrev margin : EReal := FloatOps.ofBits (F := Ideal) .f32 0x3B449BA6#32
abbrev zeroLit : EReal := FloatOps.ofBits (F := Ideal) .f32 0x00000000#32

/-- Adding to the zero literal changes nothing. -/
theorem zeroLit_add (s : EReal) : FloatOps.ofBits (F := Ideal) .f32 0x00000000#32 + s = s := by
  rw [Ideal.ofBits_def, Ideal.ofBits_zero_f32, zero_add]

/-- A bit as the number 0 or 1. -/
abbrev U (b : BitVec 1) : EReal := FloatOps.uitofp (F := Ideal) .f32 b

/-- Impostor row k's contribution to the loss sum: over anchors i and positives j, the mask pos[i,j]·neg[k,i]
    times the two margin terms, the impostor's distances entering as the row `dk`. -/
def iterLoss (D P : Fin 256 → Fin 256 → EReal) (dk nk : Fin 256 → EReal) : EReal :=
  ∑ i : Fin 256, ∑ j : Fin 256, P i j * nk i * (max (D i j - dk i + margin) zeroLit + max (D i j - dk j + margin) zeroLit)
/-- Impostor row k's contribution to the triple count. -/
def iterCnt (P : Fin 256 → Fin 256 → EReal) (nk : Fin 256 → EReal) : EReal :=
  ∑ i : Fin 256, ∑ j : Fin 256, P i j * nk i

/-- A sum over `m` consecutive blocks of `n` is the sum over the whole range. -/
theorem sum_blocks {M : Type*} [AddCommMonoid M] (f : ℕ → M) (n : ℕ) :
    ∀ m : ℕ, ∑ s ∈ Finset.range m, ∑ r ∈ Finset.range n, f (s * n + r) = ∑ k ∈ Finset.range (m * n), f k
  | 0 => by simp
  | m + 1 => by rw [Finset.sum_range_succ, sum_blocks f n m, Nat.add_mul, Nat.one_mul, Finset.sum_range_add]

/-- The 0/1 value of a conjunction of two bits is the product of their 0/1 values. -/
theorem U_andi (a b : BitVec 1) : U (IntOp.andi a b) = U a * U b := by
  rcases BitVec.eq_zero_or_eq_one a with h | h <;> rcases BitVec.eq_zero_or_eq_one b with h' | h' <;> subst h <;> subst h' <;>
    simp [U, FloatOps.uitofp, IntOp.andi]

/-- Equality of two words does not depend on their order. -/
theorem cmpi_eq_comm (x y : BitVec 32) : IntOp.cmpi .eq x y = IntOp.cmpi .eq y x := by
  have h : (x == y) = (y == x) := BEq.comm
  simp [IntOp.cmpi, h]

/-- "Same modality": equality of the two samples' modality words, as a bit. -/
def sameB (md : Fin 256 → BitVec 32) (a b : Fin 256) : BitVec 1 := IntOp.cmpi .eq (md a) (md b)
/-- Anchor-positive pair: same modality and i before j. -/
def posB (md : Fin 256 → BitVec 32) (i j : Fin 256) : BitVec 1 :=
  IntOp.andi (sameB md i j) (IntOp.cmpi .slt (BitVec.ofNat 32 i.val) (BitVec.ofNat 32 j.val))
/-- Impostor: a different modality. -/
def negB (md : Fin 256 → BitVec 32) (a b : Fin 256) : BitVec 1 := ~~~(sameB md a b)
/-- Being of different modalities does not depend on the order of the two samples. -/
theorem negB_comm (md : Fin 256 → BitVec 32) (a b : Fin 256) : negB md a b = negB md b a := by
  unfold negB sameB; rw [cmpi_eq_comm]

/-- The loss sum over all triples: the two margin terms times the triple's mask. -/
def lossTotal (D : Fin 256 → Fin 256 → EReal) (md : Fin 256 → BitVec 32) : EReal :=
  ∑ i : Fin 256, ∑ j : Fin 256, ∑ k : Fin 256,
    (max (D i j - D i k + margin) zeroLit + max (D i j - D j k + margin) zeroLit) * U (IntOp.andi (posB md i j) (negB md i k))
/-- The number of triples. -/
def cntTotal (md : Fin 256 → BitVec 32) : EReal :=
  ∑ i : Fin 256, ∑ j : Fin 256, ∑ k : Fin 256, U (IntOp.andi (posB md i j) (negB md i k))
/-- The result: the loss sum over twice the count. -/
def result (L C : EReal) : EReal :=
  FloatOps.hostDivf (F := Ideal) (φ := .f32) L (FloatOps.mulf (F := Ideal) (φ := .f32) (FloatOps.ofBits (F := Ideal) .f32 0x40000000#32) C)

/-- The distance matrix of the codes `x`: `dist` of the rows' squared norms and inner product. -/
def distMat (x : Fin 256 → Fin 32768 → EReal) (a b : Fin 256) : EReal :=
  dist (∑ k : Fin 32768, x a k * x a k) (∑ k : Fin 32768, x b k * x b k) (∑ k : Fin 32768, x a k * x b k)
/-- It is symmetric: the inner product is, and `dist` does not depend on the order of the two norms. -/
theorem distMat_comm (x : Fin 256 → Fin 32768 → EReal) (a b : Fin 256) : distMat x a b = distMat x b a := by
  unfold distMat
  rw [dist_comm, show (∑ k : Fin 32768, x a k * x b k) = ∑ k : Fin 32768, x b k * x a k from Finset.sum_congr rfl fun k _ => mul_comm _ _]

/-- THE LOSS SUM, REARRANGED. For a symmetric distance matrix and a symmetric impostor relation, summing each
    impostor row's contribution over the impostors is summing, over all triples, the two margin terms times the
    triple's mask. -/
theorem loss_rearranged (D : Fin 256 → Fin 256 → EReal) (hD : ∀ a b, D a b = D b a)
    (pb nb : Fin 256 → Fin 256 → BitVec 1) (hn : ∀ a b, nb a b = nb b a) :
    ∑ k : Fin 256, iterLoss D (fun i j => U (pb i j)) (fun i => D k i) (fun i => U (nb k i))
      = ∑ i : Fin 256, ∑ j : Fin 256, ∑ k : Fin 256,
          (max (D i j - D i k + margin) zeroLit + max (D i j - D j k + margin) zeroLit) * U (IntOp.andi (pb i j) (nb i k)) := by
  unfold iterLoss
  rw [Finset.sum_comm]
  refine Finset.sum_congr rfl fun i _ => ?_
  rw [Finset.sum_comm]
  refine Finset.sum_congr rfl fun j _ => Finset.sum_congr rfl fun k _ => ?_
  dsimp only
  rw [hD k i, hD k j, hn k i, U_andi, mul_comm]

/-- THE TRIPLE COUNT, REARRANGED, likewise. -/
theorem cnt_rearranged (pb nb : Fin 256 → Fin 256 → BitVec 1) (hn : ∀ a b, nb a b = nb b a) :
    ∑ k : Fin 256, iterCnt (fun i j => U (pb i j)) (fun i => U (nb k i))
      = ∑ i : Fin 256, ∑ j : Fin 256, ∑ k : Fin 256, U (IntOp.andi (pb i j) (nb i k)) := by
  unfold iterCnt
  rw [Finset.sum_comm]
  refine Finset.sum_congr rfl fun i _ => ?_
  rw [Finset.sum_comm]
  refine Finset.sum_congr rfl fun j _ => Finset.sum_congr rfl fun k _ => ?_
  dsimp only
  rw [hn k i, U_andi]

end Cert.Spec

end
-- ==== Proof.Gram.Arith.lean ====
/-
  The first region's stored values as arithmetic on extended reals, one entry at a time. With exact arithmetic
  the change of float format before the matrix product is the identity, the product of the block with its own
  transpose into a zero accumulator is a plain sum of products over the block's 4096 columns, and the row
  reduction is a plain sum. So: the Gram accumulator's entry (a, b) grows by the sum over the block's columns k
  of x(a,k)·x(b,k); the squared-norm accumulator's entry a grows by the sum of x(a,k)²; and the distance at
  (a, b) is one fixed scalar function of the completed squared norms of rows a and b and their inner product.
-/
import proofs.«145872_j72078141161682_1_alg».proof.Proof.Gram.Value
import proofs.«145872_j72078141161682_1_alg».proof.Proof.LibLayout
import proofs.«145872_j72078141161682_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibLayout Cert.Spec

/-- The zeroed Gram accumulator is zero everywhere. -/
theorem zeroG_apply (j : S256x256.Idx) : k0_pay1 (F := Ideal) j = 0 := by
  unfold k0_pay1
  rw [shapeCast_self]
  exact Ideal.ofBits_zero_f32
/-- The zeroed squared-norm accumulator is zero everywhere. -/
theorem zeroQ_apply (j : S256x1.Idx) : k0_pay2 (F := Ideal) j = 0 := by
  unfold k0_pay2
  rw [shapeCast_self]
  exact Ideal.ofBits_zero_f32

theorem lhs0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs1 (i : S256x256.Idx) (q : dot_S256x4096_S4096x256_S256x256_1_0_0_1_n_n.contr.Idx) : (dot_S256x4096_S4096x256_S256x256_1_0_0_1_n_n.lhsIdx i q 1).val = (q ⟨0, by decide⟩).val :=
  dot_S256x4096_S4096x256_S256x256_1_0_0_1_n_n.lhsIdx_val_of_single rfl i q
theorem rhs0 (i : S256x256.Idx) (q : dot_S256x4096_S4096x256_S256x256_1_0_0_1_n_n.contr.Idx) : (dot_S256x4096_S4096x256_S256x256_1_0_0_1_n_n.rhsIdx i q 0).val = (q ⟨0, by decide⟩).val :=
  dot_S256x4096_S4096x256_S256x256_1_0_0_1_n_n.rhsIdx_val_of_single rfl i q
theorem rhs1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- One more block into the Gram accumulator: entry (a, b) grows by the block's inner product of rows a and b. -/
theorem addGram_apply (x0 : Vec Ideal S256x4096 .f32) (g0 : Vec Ideal S256x256 .f32) (a b : Fin 256) :
    k0_pay3 (F := Ideal) x0 g0 (ix2 a b) = g0 (ix2 a b) + ∑ k : Fin 4096, x0 (ix2 a k) * x0 (ix2 b k) := by
  unfold k0_pay3
  rw [shapeCast_self]
  show g0 (ix2 a b) + FloatOps.matmul (F := Ideal) dot_S256x4096_S4096x256_S256x256_1_0_0_1_n_n none (truncf (F := Ideal) .bf16 x0 bitsLt_bf16_f32)
      (transpose S4096x256 [1, 0] (truncf (F := Ideal) .bf16 x0 bitsLt_bf16_f32) transposes_S256x4096_p1_0_S4096x256) (constant (F := Ideal) S256x256 .f32 0x00000000#32) (ix2 a b) = _
  rw [Ideal.matmul_constant_zero_apply, ← Equiv.sum_comp (contrEquiv1 dot_S256x4096_S4096x256_S256x256_1_0_0_1_n_n 4096 rfl rfl).symm]
  refine congrArg (g0 (ix2 a b) + ·) (Finset.sum_congr rfl fun k _ => ?_)
  have hk := contrEquiv1_symm_val dot_S256x4096_S4096x256_S256x256_1_0_0_1_n_n 4096 rfl rfl k
  have el : dot_S256x4096_S4096x256_S256x256_1_0_0_1_n_n.lhsIdx (ix2 a b) ((contrEquiv1 dot_S256x4096_S4096x256_S256x256_1_0_0_1_n_n 4096 rfl rfl).symm k) = ix2 a k := funext fun ax => Fin.ext (by
    match ax with
    | ⟨0, _⟩ => exact lhs0 _ _
    | ⟨1, _⟩ => exact (lhs1 _ _).trans hk)
  have er : dot_S256x4096_S4096x256_S256x256_1_0_0_1_n_n.rhsIdx (ix2 a b) ((contrEquiv1 dot_S256x4096_S4096x256_S256x256_1_0_0_1_n_n 4096 rfl rfl).symm k) = ix2 k b := funext fun ax => Fin.ext (by
    match ax with
    | ⟨0, _⟩ => exact (rhs0 _ _).trans hk
    | ⟨1, _⟩ => exact rhs1 _ _)
  rw [el, er]
  exact congrArg (x0 (ix2 a k) * ·) (transpose_ix2_apply (truncf (F := Ideal) .bf16 x0 bitsLt_bf16_f32) transposes_S256x4096_p1_0_S4096x256 k b)

/-- One more block into the squared-norm accumulator: entry a grows by the block's sum of squares of row a. -/
theorem addSq_apply (x0 : Vec Ideal S256x4096 .f32) (q0 : Vec Ideal S256x1 .f32) (a : Fin 256) :
    k0_pay4 (F := Ideal) x0 q0 (ix2 a (0 : Fin 1)) = q0 (ix2 a (0 : Fin 1)) + ∑ k : Fin 4096, x0 (ix2 a k) * x0 (ix2 a k) := by
  unfold k0_pay4
  rw [shapeCast_self]
  show q0 (ix2 a (0 : Fin 1)) + shapeCast S256x1 (multiReduction (F := Ideal) .add [1] S256 (mulf (F := Ideal) x0 x0) 0x00000000#32 reduces_S256x4096_S256 (.inl rfl) rfl) shapeCasts_S256_S256x1 (ix2 a (0 : Fin 1)) = _
  rw [shapeCast_a_a1_apply]
  refine congrArg (q0 (ix2 a (0 : Fin 1)) + ·) ?_
  refine (Ideal.multiReduction_add_single (mulf (F := Ideal) x0 x0) 0x00000000#32 reduces_S256x4096_S256 (.inl rfl) rfl (ix1 a)).trans ?_
  refine Finset.sum_congr rfl fun k _ => ?_
  have e : reduces_S256x4096_S256.lift (ix1 a) k = ix2 a k := funext fun ax => Fin.ext (by
    match ax with
    | ⟨0, _⟩ => rfl
    | ⟨1, _⟩ => rfl)
  exact congrArg₂ (· * ·) (congrArg x0 e) (congrArg x0 e)

theorem sqrt_apply {s : Shape} (v : FVec Ideal s .f32) (i : s.Idx) : sqrt v i = FloatOps.sqrt (v i) := rfl

/-- The distances from the completed accumulators: entry (a, b) is `dist` of the squared norms of rows a and b and
    their inner product. -/
theorem dist_apply (q : Vec Ideal S256x1 .f32) (g : Vec Ideal S256x256 .f32) (a b : Fin 256) :
    k0_pay5 (F := Ideal) q g (ix2 a b) = Cert.Spec.dist (q (ix2 a (0 : Fin 1))) (q (ix2 b (0 : Fin 1))) (g (ix2 a b)) := by
  have e1 : broadcastTo S256x256 q broadcasts_S256x1_S256x256 (ix2 a b) = q (ix2 a (0 : Fin 1)) :=
    broadcastTo_a1_ab_apply q broadcasts_S256x1_S256x256 a b
  have e2 : broadcastTo S256x256 (transpose S1x256 [1, 0] q transposes_S256x1_p1_0_S1x256) broadcasts_S1x256_S256x256 (ix2 a b) = q (ix2 b (0 : Fin 1)) :=
    (broadcastTo_1b_ab_apply _ broadcasts_S1x256_S256x256 a b).trans (transpose_ix2_apply q transposes_S256x1_p1_0_S1x256 (0 : Fin 1) b)
  unfold k0_pay5 Cert.Spec.dist
  simp only [sqrt_apply, select_apply, cmpf_apply, maximumf_apply, subf_apply, addf_apply, mulf_apply, broadcast_apply, e1, e2]

end Cert.KernelIdeal.Gram

end
-- ==== Proof.Gram.Final.lean ====
/-
  The distance matrix after the first region, in closed form. The block of the codes that point t stages is
  columns 4096·t … 4096·t + 4095. By induction on the point, after point n the Gram accumulator's entry (a, b)
  is the sum over blocks s ≤ n, and over the block's columns k, of x(a, 4096 s + k)·x(b, 4096 s + k), and the
  squared-norm accumulator's entry a is the same sum of squares. The output's one block is the whole array and
  is written back after the last point only, so the array ends holding the distances computed from the
  accumulators completed over all eight blocks.
-/
import proofs.«145872_j72078141161682_1_alg».proof.Proof.Gram.Arith

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibLayout Cert.Spec

variable (V : (c : Dev nD) → (b : Ref sig .tc) → Buf (Elt Ideal) ((c : Thread nD τ).loc b))

/-- The codes' entry (a, j), as a function of a natural column (zero past the last column: never read). -/
def col (X : S256x32768.Idx → EReal) (a : Fin 256) (j : ℕ) : EReal := if h : j < 32768 then X (ix2 a ⟨j, h⟩) else 0

/-- The inner product of rows a and b over blocks 0 … n. -/
def gramTo (X : S256x32768.Idx → EReal) (n : ℕ) (a b : Fin 256) : EReal :=
  ∑ s ∈ Finset.range (n + 1), ∑ k : Fin 4096, col X a (s * 4096 + k.val) * col X b (s * 4096 + k.val)
/-- The squared norm of row a over blocks 0 … n. -/
def sqTo (X : S256x32768.Idx → EReal) (n : ℕ) (a : Fin 256) : EReal :=
  ∑ s ∈ Finset.range (n + 1), ∑ k : Fin 4096, col X a (s * 4096 + k.val) * col X a (s * 4096 + k.val)

theorem idx_codes : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_out : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The block point t stages, read at (a, k): the codes at row a, column 4096·t + k. -/
theorem iblk_apply (c : Dev nD) (t : Fin cfg0.N) (a : Fin 256) (k : Fin 4096) :
    iblk V c 0 t (ix2 a k) = col (V c main_arg0) a (t.val * 4096 + k.val) := by
  have hlt : t.val * 4096 + k.val < 32768 := by have := lt8 t; have := k.isLt; omega
  unfold col
  rw [dif_pos hlt]
  show V c main_arg0 (((cfg0.win 0).blk t).view.emb (ix2 a k)) = _
  refine congrArg (V c main_arg0) (funext fun ax => Fin.ext ?_)
  obtain ⟨e0, e1⟩ := idx_codes t
  match ax with
  | ⟨0, _⟩ => show win0_0.index t (0 : Fin 2) * 256 + 1 * a.val = a.val; omega
  | ⟨1, _⟩ => show win0_0.index t (1 : Fin 2) * 4096 + 1 * k.val = t.val * 4096 + k.val; omega

/-- One more point: each accumulator is what it was plus the point's block. -/
theorem acc_step (c : Dev nD) (n : ℕ) (hn : n + 1 < cfg0.N) :
    (accAt V c (n + 1) hn).1 = k0_pay3 (F := Ideal) (iblk V c 0 ⟨n + 1, hn⟩) (accAt V c n (Nat.lt_of_succ_lt hn)).1
    ∧ (accAt V c (n + 1) hn).2 = k0_pay4 (F := Ideal) (iblk V c 0 ⟨n + 1, hn⟩) (accAt V c n (Nat.lt_of_succ_lt hn)).2 := by
  by_cases h7 : n + 1 = 7
  · rw [accAt, dif_pos h7]
    dsimp only
    rw [gLast_eq, qLast_eq]
    exact ⟨rfl, rfl⟩
  · rw [accAt, dif_neg h7]
    dsimp only
    rw [gMid_eq, qMid_eq]
    exact ⟨rfl, rfl⟩

/-- The first point: each accumulator is zero plus the first block. -/
theorem acc_zero (c : Dev nD) (hn : 0 < cfg0.N) :
    (accAt V c 0 hn).1 = k0_pay3 (F := Ideal) (iblk V c 0 ⟨0, hn⟩) (k0_pay1 (F := Ideal))
    ∧ (accAt V c 0 hn).2 = k0_pay4 (F := Ideal) (iblk V c 0 ⟨0, hn⟩) (k0_pay2 (F := Ideal)) := by
  rw [accAt]
  dsimp only
  rw [gFirst_eq, qFirst_eq]
  exact ⟨rfl, rfl⟩

/-- THE ACCUMULATORS after point n: the sums over blocks 0 … n. -/
theorem acc_closed (c : Dev nD) : ∀ (n : ℕ) (hn : n < cfg0.N) (a b : Fin 256),
    (accAt V c n hn).1 (ix2 a b) = gramTo (V c main_arg0) n a b ∧ (accAt V c n hn).2 (ix2 a (0 : Fin 1)) = sqTo (V c main_arg0) n a
  | 0, hn, a, b => by
    have hs := acc_zero V c hn
    constructor
    · rw [hs.1, addGram_apply, zeroG_apply, zero_add]
      unfold gramTo
      rw [Finset.sum_range_one]
      exact Finset.sum_congr rfl fun k _ => by rw [iblk_apply, iblk_apply]
    · rw [hs.2, addSq_apply, zeroQ_apply, zero_add]
      unfold sqTo
      rw [Finset.sum_range_one]
      exact Finset.sum_congr rfl fun k _ => by rw [iblk_apply]
  | n + 1, hn, a, b => by
    have ih := acc_closed c n (Nat.lt_of_succ_lt hn)
    have hs := acc_step V c n hn
    constructor
    · rw [hs.1, addGram_apply, (ih a b).1]
      unfold gramTo
      rw [Finset.sum_range_succ _ (n + 1)]
      exact congrArg (_ + ·) (Finset.sum_congr rfl fun k _ => by rw [iblk_apply, iblk_apply])
    · rw [hs.2, addSq_apply, (ih a b).2]
      unfold sqTo
      rw [Finset.sum_range_succ _ (n + 1)]
      exact congrArg (_ + ·) (Finset.sum_congr rfl fun k _ => by rw [iblk_apply])

/-- The last point. -/
abbrev t7 : Fin cfg0.N := ⟨7, by have : cfg0.N = 8 := N_0; omega⟩

/-- The last point's stored distances are computed from the accumulators as that point leaves them. -/
theorem dOut_last (c : Dev nD) : dOut V c t7 = k0_pay5 (F := Ideal) (accAt V c 7 t7.isLt).2 (accAt V c 7 t7.isLt).1 := by
  have hs : (accAt V c 7 t7.isLt).1 = k0_pay3 (F := Ideal) (iblk V c 0 t7) (accAt V c 6 (Nat.lt_of_succ_lt t7.isLt)).1
      ∧ (accAt V c 7 t7.isLt).2 = k0_pay4 (F := Ideal) (iblk V c 0 t7) (accAt V c 6 (Nat.lt_of_succ_lt t7.isLt)).2 := acc_step V c 6 t7.isLt
  rw [hs.1, hs.2, dOut, dif_pos rfl, dLast_eq]
  rfl

/-- The distances the last point stores, entry by entry. -/
theorem dOut_last_apply (c : Dev nD) (a b : Fin 256) :
    dOut V c t7 (ix2 a b) = Cert.Spec.dist (sqTo (V c main_arg0) 7 a) (sqTo (V c main_arg0) 7 b) (gramTo (V c main_arg0) 7 a b) := by
  rw [dOut_last, dist_apply, (acc_closed V c 7 t7.isLt a b).1, (acc_closed V c 7 t7.isLt a b).2, (acc_closed V c 7 t7.isLt b a).2]

/-- What a flushing point writes back is the last point's distances: only the last point flushes, and the output's
    one block is the whole array. -/
theorem flushed_out (c : Dev nD) (t : Fin cfg0.N) (hf : (cfg0.win 1).flush t = true) :
    (dat V c).flushed 1 t = ((cfg0.win 1).blk t).view.read (Elt Ideal) (dOut V c t7) := by
  have ht : t = t7 := Fin.ext (by have := (flush0_1 t).mp hf; have := lt8 t; show t.val = 7; omega)
  subst ht
  show (cfg0.win 1).cut (grid0.coords t7) ((dat V c).after 1 t7) = _
  rw [after_out]
  funext j
  show dOut V c t7 j = dOut V c t7 (((cfg0.win 1).blk t7).view.emb j)
  refine congrArg (dOut V c t7) (funext fun ax => Fin.ext ?_)
  obtain ⟨e0, e1⟩ := idx_out t7
  match ax with
  | ⟨0, _⟩ => show (j 0).val = win0_1.index t7 (0 : Fin 2) * 256 + 1 * (j 0).val; omega
  | ⟨1, _⟩ => show (j 1).val = win0_1.index t7 (1 : Fin 2) * 256 + 1 * (j 1).val; omega

theorem mem_out_blk (t : Fin cfg0.N) (i : S256x256.Idx) :
    i ∈ ((cfg0.win 1).blk t).view.set ↔ ∀ a : Fin 2, win0_1.index t a * S256x256.size a ≤ (i a).val ∧ (i a).val < win0_1.index t a * S256x256.size a + S256x256.size a := by
  show i ∈ ((View.whole main_v0).slice (win0_1.rect t)).set ↔ _
  rw [View.set_slice_whole, Rect.mem_set_unit]
  exact Iff.rfl

/-- THE DISTANCE MATRIX after the region. -/
theorem final_out (c : Dev nD) : (dat V c).arrAt 1 cfg0.N = dOut V c t7 :=
  (dat V c).arrAt_eq_of_cover 1 (dOut V c t7) (fun t hf => flushed_out V c t hf) (fun i => ⟨t7, (flush0_1 t7).mpr rfl, by
    rw [mem_out_blk]
    obtain ⟨e0, e1⟩ := idx_out t7
    intro ax
    match ax with
    | ⟨0, _⟩ => show win0_1.index t7 (0 : Fin 2) * 256 ≤ (i 0).val ∧ (i 0).val < win0_1.index t7 (0 : Fin 2) * 256 + 256; have h0 : (i 0).val < 256 := (i 0).isLt; omega
    | ⟨1, _⟩ => show win0_1.index t7 (1 : Fin 2) * 256 ≤ (i 1).val ∧ (i 1).val < win0_1.index t7 (1 : Fin 2) * 256 + 256; have h1 : (i 1).val < 256 := (i 1).isLt; omega⟩)

end Cert.KernelIdeal.Gram

end
-- ==== Proof.Triplet.Value.lean ====
/-
  What the second region's two outputs hold, as arithmetic on whole vectors. The body's 32 unrolled rounds are
  the same computation on 32 consecutive rows: round r takes row r of the point's distance rows and of its
  impostor-mask rows, forms the mask pos[i,j]·neg[k,i] (the row turned into a column and spread across the
  columns), the two margin terms max(D − D[k,·] as a column + m, 0) and max(D − D[k,·] as a row + m, 0), and sums
  mask·(sum of the two terms), and the mask itself, over both axes. The loss sum and the count after a point
  are what they were before plus those 32 contributions, added one after the other from zero.
-/
import proofs.«145872_j72078141161682_1_alg».proof.Proof.Triplet.Data
import Idealize.ShloMosaic.Lib.Pipeline.Value

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The mask of impostor row k: pos[i,j]·neg[k,i]. -/
def maskOf (pos : FVec F S256x256 .f32) (nk : Vec F S1x256 .f32) : FVec F S256x256 .f32 :=
  mulf pos (broadcastTo S256x256 (transpose S256x1 [1, 0] nk transposes_S1x256_p1_0_S256x1) broadcasts_S256x1_S256x256)
/-- The sum of a 256×256 array over both axes, rows first. -/
def sumAll (v : FVec F S256x256 .f32) : FVec F S1x1 .f32 :=
  shapeCast S1x1 (multiReduction .add [0] S1 (shapeCast S256x1 (multiReduction .add [1] S256 v 0x00000000#32 reduces_S256x256_S256 (.inl rfl) rfl) shapeCasts_S256_S256x1) 0x00000000#32 reduces_S256x1_S1 (.inl rfl) rfl) shapeCasts_S1_S1x1
/-- One impostor row's contribution to the count. -/
def cntIter (pos : FVec F S256x256 .f32) (nk : Vec F S1x256 .f32) : FVec F S1x1 .f32 := sumAll (maskOf pos nk)
/-- One impostor row's contribution to the loss sum. -/
def lossIter (dfull pos : FVec F S256x256 .f32) (dk nk : Vec F S1x256 .f32) : FVec F S1x1 .f32 :=
  sumAll (mulf (maskOf pos nk)
    (addf
      (maximumf (addf (subf dfull (broadcastTo S256x256 (transpose S256x1 [1, 0] dk transposes_S1x256_p1_0_S256x1) broadcasts_S256x1_S256x256)) (broadcast S256x256 (Scalar.ofBits (F := F) .f32 0x3B449BA6#32))) (broadcast S256x256 (Scalar.ofBits (F := F) .f32 0x00000000#32)))
      (maximumf (addf (subf dfull (broadcastTo S256x256 dk broadcasts_S1x256_S256x256)) (broadcast S256x256 (Scalar.ofBits (F := F) .f32 0x3B449BA6#32))) (broadcast S256x256 (Scalar.ofBits (F := F) .f32 0x00000000#32)))))

/-- The 32 rows' contributions to the count, added one after the other from zero. -/
def cntOf (p0 : Vec F S256x256 .f32) (ns : Vec F S32x256 .f32) : FVec F S1x1 .f32 :=
  (addf (addf (addf (addf (addf (addf (addf (addf (addf (addf (addf (addf (addf (addf (addf (addf (addf (addf (addf (addf (addf (addf (addf (addf (addf (addf (addf (addf (addf (addf (addf (addf (broadcast S1x1 (Scalar.ofBits (F := F) .f32 0x00000000#32)) (cntIter p0 (View.ld ns (Rect.unit (s := S32x256) ![0, 0] S1x256.size inb_S32x256_S1x256_0_0)))) (cntIter p0 (View.ld ns (Rect.unit (s := S32x256) ![1, 0] S1x256.size inb_S32x256_S1x256_1_0)))) (cntIter p0 (View.ld ns (Rect.unit (s := S32x256) ![2, 0] S1x256.size inb_S32x256_S1x256_2_0)))) (cntIter p0 (View.ld ns (Rect.unit (s := S32x256) ![3, 0] S1x256.size inb_S32x256_S1x256_3_0)))) (cntIter p0 (View.ld ns (Rect.unit (s := S32x256) ![4, 0] S1x256.size inb_S32x256_S1x256_4_0)))) (cntIter p0 (View.ld ns (Rect.unit (s := S32x256) ![5, 0] S1x256.size inb_S32x256_S1x256_5_0)))) (cntIter p0 (View.ld ns (Rect.unit (s := S32x256) ![6, 0] S1x256.size inb_S32x256_S1x256_6_0)))) (cntIter p0 (View.ld ns (Rect.unit (s := S32x256) ![7, 0] S1x256.size inb_S32x256_S1x256_7_0)))) (cntIter p0 (View.ld ns (Rect.unit (s := S32x256) ![8, 0] S1x256.size inb_S32x256_S1x256_8_0)))) (cntIter p0 (View.ld ns (Rect.unit (s := S32x256) ![9, 0] S1x256.size inb_S32x256_S1x256_9_0)))) (cntIter p0 (View.ld ns (Rect.unit (s := S32x256) ![10, 0] S1x256.size inb_S32x256_S1x256_10_0)))) (cntIter p0 (View.ld ns (Rect.unit (s := S32x256) ![11, 0] S1x256.size inb_S32x256_S1x256_11_0)))) (cntIter p0 (View.ld ns (Rect.unit (s := S32x256) ![12, 0] S1x256.size inb_S32x256_S1x256_12_0)))) (cntIter p0 (View.ld ns (Rect.unit (s := S32x256) ![13, 0] S1x256.size inb_S32x256_S1x256_13_0)))) (cntIter p0 (View.ld ns (Rect.unit (s := S32x256) ![14, 0] S1x256.size inb_S32x256_S1x256_14_0)))) (cntIter p0 (View.ld ns (Rect.unit (s := S32x256) ![15, 0] S1x256.size inb_S32x256_S1x256_15_0)))) (cntIter p0 (View.ld ns (Rect.unit (s := S32x256) ![16, 0] S1x256.size inb_S32x256_S1x256_16_0)))) (cntIter p0 (View.ld ns (Rect.unit (s := S32x256) ![17, 0] S1x256.size inb_S32x256_S1x256_17_0)))) (cntIter p0 (View.ld ns (Rect.unit (s := S32x256) ![18, 0] S1x256.size inb_S32x256_S1x256_18_0)))) (cntIter p0 (View.ld ns (Rect.unit (s := S32x256) ![19, 0] S1x256.size inb_S32x256_S1x256_19_0)))) (cntIter p0 (View.ld ns (Rect.unit (s := S32x256) ![20, 0] S1x256.size inb_S32x256_S1x256_20_0)))) (cntIter p0 (View.ld ns (Rect.unit (s := S32x256) ![21, 0] S1x256.size inb_S32x256_S1x256_21_0)))) (cntIter p0 (View.ld ns (Rect.unit (s := S32x256) ![22, 0] S1x256.size inb_S32x256_S1x256_22_0)))) (cntIter p0 (View.ld ns (Rect.unit (s := S32x256) ![23, 0] S1x256.size inb_S32x256_S1x256_23_0)))) (cntIter p0 (View.ld ns (Rect.unit (s := S32x256) ![24, 0] S1x256.size inb_S32x256_S1x256_24_0)))) (cntIter p0 (View.ld ns (Rect.unit (s := S32x256) ![25, 0] S1x256.size inb_S32x256_S1x256_25_0)))) (cntIter p0 (View.ld ns (Rect.unit (s := S32x256) ![26, 0] S1x256.size inb_S32x256_S1x256_26_0)))) (cntIter p0 (View.ld ns (Rect.unit (s := S32x256) ![27, 0] S1x256.size inb_S32x256_S1x256_27_0)))) (cntIter p0 (View.ld ns (Rect.unit (s := S32x256) ![28, 0] S1x256.size inb_S32x256_S1x256_28_0)))) (cntIter p0 (View.ld ns (Rect.unit (s := S32x256) ![29, 0] S1x256.size inb_S32x256_S1x256_29_0)))) (cntIter p0 (View.ld ns (Rect.unit (s := S32x256) ![30, 0] S1x256.size inb_S32x256_S1x256_30_0)))) (cntIter p0 (View.ld ns (Rect.unit (s := S32x256) ![31, 0] S1x256.size inb_S32x256_S1x256_31_0))))
/-- The 32 rows' contributions to the loss sum, added one after the other from zero. -/
def lossOf (d0 : Vec F S256x256 .f32) (ds : Vec F S32x256 .f32) (p0 : Vec F S256x256 .f32) (ns : Vec F S32x256 .f32) : FVec F S1x1 .f32 :=
  (addf (addf (addf (addf (addf (addf (addf (addf (addf (addf (addf (addf (addf (addf (addf (addf (addf (addf (addf (addf (addf (addf (addf (addf (addf (addf (addf (addf (addf (addf (addf (addf (broadcast S1x1 (Scalar.ofBits (F := F) .f32 0x00000000#32)) (lossIter d0 p0 (View.ld ds (Rect.unit (s := S32x256) ![0, 0] S1x256.size inb_S32x256_S1x256_0_0)) (View.ld ns (Rect.unit (s := S32x256) ![0, 0] S1x256.size inb_S32x256_S1x256_0_0)))) (lossIter d0 p0 (View.ld ds (Rect.unit (s := S32x256) ![1, 0] S1x256.size inb_S32x256_S1x256_1_0)) (View.ld ns (Rect.unit (s := S32x256) ![1, 0] S1x256.size inb_S32x256_S1x256_1_0)))) (lossIter d0 p0 (View.ld ds (Rect.unit (s := S32x256) ![2, 0] S1x256.size inb_S32x256_S1x256_2_0)) (View.ld ns (Rect.unit (s := S32x256) ![2, 0] S1x256.size inb_S32x256_S1x256_2_0)))) (lossIter d0 p0 (View.ld ds (Rect.unit (s := S32x256) ![3, 0] S1x256.size inb_S32x256_S1x256_3_0)) (View.ld ns (Rect.unit (s := S32x256) ![3, 0] S1x256.size inb_S32x256_S1x256_3_0)))) (lossIter d0 p0 (View.ld ds (Rect.unit (s := S32x256) ![4, 0] S1x256.size inb_S32x256_S1x256_4_0)) (View.ld ns (Rect.unit (s := S32x256) ![4, 0] S1x256.size inb_S32x256_S1x256_4_0)))) (lossIter d0 p0 (View.ld ds (Rect.unit (s := S32x256) ![5, 0] S1x256.size inb_S32x256_S1x256_5_0)) (View.ld ns (Rect.unit (s := S32x256) ![5, 0] S1x256.size inb_S32x256_S1x256_5_0)))) (lossIter d0 p0 (View.ld ds (Rect.unit (s := S32x256) ![6, 0] S1x256.size inb_S32x256_S1x256_6_0)) (View.ld ns (Rect.unit (s := S32x256) ![6, 0] S1x256.size inb_S32x256_S1x256_6_0)))) (lossIter d0 p0 (View.ld ds (Rect.unit (s := S32x256) ![7, 0] S1x256.size inb_S32x256_S1x256_7_0)) (View.ld ns (Rect.unit (s := S32x256) ![7, 0] S1x256.size inb_S32x256_S1x256_7_0)))) (lossIter d0 p0 (View.ld ds (Rect.unit (s := S32x256) ![8, 0] S1x256.size inb_S32x256_S1x256_8_0)) (View.ld ns (Rect.unit (s := S32x256) ![8, 0] S1x256.size inb_S32x256_S1x256_8_0)))) (lossIter d0 p0 (View.ld ds (Rect.unit (s := S32x256) ![9, 0] S1x256.size inb_S32x256_S1x256_9_0)) (View.ld ns (Rect.unit (s := S32x256) ![9, 0] S1x256.size inb_S32x256_S1x256_9_0)))) (lossIter d0 p0 (View.ld ds (Rect.unit (s := S32x256) ![10, 0] S1x256.size inb_S32x256_S1x256_10_0)) (View.ld ns (Rect.unit (s := S32x256) ![10, 0] S1x256.size inb_S32x256_S1x256_10_0)))) (lossIter d0 p0 (View.ld ds (Rect.unit (s := S32x256) ![11, 0] S1x256.size inb_S32x256_S1x256_11_0)) (View.ld ns (Rect.unit (s := S32x256) ![11, 0] S1x256.size inb_S32x256_S1x256_11_0)))) (lossIter d0 p0 (View.ld ds (Rect.unit (s := S32x256) ![12, 0] S1x256.size inb_S32x256_S1x256_12_0)) (View.ld ns (Rect.unit (s := S32x256) ![12, 0] S1x256.size inb_S32x256_S1x256_12_0)))) (lossIter d0 p0 (View.ld ds (Rect.unit (s := S32x256) ![13, 0] S1x256.size inb_S32x256_S1x256_13_0)) (View.ld ns (Rect.unit (s := S32x256) ![13, 0] S1x256.size inb_S32x256_S1x256_13_0)))) (lossIter d0 p0 (View.ld ds (Rect.unit (s := S32x256) ![14, 0] S1x256.size inb_S32x256_S1x256_14_0)) (View.ld ns (Rect.unit (s := S32x256) ![14, 0] S1x256.size inb_S32x256_S1x256_14_0)))) (lossIter d0 p0 (View.ld ds (Rect.unit (s := S32x256) ![15, 0] S1x256.size inb_S32x256_S1x256_15_0)) (View.ld ns (Rect.unit (s := S32x256) ![15, 0] S1x256.size inb_S32x256_S1x256_15_0)))) (lossIter d0 p0 (View.ld ds (Rect.unit (s := S32x256) ![16, 0] S1x256.size inb_S32x256_S1x256_16_0)) (View.ld ns (Rect.unit (s := S32x256) ![16, 0] S1x256.size inb_S32x256_S1x256_16_0)))) (lossIter d0 p0 (View.ld ds (Rect.unit (s := S32x256) ![17, 0] S1x256.size inb_S32x256_S1x256_17_0)) (View.ld ns (Rect.unit (s := S32x256) ![17, 0] S1x256.size inb_S32x256_S1x256_17_0)))) (lossIter d0 p0 (View.ld ds (Rect.unit (s := S32x256) ![18, 0] S1x256.size inb_S32x256_S1x256_18_0)) (View.ld ns (Rect.unit (s := S32x256) ![18, 0] S1x256.size inb_S32x256_S1x256_18_0)))) (lossIter d0 p0 (View.ld ds (Rect.unit (s := S32x256) ![19, 0] S1x256.size inb_S32x256_S1x256_19_0)) (View.ld ns (Rect.unit (s := S32x256) ![19, 0] S1x256.size inb_S32x256_S1x256_19_0)))) (lossIter d0 p0 (View.ld ds (Rect.unit (s := S32x256) ![20, 0] S1x256.size inb_S32x256_S1x256_20_0)) (View.ld ns (Rect.unit (s := S32x256) ![20, 0] S1x256.size inb_S32x256_S1x256_20_0)))) (lossIter d0 p0 (View.ld ds (Rect.unit (s := S32x256) ![21, 0] S1x256.size inb_S32x256_S1x256_21_0)) (View.ld ns (Rect.unit (s := S32x256) ![21, 0] S1x256.size inb_S32x256_S1x256_21_0)))) (lossIter d0 p0 (View.ld ds (Rect.unit (s := S32x256) ![22, 0] S1x256.size inb_S32x256_S1x256_22_0)) (View.ld ns (Rect.unit (s := S32x256) ![22, 0] S1x256.size inb_S32x256_S1x256_22_0)))) (lossIter d0 p0 (View.ld ds (Rect.unit (s := S32x256) ![23, 0] S1x256.size inb_S32x256_S1x256_23_0)) (View.ld ns (Rect.unit (s := S32x256) ![23, 0] S1x256.size inb_S32x256_S1x256_23_0)))) (lossIter d0 p0 (View.ld ds (Rect.unit (s := S32x256) ![24, 0] S1x256.size inb_S32x256_S1x256_24_0)) (View.ld ns (Rect.unit (s := S32x256) ![24, 0] S1x256.size inb_S32x256_S1x256_24_0)))) (lossIter d0 p0 (View.ld ds (Rect.unit (s := S32x256) ![25, 0] S1x256.size inb_S32x256_S1x256_25_0)) (View.ld ns (Rect.unit (s := S32x256) ![25, 0] S1x256.size inb_S32x256_S1x256_25_0)))) (lossIter d0 p0 (View.ld ds (Rect.unit (s := S32x256) ![26, 0] S1x256.size inb_S32x256_S1x256_26_0)) (View.ld ns (Rect.unit (s := S32x256) ![26, 0] S1x256.size inb_S32x256_S1x256_26_0)))) (lossIter d0 p0 (View.ld ds (Rect.unit (s := S32x256) ![27, 0] S1x256.size inb_S32x256_S1x256_27_0)) (View.ld ns (Rect.unit (s := S32x256) ![27, 0] S1x256.size inb_S32x256_S1x256_27_0)))) (lossIter d0 p0 (View.ld ds (Rect.unit (s := S32x256) ![28, 0] S1x256.size inb_S32x256_S1x256_28_0)) (View.ld ns (Rect.unit (s := S32x256) ![28, 0] S1x256.size inb_S32x256_S1x256_28_0)))) (lossIter d0 p0 (View.ld ds (Rect.unit (s := S32x256) ![29, 0] S1x256.size inb_S32x256_S1x256_29_0)) (View.ld ns (Rect.unit (s := S32x256) ![29, 0] S1x256.size inb_S32x256_S1x256_29_0)))) (lossIter d0 p0 (View.ld ds (Rect.unit (s := S32x256) ![30, 0] S1x256.size inb_S32x256_S1x256_30_0)) (View.ld ns (Rect.unit (s := S32x256) ![30, 0] S1x256.size inb_S32x256_S1x256_30_0)))) (lossIter d0 p0 (View.ld ds (Rect.unit (s := S32x256) ![31, 0] S1x256.size inb_S32x256_S1x256_31_0)) (View.ld ns (Rect.unit (s := S32x256) ![31, 0] S1x256.size inb_S32x256_S1x256_31_0))))

section Pieces
variable (c : Dev nD) (t : Fin cfg1.N)

set_option maxRecDepth 65536 in
set_option maxHeartbeats 8000000 in
theorem cLater_eq (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) :
    cLater c t h0 d0 ds p0 ns l0 c0 = addf c0 (cntOf p0 ns) := by
  unfold cLater
  rw [View.read_writes_eq_canon _ _ _ (coverC_later c t h0 d0 ds p0 ns l0 c0)]
  unfold runLater
  dsimp only
  sl_unfold_words
  simp only [View.canon_unit_zero (S := S1x1) hz2, View.canon_cons_unit_zero (S := S1x1) hz2, View.readCov_unit_zero (S := S1x1) _ hz2,
    View.readAt_eq_ld, (hsDf t).read_unread, (hsDs t).read_unread, (hsP t).read_unread, (hsN t).read_unread, (hsL t).read_unread, (hsC t).read_unread,
    View.ld_unit_zero (S := S256x256) hz2, View.ld_unit_zero (S := S1x1) hz2]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140]
  simp only [shapeCast_self]
  rfl

set_option maxRecDepth 65536 in
set_option maxHeartbeats 8000000 in
theorem lLater_eq (h0 : ¬isFirst (grid1.coords t)) (d0 : Vec F S256x256 .f32) (ds : Vec F S32x256 .f32) (p0 : Vec F S256x256 .f32) (ns : Vec F S32x256 .f32) (l0 : Vec F S1x1 .f32) (c0 : Vec F S1x1 .f32) :
    lLater c t h0 d0 ds p0 ns l0 c0 = addf l0 (lossOf d0 ds p0 ns) := by
  unfold lLater
  rw [View.read_writes_eq_canon _ _ _ (coverL_later c t h0 d0 ds p0 ns l0 c0)]
  unfold runLater
  dsimp only
  sl_unfold_words
  simp only [View.canon_unit_zero (S := S1x1) hz2, View.canon_cons_unit_zero (S := S1x1) hz2, View.readCov_unit_zero (S := S1x1) _ hz2,
    View.readAt_eq_ld, (hsDf t).read_unread, (hsDs t).read_unread, (hsP t).read_unread, (hsN t).read_unread, (hsL t).read_unread, (hsC t).read_unread,
    View.ld_unit_zero (S := S256x256) hz2, View.ld_unit_zero (S := S1x1) hz2]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140]
  simp only [shapeCast_self]
  rfl

set_option maxRecDepth 65536 in
set_option maxHeartbeats 8000000 in
theorem cFirst_eq (h0 : isFirst (grid1.coords t)) (d0 : Vec F S256x256 .f32) (ds : Vec F S32x256 .f32) (p0 : Vec F S256x256 .f32) (ns : Vec F S32x256 .f32) :
    cFirst c t h0 d0 ds p0 ns = addf (broadcast S1x1 (Scalar.ofBits (F := F) .f32 0x00000000#32)) (cntOf p0 ns) := by
  unfold cFirst
  rw [View.read_writes_eq_canon _ _ _ (coverC_first c t h0 d0 ds p0 ns)]
  unfold runFirst
  dsimp only
  sl_unfold_words
  simp only [View.canon_unit_zero (S := S1x1) hz2, View.canon_cons_unit_zero (S := S1x1) hz2, View.readCov_unit_zero (S := S1x1) _ hz2,
    View.readAt_eq_ld, (hsDf t).read_unread, (hsDs t).read_unread, (hsP t).read_unread, (hsN t).read_unread, (hsL t).read_unread, (hsC t).read_unread,
    View.ld_unit_zero (S := S256x256) hz2, View.ld_unit_zero (S := S1x1) hz2]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140]
  simp only [shapeCast_self]
  rfl

set_option maxRecDepth 65536 in
set_option maxHeartbeats 8000000 in
theorem lFirst_eq (h0 : isFirst (grid1.coords t)) (d0 : Vec F S256x256 .f32) (ds : Vec F S32x256 .f32) (p0 : Vec F S256x256 .f32) (ns : Vec F S32x256 .f32) :
    lFirst c t h0 d0 ds p0 ns = addf (broadcast S1x1 (Scalar.ofBits (F := F) .f32 0x00000000#32)) (lossOf d0 ds p0 ns) := by
  unfold lFirst
  rw [View.read_writes_eq_canon _ _ _ (coverL_first c t h0 d0 ds p0 ns)]
  unfold runFirst
  dsimp only
  sl_unfold_words
  simp only [View.canon_unit_zero (S := S1x1) hz2, View.canon_cons_unit_zero (S := S1x1) hz2, View.readCov_unit_zero (S := S1x1) _ hz2,
    View.readAt_eq_ld, (hsDf t).read_unread, (hsDs t).read_unread, (hsP t).read_unread, (hsN t).read_unread, (hsL t).read_unread, (hsC t).read_unread,
    View.ld_unit_zero (S := S256x256) hz2, View.ld_unit_zero (S := S1x1) hz2]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140]
  simp only [shapeCast_self]
  rfl

end Pieces

end Cert.KernelIdeal.Triplet

end
-- ==== Proof.Triplet.Arith.lean ====
/-
  The second region's vector formulas as arithmetic on extended reals. Summing a 256×256 array over both axes,
  rows first, is the double sum of its entries; impostor row k's mask at (i, j) is pos[i,j]·neg[k,i], its first
  margin term compares D[i,j] with D[k,i] (the row spread down the columns) and its second with D[k,j] (the row
  spread across the rows). So one round's contributions are exactly the double sums the specification names, of
  the round's two rows, and a point's 32 rounds add up, from zero, to the sum over the point's 32 rows.
-/
import proofs.«145872_j72078141161682_1_alg».proof.Proof.Triplet.Value
import proofs.«145872_j72078141161682_1_alg».proof.Proof.LibLayout
import proofs.«145872_j72078141161682_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibLayout Cert.Spec

/-- The sum over both axes is the double sum of the entries. -/
theorem sumAll_apply (v : FVec Ideal S256x256 .f32) (u w : Fin 1) :
    sumAll (F := Ideal) v (ix2 u w) = ∑ i : Fin 256, ∑ j : Fin 256, v (ix2 i j) := by
  unfold sumAll
  rw [shapeCast_1_11_apply]
  refine (Ideal.multiReduction_add_single _ 0x00000000#32 reduces_S256x1_S1 (.inl rfl) rfl (ix1 (0 : Fin 1))).trans ?_
  refine Finset.sum_congr rfl fun (i : Fin 256) _ => ?_
  have e : reduces_S256x1_S1.lift (ix1 (0 : Fin 1)) i = ix2 i (0 : Fin 1) := funext fun ax => Fin.ext (by
    match ax with
    | ⟨0, _⟩ => rfl
    | ⟨1, _⟩ => rfl)
  rw [e, shapeCast_a_a1_apply]
  refine (Ideal.multiReduction_add_single v 0x00000000#32 reduces_S256x256_S256 (.inl rfl) rfl (ix1 i)).trans ?_
  refine Finset.sum_congr rfl fun (j : Fin 256) _ => ?_
  exact congrArg v (funext fun ax => Fin.ext (by
    match ax with
    | ⟨0, _⟩ => rfl
    | ⟨1, _⟩ => rfl))

/-- Impostor row k's mask at (i, j): pos[i,j]·neg[k,i]. -/
theorem maskOf_apply (pos : FVec Ideal S256x256 .f32) (nk : Vec Ideal S1x256 .f32) (i j : Fin 256) :
    maskOf (F := Ideal) pos nk (ix2 i j) = pos (ix2 i j) * nk (ix2 (0 : Fin 1) i) := by
  unfold maskOf
  show pos (ix2 i j) * broadcastTo S256x256 (transpose S256x1 [1, 0] nk transposes_S1x256_p1_0_S256x1) broadcasts_S256x1_S256x256 (ix2 i j) = _
  rw [broadcastTo_a1_ab_apply, transpose_ix2_apply]

/-- One round's contribution to the count is the specification's, of the round's mask row. -/
theorem cntIter_apply (pos : FVec Ideal S256x256 .f32) (nk : Vec Ideal S1x256 .f32) (u w : Fin 1) :
    cntIter (F := Ideal) pos nk (ix2 u w) = iterCnt (fun i j => pos (ix2 i j)) (fun i => nk (ix2 (0 : Fin 1) i)) := by
  unfold cntIter iterCnt
  rw [sumAll_apply]
  exact Finset.sum_congr rfl fun i _ => Finset.sum_congr rfl fun j _ => maskOf_apply pos nk i j

/-- One round's contribution to the loss sum is the specification's, of the round's two rows. -/
theorem lossIter_apply (d pos : FVec Ideal S256x256 .f32) (dk nk : Vec Ideal S1x256 .f32) (u w : Fin 1) :
    lossIter (F := Ideal) d pos dk nk (ix2 u w)
      = iterLoss (fun i j => d (ix2 i j)) (fun i j => pos (ix2 i j)) (fun i => dk (ix2 (0 : Fin 1) i)) (fun i => nk (ix2 (0 : Fin 1) i)) := by
  unfold lossIter iterLoss
  rw [sumAll_apply]
  refine Finset.sum_congr rfl fun i _ => Finset.sum_congr rfl fun j _ => ?_
  have e1 : broadcastTo S256x256 (transpose S256x1 [1, 0] dk transposes_S1x256_p1_0_S256x1) broadcasts_S256x1_S256x256 (ix2 i j) = dk (ix2 (0 : Fin 1) i) := by
    rw [broadcastTo_a1_ab_apply, transpose_ix2_apply]
  have e2 : broadcastTo S256x256 dk broadcasts_S1x256_S256x256 (ix2 i j) = dk (ix2 (0 : Fin 1) j) :=
    broadcastTo_1b_ab_apply dk broadcasts_S1x256_S256x256 i j
  simp only [mulf_apply, addf_apply, maximumf_apply, subf_apply, broadcast_apply, maskOf_apply, e1, e2]

/-- Row r of a 32-row block, as a function of a natural row number (zero past the last row: never read). -/
def rowAt (X : S32x256.Idx → EReal) (r : ℕ) (j : Fin 256) : EReal := if h : r < 32 then X (ix2 ⟨r, h⟩ j) else 0

/-- The one-row load at row r reads row r. -/
theorem row_apply (X : Vec Ideal S32x256 .f32) (r : ℕ) (hr : r < 32) (inb : ∀ a, ![r, 0] a + S1x256.size a ≤ S32x256.size a) (j : Fin 256) :
    View.ld X (Rect.unit (s := S32x256) ![r, 0] S1x256.size inb) (ix2 (0 : Fin 1) j) = rowAt X r j := by
  unfold rowAt
  rw [dif_pos hr]
  show X ((Rect.unit (s := S32x256) ![r, 0] S1x256.size inb).emb (ix2 (0 : Fin 1) j)) = _
  refine congrArg X (funext fun ax => Fin.ext ?_)
  match ax with
  | ⟨0, _⟩ => show r + 1 * 0 = r; omega
  | ⟨1, _⟩ => show 0 + 1 * j.val = j.val; omega

theorem zero11_apply (j : S1x1.Idx) : broadcast S1x1 (Scalar.ofBits (F := Ideal) .f32 0x00000000#32) j = 0 := Ideal.ofBits_zero_f32

/-- A POINT'S CONTRIBUTION TO THE COUNT: the sum over its 32 mask rows. -/
theorem cntOf_apply (p0 : Vec Ideal S256x256 .f32) (ns : Vec Ideal S32x256 .f32) (u w : Fin 1) :
    cntOf (F := Ideal) p0 ns (ix2 u w) = ∑ r ∈ Finset.range 32, iterCnt (fun i j => p0 (ix2 i j)) (rowAt ns r) := by
  unfold cntOf
  simp only [addf_apply, cntIter_apply, zero11_apply, row_apply ns 0 (by decide) inb_S32x256_S1x256_0_0, row_apply ns 1 (by decide) inb_S32x256_S1x256_1_0, row_apply ns 2 (by decide) inb_S32x256_S1x256_2_0, row_apply ns 3 (by decide) inb_S32x256_S1x256_3_0, row_apply ns 4 (by decide) inb_S32x256_S1x256_4_0, row_apply ns 5 (by decide) inb_S32x256_S1x256_5_0, row_apply ns 6 (by decide) inb_S32x256_S1x256_6_0, row_apply ns 7 (by decide) inb_S32x256_S1x256_7_0, row_apply ns 8 (by decide) inb_S32x256_S1x256_8_0, row_apply ns 9 (by decide) inb_S32x256_S1x256_9_0, row_apply ns 10 (by decide) inb_S32x256_S1x256_10_0, row_apply ns 11 (by decide) inb_S32x256_S1x256_11_0, row_apply ns 12 (by decide) inb_S32x256_S1x256_12_0, row_apply ns 13 (by decide) inb_S32x256_S1x256_13_0, row_apply ns 14 (by decide) inb_S32x256_S1x256_14_0, row_apply ns 15 (by decide) inb_S32x256_S1x256_15_0, row_apply ns 16 (by decide) inb_S32x256_S1x256_16_0, row_apply ns 17 (by decide) inb_S32x256_S1x256_17_0, row_apply ns 18 (by decide) inb_S32x256_S1x256_18_0, row_apply ns 19 (by decide) inb_S32x256_S1x256_19_0, row_apply ns 20 (by decide) inb_S32x256_S1x256_20_0, row_apply ns 21 (by decide) inb_S32x256_S1x256_21_0, row_apply ns 22 (by decide) inb_S32x256_S1x256_22_0, row_apply ns 23 (by decide) inb_S32x256_S1x256_23_0, row_apply ns 24 (by decide) inb_S32x256_S1x256_24_0, row_apply ns 25 (by decide) inb_S32x256_S1x256_25_0, row_apply ns 26 (by decide) inb_S32x256_S1x256_26_0, row_apply ns 27 (by decide) inb_S32x256_S1x256_27_0, row_apply ns 28 (by decide) inb_S32x256_S1x256_28_0, row_apply ns 29 (by decide) inb_S32x256_S1x256_29_0, row_apply ns 30 (by decide) inb_S32x256_S1x256_30_0, row_apply ns 31 (by decide) inb_S32x256_S1x256_31_0]
  simp only [Finset.sum_range_succ, Finset.sum_range_zero]

/-- A POINT'S CONTRIBUTION TO THE LOSS SUM: the sum over its 32 rows. -/
theorem lossOf_apply (d0 : Vec Ideal S256x256 .f32) (ds : Vec Ideal S32x256 .f32) (p0 : Vec Ideal S256x256 .f32) (ns : Vec Ideal S32x256 .f32) (u w : Fin 1) :
    lossOf (F := Ideal) d0 ds p0 ns (ix2 u w)
      = ∑ r ∈ Finset.range 32, iterLoss (fun i j => d0 (ix2 i j)) (fun i j => p0 (ix2 i j)) (rowAt ds r) (rowAt ns r) := by
  unfold lossOf
  simp only [addf_apply, lossIter_apply, zero11_apply, row_apply ds 0 (by decide) inb_S32x256_S1x256_0_0, row_apply ds 1 (by decide) inb_S32x256_S1x256_1_0, row_apply ds 2 (by decide) inb_S32x256_S1x256_2_0, row_apply ds 3 (by decide) inb_S32x256_S1x256_3_0, row_apply ds 4 (by decide) inb_S32x256_S1x256_4_0, row_apply ds 5 (by decide) inb_S32x256_S1x256_5_0, row_apply ds 6 (by decide) inb_S32x256_S1x256_6_0, row_apply ds 7 (by decide) inb_S32x256_S1x256_7_0, row_apply ds 8 (by decide) inb_S32x256_S1x256_8_0, row_apply ds 9 (by decide) inb_S32x256_S1x256_9_0, row_apply ds 10 (by decide) inb_S32x256_S1x256_10_0, row_apply ds 11 (by decide) inb_S32x256_S1x256_11_0, row_apply ds 12 (by decide) inb_S32x256_S1x256_12_0, row_apply ds 13 (by decide) inb_S32x256_S1x256_13_0, row_apply ds 14 (by decide) inb_S32x256_S1x256_14_0, row_apply ds 15 (by decide) inb_S32x256_S1x256_15_0, row_apply ds 16 (by decide) inb_S32x256_S1x256_16_0, row_apply ds 17 (by decide) inb_S32x256_S1x256_17_0, row_apply ds 18 (by decide) inb_S32x256_S1x256_18_0, row_apply ds 19 (by decide) inb_S32x256_S1x256_19_0, row_apply ds 20 (by decide) inb_S32x256_S1x256_20_0, row_apply ds 21 (by decide) inb_S32x256_S1x256_21_0, row_apply ds 22 (by decide) inb_S32x256_S1x256_22_0, row_apply ds 23 (by decide) inb_S32x256_S1x256_23_0, row_apply ds 24 (by decide) inb_S32x256_S1x256_24_0, row_apply ds 25 (by decide) inb_S32x256_S1x256_25_0, row_apply ds 26 (by decide) inb_S32x256_S1x256_26_0, row_apply ds 27 (by decide) inb_S32x256_S1x256_27_0, row_apply ds 28 (by decide) inb_S32x256_S1x256_28_0, row_apply ds 29 (by decide) inb_S32x256_S1x256_29_0, row_apply ds 30 (by decide) inb_S32x256_S1x256_30_0, row_apply ds 31 (by decide) inb_S32x256_S1x256_31_0, row_apply ns 0 (by decide) inb_S32x256_S1x256_0_0, row_apply ns 1 (by decide) inb_S32x256_S1x256_1_0, row_apply ns 2 (by decide) inb_S32x256_S1x256_2_0, row_apply ns 3 (by decide) inb_S32x256_S1x256_3_0, row_apply ns 4 (by decide) inb_S32x256_S1x256_4_0, row_apply ns 5 (by decide) inb_S32x256_S1x256_5_0, row_apply ns 6 (by decide) inb_S32x256_S1x256_6_0, row_apply ns 7 (by decide) inb_S32x256_S1x256_7_0, row_apply ns 8 (by decide) inb_S32x256_S1x256_8_0, row_apply ns 9 (by decide) inb_S32x256_S1x256_9_0, row_apply ns 10 (by decide) inb_S32x256_S1x256_10_0, row_apply ns 11 (by decide) inb_S32x256_S1x256_11_0, row_apply ns 12 (by decide) inb_S32x256_S1x256_12_0, row_apply ns 13 (by decide) inb_S32x256_S1x256_13_0, row_apply ns 14 (by decide) inb_S32x256_S1x256_14_0, row_apply ns 15 (by decide) inb_S32x256_S1x256_15_0, row_apply ns 16 (by decide) inb_S32x256_S1x256_16_0, row_apply ns 17 (by decide) inb_S32x256_S1x256_17_0, row_apply ns 18 (by decide) inb_S32x256_S1x256_18_0, row_apply ns 19 (by decide) inb_S32x256_S1x256_19_0, row_apply ns 20 (by decide) inb_S32x256_S1x256_20_0, row_apply ns 21 (by decide) inb_S32x256_S1x256_21_0, row_apply ns 22 (by decide) inb_S32x256_S1x256_22_0, row_apply ns 23 (by decide) inb_S32x256_S1x256_23_0, row_apply ns 24 (by decide) inb_S32x256_S1x256_24_0, row_apply ns 25 (by decide) inb_S32x256_S1x256_25_0, row_apply ns 26 (by decide) inb_S32x256_S1x256_26_0, row_apply ns 27 (by decide) inb_S32x256_S1x256_27_0, row_apply ns 28 (by decide) inb_S32x256_S1x256_28_0, row_apply ns 29 (by decide) inb_S32x256_S1x256_29_0, row_apply ns 30 (by decide) inb_S32x256_S1x256_30_0, row_apply ns 31 (by decide) inb_S32x256_S1x256_31_0]
  simp only [Finset.sum_range_succ, Finset.sum_range_zero]

end Cert.KernelIdeal.Triplet

end
-- ==== Proof.Triplet.Final.lean ====
/-
  The loss sum and the triple count after the second region, in closed form. Point t stages the whole distance
  matrix and the whole anchor-positive mask, and rows 32·t … 32·t + 31 of the distance matrix and of the
  impostor mask. So point t adds, to each of the two sums, the contributions of impostor rows 32·t … 32·t + 31,
  and by induction on the point the sums after point n hold the contributions of rows 0 … 32·n + 31. Each
  output's one block is its whole one-element array and is written back after the last point only.
-/
import proofs.«145872_j72078141161682_1_alg».proof.Proof.Triplet.Arith

set_option maxRecDepth 16384

noncomputable section

namespace Cert.KernelIdeal.Triplet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibLayout Cert.Spec

variable (V : (c : Dev nD) → (b : Ref sig .tc) → Buf (Elt Ideal) ((c : Thread nD τ).loc b))

/-- Row k of a 256-row array, as a function of a natural row number (zero past the last row: never read). -/
def rowN (X : S256x256.Idx → EReal) (k : ℕ) (j : Fin 256) : EReal := if h : k < 256 then X (ix2 ⟨k, h⟩ j) else 0

/-- Impostor row k's contribution to the loss sum and to the count, from the three whole arrays. -/
def rowLoss (Dm Pm Nm : S256x256.Idx → EReal) (k : ℕ) : EReal :=
  iterLoss (fun i j => Dm (ix2 i j)) (fun i j => Pm (ix2 i j)) (rowN Dm k) (rowN Nm k)
def rowCnt (Pm Nm : S256x256.Idx → EReal) (k : ℕ) : EReal :=
  iterCnt (fun i j => Pm (ix2 i j)) (rowN Nm k)

theorem idx_facts : ∀ t : Fin cfg1.N,
    win1_0.index t (0 : Fin 2) = 0 ∧ win1_0.index t (1 : Fin 2) = 0 ∧ win1_1.index t (0 : Fin 2) = t.val ∧ win1_1.index t (1 : Fin 2) = 0
    ∧ win1_2.index t (0 : Fin 2) = 0 ∧ win1_2.index t (1 : Fin 2) = 0 ∧ win1_3.index t (0 : Fin 2) = t.val ∧ win1_3.index t (1 : Fin 2) = 0
    ∧ win1_4.index t (0 : Fin 2) = 0 ∧ win1_4.index t (1 : Fin 2) = 0 ∧ win1_5.index t (0 : Fin 2) = 0 ∧ win1_5.index t (1 : Fin 2) = 0 :=
  (by decide +kernel : ∀ t : Fin grid1.N,
    win1_0.index t (0 : Fin 2) = 0 ∧ win1_0.index t (1 : Fin 2) = 0 ∧ win1_1.index t (0 : Fin 2) = t.val ∧ win1_1.index t (1 : Fin 2) = 0
    ∧ win1_2.index t (0 : Fin 2) = 0 ∧ win1_2.index t (1 : Fin 2) = 0 ∧ win1_3.index t (0 : Fin 2) = t.val ∧ win1_3.index t (1 : Fin 2) = 0
    ∧ win1_4.index t (0 : Fin 2) = 0 ∧ win1_4.index t (1 : Fin 2) = 0 ∧ win1_5.index t (0 : Fin 2) = 0 ∧ win1_5.index t (1 : Fin 2) = 0)

/-- The whole distance matrix, as every point stages it. -/
theorem whole_dist (c : Dev nD) (t : Fin cfg1.N) (i j : Fin 256) : iblk V c 0 t (ix2 i j) = V c main_v0 (ix2 i j) := by
  show V c main_v0 (((cfg1.win 0).blk t).view.emb (ix2 i j)) = _
  refine congrArg (V c main_v0) (funext fun ax => Fin.ext ?_)
  obtain ⟨e0, e1, -⟩ := idx_facts t
  match ax with
  | ⟨0, _⟩ => show win1_0.index t (0 : Fin 2) * 256 + 1 * i.val = i.val; omega
  | ⟨1, _⟩ => show win1_0.index t (1 : Fin 2) * 256 + 1 * j.val = j.val; omega
/-- The whole anchor-positive mask, as every point stages it. -/
theorem whole_pos (c : Dev nD) (t : Fin cfg1.N) (i j : Fin 256) : iblk V c 2 t (ix2 i j) = V c main_v13 (ix2 i j) := by
  show V c main_v13 (((cfg1.win 2).blk t).view.emb (ix2 i j)) = _
  refine congrArg (V c main_v13) (funext fun ax => Fin.ext ?_)
  obtain ⟨-, -, -, -, e0, e1, -⟩ := idx_facts t
  match ax with
  | ⟨0, _⟩ => show win1_2.index t (0 : Fin 2) * 256 + 1 * i.val = i.val; omega
  | ⟨1, _⟩ => show win1_2.index t (1 : Fin 2) * 256 + 1 * j.val = j.val; omega
/-- Row r of the distance rows point t stages is row 32·t + r of the distance matrix. -/
theorem rows_dist (c : Dev nD) (t : Fin cfg1.N) (r : ℕ) (hr : r < 32) : rowAt (iblk V c 1 t) r = rowN (V c main_v0) (t.val * 32 + r) := by
  funext j
  have hk : t.val * 32 + r < 256 := by have := lt8 t; omega
  unfold rowAt rowN
  rw [dif_pos hr, dif_pos hk]
  show V c main_v0 (((cfg1.win 1).blk t).view.emb (ix2 (⟨r, hr⟩ : Fin 32) j)) = _
  refine congrArg (V c main_v0) (funext fun ax => Fin.ext ?_)
  obtain ⟨-, -, e0, e1, -⟩ := idx_facts t
  match ax with
  | ⟨0, _⟩ => show win1_1.index t (0 : Fin 2) * 32 + 1 * r = t.val * 32 + r; omega
  | ⟨1, _⟩ => show win1_1.index t (1 : Fin 2) * 256 + 1 * j.val = j.val; omega
/-- Row r of the impostor-mask rows point t stages is row 32·t + r of the impostor mask. -/
theorem rows_neg (c : Dev nD) (t : Fin cfg1.N) (r : ℕ) (hr : r < 32) : rowAt (iblk V c 3 t) r = rowN (V c main_v15) (t.val * 32 + r) := by
  funext j
  have hk : t.val * 32 + r < 256 := by have := lt8 t; omega
  unfold rowAt rowN
  rw [dif_pos hr, dif_pos hk]
  show V c main_v15 (((cfg1.win 3).blk t).view.emb (ix2 (⟨r, hr⟩ : Fin 32) j)) = _
  refine congrArg (V c main_v15) (funext fun ax => Fin.ext ?_)
  obtain ⟨-, -, -, -, -, -, e0, e1, -⟩ := idx_facts t
  match ax with
  | ⟨0, _⟩ => show win1_3.index t (0 : Fin 2) * 32 + 1 * r = t.val * 32 + r; omega
  | ⟨1, _⟩ => show win1_3.index t (1 : Fin 2) * 256 + 1 * j.val = j.val; omega

/-- Point t's contribution to the loss sum: impostor rows 32·t … 32·t + 31. -/
theorem point_loss (c : Dev nD) (t : Fin cfg1.N) (u w : Fin 1) :
    lossOf (F := Ideal) (iblk V c 0 t) (iblk V c 1 t) (iblk V c 2 t) (iblk V c 3 t) (ix2 u w)
      = ∑ r ∈ Finset.range 32, rowLoss (V c main_v0) (V c main_v13) (V c main_v15) (t.val * 32 + r) := by
  rw [lossOf_apply]
  refine Finset.sum_congr rfl fun r hr => ?_
  have hr' := Finset.mem_range.mp hr
  unfold rowLoss
  rw [rows_dist V c t r hr', rows_neg V c t r hr']
  exact congrArg₂ (fun a b => iterLoss a b _ _) (funext fun i => funext fun j => whole_dist V c t i j) (funext fun i => funext fun j => whole_pos V c t i j)
/-- Point t's contribution to the count. -/
theorem point_cnt (c : Dev nD) (t : Fin cfg1.N) (u w : Fin 1) :
    cntOf (F := Ideal) (iblk V c 2 t) (iblk V c 3 t) (ix2 u w)
      = ∑ r ∈ Finset.range 32, rowCnt (V c main_v13) (V c main_v15) (t.val * 32 + r) := by
  rw [cntOf_apply]
  refine Finset.sum_congr rfl fun r hr => ?_
  have hr' := Finset.mem_range.mp hr
  unfold rowCnt
  rw [rows_neg V c t r hr']
  exact congrArg (fun a => iterCnt a _) (funext fun i => funext fun j => whole_pos V c t i j)

/-- THE TWO SUMS after point n: the contributions of impostor rows 0 … 32·n + 31. -/
theorem sum_closed (c : Dev nD) : ∀ (n : ℕ) (hn : n < cfg1.N) (u w : Fin 1),
    (sumAt V c n hn).1 (ix2 u w) = ∑ s ∈ Finset.range (n + 1), ∑ r ∈ Finset.range 32, rowLoss (V c main_v0) (V c main_v13) (V c main_v15) (s * 32 + r)
    ∧ (sumAt V c n hn).2 (ix2 u w) = ∑ s ∈ Finset.range (n + 1), ∑ r ∈ Finset.range 32, rowCnt (V c main_v13) (V c main_v15) (s * 32 + r)
  | 0, hn, u, w => by
    rw [sumAt]
    dsimp only
    rw [lFirst_eq, cFirst_eq]
    constructor
    · rw [addf_apply, zero11_apply, zero_add, point_loss, Finset.sum_range_one]
    · rw [addf_apply, zero11_apply, zero_add, point_cnt, Finset.sum_range_one]
  | n + 1, hn, u, w => by
    have ih := sum_closed c n (Nat.lt_of_succ_lt hn) u w
    rw [sumAt]
    dsimp only
    rw [lLater_eq, cLater_eq]
    constructor
    · rw [addf_apply, ih.1, point_loss, Finset.sum_range_succ _ (n + 1)]
    · rw [addf_apply, ih.2, point_cnt, Finset.sum_range_succ _ (n + 1)]

/-- The last point. -/
abbrev t7 : Fin cfg1.N := ⟨7, by have : cfg1.N = 8 := N_1; omega⟩

theorem flushed_loss (c : Dev nD) (t : Fin cfg1.N) (hf : (cfg1.win 4).flush t = true) :
    (dat V c).flushed 4 t = ((cfg1.win 4).blk t).view.read (Elt Ideal) (sumAt V c 7 t7.isLt).1 := by
  have ht : t = t7 := Fin.ext (by have := (flush1_4 t).mp hf; have := lt8 t; show t.val = 7; omega)
  subst ht
  show (cfg1.win 4).cut (grid1.coords t7) ((dat V c).after 4 t7) = _
  rw [after4]
  funext j
  show (sumAt V c 7 t7.isLt).1 j = (sumAt V c 7 t7.isLt).1 (((cfg1.win 4).blk t7).view.emb j)
  refine congrArg (sumAt V c 7 t7.isLt).1 (funext fun ax => Fin.ext ?_)
  obtain ⟨-, -, -, -, -, -, -, -, e0, e1, -⟩ := idx_facts t7
  match ax with
  | ⟨0, _⟩ => show (j 0).val = win1_4.index t7 (0 : Fin 2) * 1 + 1 * (j 0).val; omega
  | ⟨1, _⟩ => show (j 1).val = win1_4.index t7 (1 : Fin 2) * 1 + 1 * (j 1).val; omega
theorem flushed_cnt (c : Dev nD) (t : Fin cfg1.N) (hf : (cfg1.win 5).flush t = true) :
    (dat V c).flushed 5 t = ((cfg1.win 5).blk t).view.read (Elt Ideal) (sumAt V c 7 t7.isLt).2 := by
  have ht : t = t7 := Fin.ext (by have := (flush1_5 t).mp hf; have := lt8 t; show t.val = 7; omega)
  subst ht
  show (cfg1.win 5).cut (grid1.coords t7) ((dat V c).after 5 t7) = _
  rw [after5]
  funext j
  show (sumAt V c 7 t7.isLt).2 j = (sumAt V c 7 t7.isLt).2 (((cfg1.win 5).blk t7).view.emb j)
  refine congrArg (sumAt V c 7 t7.isLt).2 (funext fun ax => Fin.ext ?_)
  obtain ⟨-, -, -, -, -, -, -, -, -, -, e0, e1⟩ := idx_facts t7
  match ax with
  | ⟨0, _⟩ => show (j 0).val = win1_5.index t7 (0 : Fin 2) * 1 + 1 * (j 0).val; omega
  | ⟨1, _⟩ => show (j 1).val = win1_5.index t7 (1 : Fin 2) * 1 + 1 * (j 1).val; omega

theorem mem_loss_blk (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v16_0).slice (win1_4.rect t)).set ↔ _
  rw [View.set_slice_whole, Rect.mem_set_unit]
  exact Iff.rfl
theorem mem_cnt_blk (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v16_1).slice (win1_5.rect t)).set ↔ _
  rw [View.set_slice_whole, Rect.mem_set_unit]
  exact Iff.rfl

/-- THE LOSS SUM'S ARRAY after the region. -/
theorem final_loss (c : Dev nD) : (dat V c).arrAt 4 cfg1.N = (sumAt V c 7 t7.isLt).1 :=
  (dat V c).arrAt_eq_of_cover 4 (sumAt V c 7 t7.isLt).1 (fun t hf => flushed_loss V c t hf) (fun i => ⟨t7, (flush1_4 t7).mpr rfl, by
    rw [mem_loss_blk]
    obtain ⟨-, -, -, -, -, -, -, -, e0, e1, -⟩ := idx_facts t7
    intro ax
    match ax with
    | ⟨0, _⟩ => show win1_4.index t7 (0 : Fin 2) * 1 ≤ (i 0).val ∧ (i 0).val < win1_4.index t7 (0 : Fin 2) * 1 + 1; have h0 : (i 0).val < 1 := (i 0).isLt; omega
    | ⟨1, _⟩ => show win1_4.index t7 (1 : Fin 2) * 1 ≤ (i 1).val ∧ (i 1).val < win1_4.index t7 (1 : Fin 2) * 1 + 1; have h1 : (i 1).val < 1 := (i 1).isLt; omega⟩)
/-- THE COUNT'S ARRAY after the region. -/
theorem final_cnt (c : Dev nD) : (dat V c).arrAt 5 cfg1.N = (sumAt V c 7 t7.isLt).2 :=
  (dat V c).arrAt_eq_of_cover 5 (sumAt V c 7 t7.isLt).2 (fun t hf => flushed_cnt V c t hf) (fun i => ⟨t7, (flush1_5 t7).mpr rfl, by
    rw [mem_cnt_blk]
    obtain ⟨-, -, -, -, -, -, -, -, -, -, e0, e1⟩ := idx_facts t7
    intro ax
    match ax with
    | ⟨0, _⟩ => show win1_5.index t7 (0 : Fin 2) * 1 ≤ (i 0).val ∧ (i 0).val < win1_5.index t7 (0 : Fin 2) * 1 + 1; have h0 : (i 0).val < 1 := (i 0).isLt; omega
    | ⟨1, _⟩ => show win1_5.index t7 (1 : Fin 2) * 1 ≤ (i 1).val ∧ (i 1).val < win1_5.index t7 (1 : Fin 2) * 1 + 1; have h1 : (i 1).val < 1 := (i 1).isLt; omega⟩)

end Cert.KernelIdeal.Triplet

end
-- ==== Proof.Total.lean ====
/-
  The idealized kernel's result, in the specification's terms. Followed through the boundaries of @main: the
  closing host operations divide the loss sum by twice the count; the two sums are what the triplet region
  leaves, the contributions of all 256 impostor rows (eight points of 32 rows each); the region found, in the
  distance matrix's array, what the distance region left — the distance function of sums over eight blocks of
  4096 columns, that is over all 32768 columns — and, in the two masks' arrays, what the fifteen host operations
  computed from the modalities: the 0/1 values of "same modality and i before j" and of "different modality".
  The distance matrix is symmetric and so is "different modality", so the specification's rearrangement applies
  and the sums over impostor rows are the sums over all triples.
-/
import proofs.«145872_j72078141161682_1_alg».proof.Proof.Frames
import proofs.«145872_j72078141161682_1_alg».proof.Proof.Gram.Final
import proofs.«145872_j72078141161682_1_alg».proof.Proof.Triplet.Final
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

open Idealize.ShloMosaic.ValueIdx Cert.LibLayout Cert.Spec

variable (m : (ℓ : Loc nD τ sig) → Buf (Elt Ideal) ℓ)

/-- The codes and the modalities at launch, as plain families. -/
abbrev codes (c : Dev nD) : Fin 256 → Fin 32768 → EReal := fun a k => E0 m c main_arg0 (ix2 a k)
abbrev mods (c : Dev nD) : Fin 256 → BitVec 32 := fun a => E0 m c main_arg1 (ix1 a)

/-! ## The two masks -/

theorem bc_row {α : Type} (A : S256.Idx → α) (i j : Fin 256) :
    broadcastInDim S256x256 ![0, 1] bcast_S256x1_S256x256_0_1 (broadcastInDim S256x1 ![0] bcast_S256_S256x1_0 A) (ix2 i j) = A (ix1 i) :=
  (broadcastInDim_apply _ bcast_S256x1_S256x256_0_1 _ (ix2 i j) (ix2 i (0 : Fin 1)) (fun a => match a with
    | ⟨0, _⟩ => by show i.val = if (256 : ℕ) = 1 then 0 else i.val; rw [if_neg (by decide)]
    | ⟨1, _⟩ => by show (0 : ℕ) = if (1 : ℕ) = 1 then 0 else j.val; rw [if_pos rfl])).trans
  (broadcastInDim_apply _ bcast_S256_S256x1_0 A (ix2 i (0 : Fin 1)) (ix1 i) (fun a => match a with
    | ⟨0, _⟩ => by show i.val = if (256 : ℕ) = 1 then 0 else i.val; rw [if_neg (by decide)]))
theorem bc_col {α : Type} (A : S256.Idx → α) (i j : Fin 256) :
    broadcastInDim S256x256 ![0, 1] bcast_S1x256_S256x256_0_1 (broadcastInDim S1x256 ![1] bcast_S256_S1x256_1 A) (ix2 i j) = A (ix1 j) :=
  (broadcastInDim_apply _ bcast_S1x256_S256x256_0_1 _ (ix2 i j) (ix2 (0 : Fin 1) j) (fun a => match a with
    | ⟨0, _⟩ => by show (0 : ℕ) = if (1 : ℕ) = 1 then 0 else i.val; rw [if_pos rfl]
    | ⟨1, _⟩ => by show j.val = if (256 : ℕ) = 1 then 0 else j.val; rw [if_neg (by decide)])).trans
  (broadcastInDim_apply _ bcast_S256_S1x256_1 A (ix2 (0 : Fin 1) j) (ix1 j) (fun a => match a with
    | ⟨0, _⟩ => by show j.val = if (256 : ℕ) = 1 then 0 else j.val; rw [if_neg (by decide)]))

/-- The impostor mask the host operations leave: the 0/1 value of "different modality". -/
theorem neg_apply (c : Dev nD) (a b : Fin 256) : E2 m c main_v15 (ix2 a b) = U (negB (mods m c) a b) := by
  have h : W2 m c (Proc.devRef .tc main_v15) = uitofp (F := Ideal) .f32 (noti (cmpi .eq
      (broadcastInDim S256x256 ![0, 1] bcast_S256x1_S256x256_0_1 (broadcastInDim S256x1 ![0] bcast_S256_S256x1_0 (W1 m c (Proc.devRef .tc main_arg1))))
      (broadcastInDim S256x256 ![0, 1] bcast_S1x256_S256x256_0_1 (broadcastInDim S1x256 ![1] bcast_S256_S1x256_1 (W1 m c (Proc.devRef .tc main_arg1)))))) := by
    show StableHlo.after hostOps1 (W1 m c) (Proc.devRef .tc main_v15) = _
    after_results
  show W2 m c (Proc.devRef .tc main_v15) (ix2 a b) = _
  rw [h]
  show FloatOps.uitofp (F := Ideal) .f32 (~~~(IntOp.cmpi .eq (broadcastInDim S256x256 ![0, 1] bcast_S256x1_S256x256_0_1 (broadcastInDim S256x1 ![0] bcast_S256_S256x1_0 (W1 m c (Proc.devRef .tc main_arg1))) (ix2 a b))
      (broadcastInDim S256x256 ![0, 1] bcast_S1x256_S256x256_0_1 (broadcastInDim S1x256 ![1] bcast_S256_S1x256_1 (W1 m c (Proc.devRef .tc main_arg1))) (ix2 a b)))) = _
  rw [bc_row, bc_col, W1_of_ne m c main_arg1 (by decide)]
  rfl

/-- The anchor-positive mask the host operations leave: the 0/1 value of "same modality and i before j". -/
theorem pos_apply (c : Dev nD) (i j : Fin 256) : E2 m c main_v13 (ix2 i j) = U (posB (mods m c) i j) := by
  have h : W2 m c (Proc.devRef .tc main_v13) = uitofp (F := Ideal) .f32 (andi (cmpi .eq
      (broadcastInDim S256x256 ![0, 1] bcast_S256x1_S256x256_0_1 (broadcastInDim S256x1 ![0] bcast_S256_S256x1_0 (W1 m c (Proc.devRef .tc main_arg1))))
      (broadcastInDim S256x256 ![0, 1] bcast_S1x256_S256x256_0_1 (broadcastInDim S1x256 ![1] bcast_S256_S1x256_1 (W1 m c (Proc.devRef .tc main_arg1)))))
      (cmpi .slt (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))) := by
    show StableHlo.after hostOps1 (W1 m c) (Proc.devRef .tc main_v13) = _
    after_results
  show W2 m c (Proc.devRef .tc main_v13) (ix2 i j) = _
  rw [h]
  show FloatOps.uitofp (F := Ideal) .f32 (IntOp.andi (IntOp.cmpi .eq (broadcastInDim S256x256 ![0, 1] bcast_S256x1_S256x256_0_1 (broadcastInDim S256x1 ![0] bcast_S256_S256x1_0 (W1 m c (Proc.devRef .tc main_arg1))) (ix2 i j))
      (broadcastInDim S256x256 ![0, 1] bcast_S1x256_S256x256_0_1 (broadcastInDim S1x256 ![1] bcast_S256_S1x256_1 (W1 m c (Proc.devRef .tc main_arg1))) (ix2 i j)))
      (IntOp.cmpi .slt (broadcastInDim S256x256 ![0, 1] bcast_S256x1_S256x256_0_1 (broadcastInDim S256x1 ![0] bcast_S256_S256x1_0 (iotaInDim S256 32 0)) (ix2 i j))
        (broadcastInDim S256x256 ![0, 1] bcast_S1x256_S256x256_0_1 (broadcastInDim S1x256 ![1] bcast_S256_S1x256_1 (iotaInDim S256 32 0)) (ix2 i j)))) = _
  rw [bc_row, bc_col, bc_row, bc_col, W1_of_ne m c main_arg1 (by decide)]
  rfl

/-! ## The distance matrix entering the triplet region -/

/-- A sum over eight blocks of 4096 columns is the sum over all 32768 columns. -/
theorem sum_cols (f : ℕ → EReal) : ∑ s ∈ Finset.range 8, ∑ k : Fin 4096, f (s * 4096 + k.val) = ∑ j : Fin 32768, f j.val := by
  have h1 : ∀ s, ∑ k : Fin 4096, f (s * 4096 + k.val) = ∑ r ∈ Finset.range 4096, f (s * 4096 + r) := fun s => (Finset.sum_range fun r => f (s * 4096 + r)).symm
  simp only [h1]
  rw [sum_blocks f 4096 8]
  exact Finset.sum_range f

theorem col_val (X : S256x32768.Idx → EReal) (a : Fin 256) (j : Fin 32768) : Gram.col X a j.val = X (ix2 a j) := by
  unfold Gram.col; rw [dif_pos j.isLt]

/-- What the triplet region finds in the distance matrix's array: the distance matrix of the codes. -/
theorem dist_apply (c : Dev nD) (a b : Fin 256) : E2 m c main_v0 (ix2 a b) = distMat (codes m c) a b := by
  have h : E2 m c main_v0 = Gram.dOut (E0 m) c Gram.t7 :=
    (W2_of m c main_v0 (by decide)).trans ((W1_arr m c 1).trans (Gram.final_out (E0 m) c))
  rw [h, Gram.dOut_last_apply]
  unfold distMat Gram.sqTo Gram.gramTo
  rw [sum_cols (fun j => Gram.col (E0 m c main_arg0) a j * Gram.col (E0 m c main_arg0) a j),
    sum_cols (fun j => Gram.col (E0 m c main_arg0) b j * Gram.col (E0 m c main_arg0) b j),
    sum_cols (fun j => Gram.col (E0 m c main_arg0) a j * Gram.col (E0 m c main_arg0) b j)]
  simp only [col_val]

/-! ## The two sums -/

/-- A sum over eight blocks of 32 rows is the sum over all 256 rows. -/
theorem sum_rows (f : ℕ → EReal) : ∑ s ∈ Finset.range 8, ∑ r ∈ Finset.range 32, f (s * 32 + r) = ∑ k : Fin 256, f k.val := by
  rw [sum_blocks f 32 8]
  exact Finset.sum_range f

theorem rowN_val (X : S256x256.Idx → EReal) (k : Fin 256) : Triplet.rowN X k.val = fun j => X (ix2 k j) := by
  funext j; unfold Triplet.rowN; rw [dif_pos k.isLt]

/-- THE LOSS SUM the triplet region leaves: the sum over all triples. -/
theorem loss_apply (c : Dev nD) : E3 m c main_v16_0 (ix2 (0 : Fin 1) (0 : Fin 1)) = lossTotal (distMat (codes m c)) (mods m c) := by
  have h1 : E3 m c main_v16_0 = (Triplet.sumAt (E2 m) c 7 Triplet.t7.isLt).1 := (W3_loss m c).trans (Triplet.final_loss (E2 m) c)
  have h2 := (Triplet.sum_closed (E2 m) c 7 Triplet.t7.isLt 0 0).1
  rw [h1, h2]
  show ∑ s ∈ Finset.range 8, ∑ r ∈ Finset.range 32, Triplet.rowLoss (E2 m c main_v0) (E2 m c main_v13) (E2 m c main_v15) (s * 32 + r) = _
  rw [sum_rows (fun k => Triplet.rowLoss (E2 m c main_v0) (E2 m c main_v13) (E2 m c main_v15) k)]
  unfold Triplet.rowLoss
  simp only [rowN_val]
  have hD : (fun i j => E2 m c main_v0 (ix2 i j)) = distMat (codes m c) := funext fun i => funext fun j => dist_apply m c i j
  have hP : (fun i j => E2 m c main_v13 (ix2 i j)) = fun i j => U (posB (mods m c) i j) := funext fun i => funext fun j => pos_apply m c i j
  have hN : ∀ k, (fun j => E2 m c main_v15 (ix2 k j)) = fun j => U (negB (mods m c) k j) := fun k => funext fun j => neg_apply m c k j
  have hDk : ∀ k, (fun j => E2 m c main_v0 (ix2 k j)) = fun j => distMat (codes m c) k j := fun k => funext fun j => dist_apply m c k j
  refine Eq.trans (Finset.sum_congr rfl fun k _ => ?_)
    (loss_rearranged (distMat (codes m c)) (distMat_comm (codes m c)) (posB (mods m c)) (negB (mods m c)) (negB_comm (mods m c)))
  rw [hD, hP, hN k, hDk k]

/-- THE COUNT the triplet region leaves: the number of triples. -/
theorem cnt_apply (c : Dev nD) : E3 m c main_v16_1 (ix2 (0 : Fin 1) (0 : Fin 1)) = cntTotal (mods m c) := by
  have h1 : E3 m c main_v16_1 = (Triplet.sumAt (E2 m) c 7 Triplet.t7.isLt).2 := (W3_count m c).trans (Triplet.final_cnt (E2 m) c)
  have h2 := (Triplet.sum_closed (E2 m) c 7 Triplet.t7.isLt 0 0).2
  rw [h1, h2]
  show ∑ s ∈ Finset.range 8, ∑ r ∈ Finset.range 32, Triplet.rowCnt (E2 m c main_v13) (E2 m c main_v15) (s * 32 + r) = _
  rw [sum_rows (fun k => Triplet.rowCnt (E2 m c main_v13) (E2 m c main_v15) k)]
  unfold Triplet.rowCnt
  simp only [rowN_val]
  have hP : (fun i j => E2 m c main_v13 (ix2 i j)) = fun i j => U (posB (mods m c) i j) := funext fun i => funext fun j => pos_apply m c i j
  have hN : ∀ k, (fun j => E2 m c main_v15 (ix2 k j)) = fun j => U (negB (mods m c) k j) := fun k => funext fun j => neg_apply m c k j
  refine Eq.trans (Finset.sum_congr rfl fun k _ => ?_)
    (cnt_rearranged (posB (mods m c)) (negB (mods m c)) (negB_comm (mods m c)))
  rw [hP, hN k]

/-! ## The result -/

theorem idx11_eq (j : S1x1.Idx) : j = ix2 (0 : Fin 1) (0 : Fin 1) := by
  funext d; apply Fin.ext
  match d with
  | ⟨0, _⟩ => have h : (j 0).val < 1 := (j 0).isLt; show (j 0).val = 0; omega
  | ⟨1, _⟩ => have h : (j 1).val < 1 := (j 1).isLt; show (j 1).val = 0; omega

/-- THE KERNEL'S RESULT: the loss sum over all triples, over twice the number of triples. -/
theorem result_eq (c : Dev nD) (i : S_.Idx) :
    W4 m c (Proc.devRef .tc main_v20) i = result (lossTotal (distMat (codes m c)) (mods m c)) (cntTotal (mods m c)) := by
  have h : W4 m c (Proc.devRef .tc main_v20) = Host.divf (F := Ideal)
      (shapeCast S_ (W3 m c (Proc.devRef .tc main_v16_0)) shapeCasts_S1x1_S_)
      (mulf (F := Ideal) (constant (F := Ideal) S_ .f32 0x40000000#32) (shapeCast S_ (W3 m c (Proc.devRef .tc main_v16_1)) shapeCasts_S1x1_S_)) := by
    show StableHlo.after hostOps2 (W3 m c) (Proc.devRef .tc main_v20) = _
    after_results
    rfl
  rw [h]
  show FloatOps.hostDivf (F := Ideal) (shapeCast S_ (W3 m c (Proc.devRef .tc main_v16_0)) shapeCasts_S1x1_S_ i)
      (FloatOps.mulf (F := Ideal) (FloatOps.ofBits (F := Ideal) .f32 0x40000000#32) (shapeCast S_ (W3 m c (Proc.devRef .tc main_v16_1)) shapeCasts_S1x1_S_ i)) = _
  have e0 : shapeCast S_ (W3 m c (Proc.devRef .tc main_v16_0)) shapeCasts_S1x1_S_ i = E3 m c main_v16_0 (ix2 (0 : Fin 1) (0 : Fin 1)) := by
    unfold shapeCast; exact congrArg _ (idx11_eq _)
  have e1 : shapeCast S_ (W3 m c (Proc.devRef .tc main_v16_1)) shapeCasts_S1x1_S_ i = E3 m c main_v16_1 (ix2 (0 : Fin 1) (0 : Fin 1)) := by
    unfold shapeCast; exact congrArg _ (idx11_eq _)
  rw [e0, e1, loss_apply, cnt_apply]
  rfl

end Cert.KernelIdeal.Run

end
-- ==== Proof.RefFrame.lean ====
/-
  The reference program has no kernel: it is a straight line of host operations, and its run ends with every
  result at the operations' composed term of the arguments and the arguments untouched. Dropping the result
  leaves the frame claim.
-/
import proofs.«145872_j72078141161682_1_alg».proof.Defs
import proofs.«145872_j72078141161682_1_alg».proof.Proof.Gen.ReferenceIdeal
import proofs.«145872_j72078141161682_1_alg».proof.Proof.Gen.Pre_finite_inputs
import proofs.«145872_j72078141161682_1_alg».proof.Proof.Gen.ReferenceIdeal.Read

noncomputable section

open Idealize.ShloMosaic Idealize.ShloMosaic.TcCoe Idealize.SL.Sem

namespace Cert.Proof.Ref

/-- Every weakly fair execution of the reference terminates without a fault and leaves both arguments as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Ref

end
-- ==== Proof.RefValue.lean ====
/-
  What the reference computes, read one operation at a time down to scalars. The generated read-at-an-index
  lemmas turn each of its 82 host operations into a statement about one entry; composing them, the distance
  stage at (a, b) is the distance function of the rows' squared norms and inner product (sums over all 32768
  columns), the summand of the big reduction at the triple (i, j, k) is the two margin terms times the mask bit
  of the triple, and the result is the loss sum over twice the count. All that is done here is naming the index
  each composed index map produces and dropping the additions of the zero initial value.
-/
import proofs.«145872_j72078141161682_1_alg».proof.Proof.Gen.ReferenceIdeal.Read
import proofs.«145872_j72078141161682_1_alg».proof.Proof.Spec
import proofs.«145872_j72078141161682_1_alg».proof.Proof.LibLayout

set_option maxRecDepth 16384

noncomputable section

namespace Cert.Proof.Ref

open Cert.ReferenceIdeal Cert.ReferenceIdeal.Gen Cert.ReferenceIdeal.Read Idealize.ShloMosaic Idealize.ShloMosaic.TcCoe Idealize.ShloMosaic.ValueIdx Cert.Spec Cert.LibLayout

/-- The codes as a family of extended reals. -/
abbrev codes (x0 : (⟨S256x32768, .f32⟩ : BufTy).Contents (Elt Ideal)) : Fin 256 → Fin 32768 → EReal := fun a k => x0 (ix2 a k)
/-- The modalities as a family of words. -/
abbrev mods (x1 : (⟨S256, .i32⟩ : BufTy).Contents (Elt Ideal)) : Fin 256 → BitVec 32 := fun a => x1 (ix1 a)

/-- THE DISTANCE STAGE at (a, b). -/
theorem dist_stage (x0 : (⟨S256x32768, .f32⟩ : BufTy).Contents (Elt Ideal)) (a b : Fin 256) :
    val_main_v20 (F := Ideal) x0 (ix2 a b) = distMat (codes x0) a b := by
  have e1 : ∀ k, idx_main_v1 (idx_main_v2 (idx_main_v4 (ix2 a b))) k = ix2 a k := fun k => funext fun ax => Fin.ext (by match ax with | ⟨0, _⟩ => rfl | ⟨1, _⟩ => rfl)
  have e2 : ∀ k, idx_main_v1 (idx_main_v3 (idx_main_v5 (ix2 a b))) k = ix2 b k := fun k => funext fun ax => Fin.ext (by match ax with | ⟨0, _⟩ => rfl | ⟨1, _⟩ => rfl)
  have e3 : ∀ k, lidx_main_v8 (ix2 a b) k = ix2 a k := fun k => funext fun ax => Fin.ext (by match ax with | ⟨0, _⟩ => rfl | ⟨1, _⟩ => rfl)
  have e4 : ∀ k, idx_main_v7 (ridx_main_v8 (ix2 a b) k) = ix2 b k := fun k => funext fun ax => Fin.ext (by match ax with | ⟨0, _⟩ => rfl | ⟨1, _⟩ => rfl)
  simp only [val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_call0_v0_apply, val_main_call0_v1_apply, val_main_call1_v0_apply, val_main_call1_v1_apply, e1, e2, e3, e4, zeroLit_add]
  rfl

/-- THE SUMMAND of the loss reduction at the triple (i, j, k). -/
theorem loss_summand (x0 : (⟨S256x32768, .f32⟩ : BufTy).Contents (Elt Ideal)) (x1 : (⟨S256, .i32⟩ : BufTy).Contents (Elt Ideal)) (i j k : Fin 256) :
    val_main_v57 (F := Ideal) x0 x1 (ix3 i j k)
      = (max (distMat (codes x0) i j - distMat (codes x0) i k + margin) zeroLit + max (distMat (codes x0) i j - distMat (codes x0) j k + margin) zeroLit)
          * U (IntOp.andi (posB (mods x1) i j) (negB (mods x1) i k)) := by
  have d1 : idx_main_v40 (idx_main_v42 (ix3 i j k)) = ix2 i j := funext fun ax => Fin.ext (by match ax with | ⟨0, _⟩ => rfl | ⟨1, _⟩ => rfl)
  have d2 : idx_main_v41 (idx_main_v43 (ix3 i j k)) = ix2 i k := funext fun ax => Fin.ext (by match ax with | ⟨0, _⟩ => rfl | ⟨1, _⟩ => rfl)
  have d3 : idx_main_v48 (idx_main_v50 (ix3 i j k)) = ix2 i j := funext fun ax => Fin.ext (by match ax with | ⟨0, _⟩ => rfl | ⟨1, _⟩ => rfl)
  have d4 : idx_main_v49 (idx_main_v51 (ix3 i j k)) = ix2 j k := funext fun ax => Fin.ext (by match ax with | ⟨0, _⟩ => rfl | ⟨1, _⟩ => rfl)
  have m1 : idx_main_v21 (idx_main_v23 (idx_main_v34 (idx_main_v36 (ix3 i j k)))) = ix1 i := funext fun ax => Fin.ext (by match ax with | ⟨0, _⟩ => rfl)
  have m2 : idx_main_v22 (idx_main_v24 (idx_main_v34 (idx_main_v36 (ix3 i j k)))) = ix1 j := funext fun ax => Fin.ext (by match ax with | ⟨0, _⟩ => rfl)
  have m3 : idx_main_v21 (idx_main_v23 (idx_main_v35 (idx_main_v37 (ix3 i j k)))) = ix1 i := funext fun ax => Fin.ext (by match ax with | ⟨0, _⟩ => rfl)
  have m4 : idx_main_v22 (idx_main_v24 (idx_main_v35 (idx_main_v37 (ix3 i j k)))) = ix1 k := funext fun ax => Fin.ext (by match ax with | ⟨0, _⟩ => rfl)
  simp only [val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_cst_6_apply, val_main_cst_7_apply, val_main_call2_cst_apply, val_main_call2_v0_apply, val_main_call3_cst_apply, val_main_call3_v0_apply, d1, d2, d3, d4, m1, m2, m3, m4, dist_stage]
  rfl

/-- THE SUMMAND of the count reduction at the triple (i, j, k). -/
theorem cnt_summand (x1 : (⟨S256, .i32⟩ : BufTy).Contents (Elt Ideal)) (i j k : Fin 256) :
    val_main_v39 (F := Ideal) x1 (ix3 i j k) = U (IntOp.andi (posB (mods x1) i j) (negB (mods x1) i k)) := by
  have m1 : idx_main_v21 (idx_main_v23 (idx_main_v34 (idx_main_v36 (ix3 i j k)))) = ix1 i := funext fun ax => Fin.ext (by match ax with | ⟨0, _⟩ => rfl)
  have m2 : idx_main_v22 (idx_main_v24 (idx_main_v34 (idx_main_v36 (ix3 i j k)))) = ix1 j := funext fun ax => Fin.ext (by match ax with | ⟨0, _⟩ => rfl)
  have m3 : idx_main_v21 (idx_main_v23 (idx_main_v35 (idx_main_v37 (ix3 i j k)))) = ix1 i := funext fun ax => Fin.ext (by match ax with | ⟨0, _⟩ => rfl)
  have m4 : idx_main_v22 (idx_main_v24 (idx_main_v35 (idx_main_v37 (ix3 i j k)))) = ix1 k := funext fun ax => Fin.ext (by match ax with | ⟨0, _⟩ => rfl)
  simp only [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, m1, m2, m3, m4]
  rfl

/-- THE REFERENCE'S RESULT: the loss sum over all triples, over twice the number of triples. -/
theorem result_eq (x0 : (⟨S256x32768, .f32⟩ : BufTy).Contents (Elt Ideal)) (x1 : (⟨S256, .i32⟩ : BufTy).Contents (Elt Ideal)) (i : S_.Idx) :
    val_main_v61 (F := Ideal) x0 x1 i = result (lossTotal (distMat (codes x0)) (mods x1)) (cntTotal (mods x1)) := by
  rw [val_main_v61_apply, val_main_v60_apply, val_main_v58_apply, val_main_v59_apply, val_main_cst_10_apply, val_main_cst_8_apply, val_main_cst_9_apply,
    zeroLit_add, zeroLit_add, sum_idx3, sum_idx3]
  unfold result lossTotal cntTotal
  simp only [loss_summand, cnt_summand]

end Cert.Proof.Ref

end
-- ==== Proof.lean ====
/-
  The certificate of one kernel against its reference.

  Both programs compute a triplet-margin loss over 256 codes of dimension 32768 with a modality each. First the
  256×256 matrix of pairwise Euclidean distances by the Gram identity, D[a,b] = √max(|x_a|² + |x_b|² − 2⟨x_a, x_b⟩, 0)
  (guarded at zero). Then, over all triples (i, j, k) with i before j of the same modality and k of another, the
  sum of max(D[i,j] − D[i,k] + m, 0) + max(D[i,j] − D[j,k] + m, 0), divided by twice the number of such triples.

  The reference does this in one piece over a 256×256×256 array. The kernel does it in two grid loops: the first
  streams the codes in eight blocks of 4096 columns, accumulating the Gram matrix and the squared norms in two
  buffers it keeps between grid points, and turns them into distances after the last block; the second walks the
  impostors k in eight blocks of 32 rows of D, and for each k reads row k of D both as the column D[·,k] and as the
  row D[k,·] — which is the same vector because D is symmetric — accumulating the loss sum and the count.

  With exact arithmetic on the extended reals the two agree. The laws used are commutativity and associativity of
  + and · only (to regroup the block sums into whole sums, to exchange the order of the three summations, and for
  the symmetry of D and of "different modality"), and that the 0/1 value of a conjunction of two bits is the
  product of their 0/1 values. None of them needs the inputs to be finite, so the precondition is never opened.

  The five claims. Each of the three programs runs to the end without a fault and leaves its two arguments as
  launched: for the two kernel programs this is read off one run theorem that follows every unscoped buffer
  through @main's four items (the same text proves it for the word-level program and for the idealized one);
  for the reference it is its run with the result dropped. The idealization rewrote nothing, so the kernel's
  agreement with its idealization is trivial. And the idealized kernel and the idealized reference, run from
  memories that agree on the arguments, both end with the result the specification names.
-/
import proofs.«145872_j72078141161682_1_alg».proof.Defs
import proofs.«145872_j72078141161682_1_alg».proof.Proof.Gen.Kernel
import proofs.«145872_j72078141161682_1_alg».proof.Proof.Gen.KernelIdeal
import proofs.«145872_j72078141161682_1_alg».proof.Proof.Gen.ReferenceIdeal
import proofs.«145872_j72078141161682_1_alg».proof.Proof.Gen.Pre_finite_inputs
import proofs.«145872_j72078141161682_1_alg».proof.Proof.Word.Frames
import proofs.«145872_j72078141161682_1_alg».proof.Proof.Total
import proofs.«145872_j72078141161682_1_alg».proof.Proof.RefFrame
import proofs.«145872_j72078141161682_1_alg».proof.Proof.RefValue

noncomputable section

namespace Cert.Proof

open Idealize.ShloMosaic Idealize.ShloMosaic.TcCoe Idealize.SL.Sem

/-- The word-level kernel runs and leaves its arguments as launched. -/
theorem frame_word : Cert.frame_Kernel := fun m ρ _ => Cert.Kernel.Run.frame m ρ
/-- So does the idealized kernel. -/
theorem frame_ideal : Cert.frame_KernelIdeal := fun m ρ _ => Cert.KernelIdeal.Run.frame m ρ
/-- The idealization rewrote no operation. -/
theorem preserves : Cert.preserves_Kernel_KernelIdeal := trivial

/-- The idealized kernel and the idealized reference, from memories agreeing on the codes and the modalities, both
    end at the loss sum over all triples divided by twice the number of triples. -/
theorem algebraic : Cert.algebraic_KernelIdeal_ReferenceIdeal := by
  intro m ρ m' ρ' _ hagree
  refine ⟨fun c => fun _ => Cert.Spec.result
      (Cert.Spec.lossTotal (Cert.Spec.distMat (Cert.KernelIdeal.Run.codes m c)) (Cert.KernelIdeal.Run.mods m c))
      (Cert.Spec.cntTotal (Cert.KernelIdeal.Run.mods m c)), ?_, ?_⟩
  · refine (θ_run Cert.KernelIdeal.defs _ _).mono (fun s h c => ⟨?_, ?_, ?_⟩) (Cert.KernelIdeal.Run.run_all m ρ)
    · exact (h c _ (Cert.KernelIdeal.Run.mem_uc Cert.KernelIdeal.main_v20 (by decide))).trans (funext fun i => Cert.KernelIdeal.Run.result_eq m c i)
    · exact (h c _ (Cert.KernelIdeal.Run.mem_uc Cert.KernelIdeal.main_arg0 (by decide))).trans (Cert.KernelIdeal.Run.W4_codes m c)
    · exact (h c _ (Cert.KernelIdeal.Run.mem_uc Cert.KernelIdeal.main_arg1 (by decide))).trans (Cert.KernelIdeal.Run.W4_mods m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq]
    funext i
    rw [Cert.Proof.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, Cert.Proof.Ref.frame_ri, preserves, algebraic⟩

end Cert.Proof

end
